-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S4 : Shape := ⟨1, ![4]⟩
abbrev S_ : Shape := ⟨0, ![]⟩
abbrev S4194304 : Shape := ⟨1, ![4194304]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel
  bcast_S_S4 : S_.BroadcastsInDim S4 (![] : Fin 0 → Fin S4.rank)
  reducesTo_S4_S_d0 : S4.ReducesTo [0] S_
  reducesTo_S4194304x16_S4194304_d1 : S4194304x16.ReducesTo [1] S4194304
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x16 .f32) (main_arg1 : FVec F S4 .f32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4194304x16 .f32 := mulf main_arg0 main_arg0
  let main_cst_2 : FVec F S_ .f32 := constant S_ .f32 0x00000000#32
  let main_v10 : FVec F S4194304 .f32 := (fun x v => Host.reduceAdd x v reducesTo_S4194304x16_S4194304_d1 h_S_) main_v9 main_cst_2
  let main_cst_3 : FVec F S_ .f32 := constant S_ .f32 0x00000000#32
  let main_v11 : FVec F S4194304 .f32 := broadcastInDim S4194304 ![] bcast_S_S4194304 main_cst_3
  let main_v12 : IVec S4194304 1 := cmpf .ogt main_v10 main_v11
  let main_c_4 : IVec S_ 1 := constantI S_ 1 1#1
  let main_v13 : IVec S_ 1 := (fun x v => Host.reduce IntOp.andi x v reducesTo_S4194304_S_d0 h_S_) main_v12 main_c_4
  let main_v14 : IVec S_ 1 := andi main_v8 main_v13
  main_v14
-- ==== Kernel.lean ====
abbrev S4194304x16 : Shape := ⟨2, ![4194304, 16]⟩
abbrev S4 : Shape := ⟨1, ![4]⟩
abbrev S16x4 : Shape := ⟨2, ![16, 4]⟩
abbrev S16x16 : Shape := ⟨2, ![16, 16]⟩
abbrev S_ : Shape := ⟨0, ![]⟩
abbrev S16x2x2x2x2 : Shape := ⟨5, ![16, 2, 2, 2, 2]⟩
abbrev S1 : Shape := ⟨1, ![1]⟩
abbrev S32x32 : Shape := ⟨2, ![32, 32]⟩
abbrev S32x1x32x1 : Shape := ⟨4, ![32, 1, 32, 1]⟩
abbrev S1x16x1x16 : Shape := ⟨4, ![1, 16, 1, 16]⟩
abbrev S32x16x32x16 : Shape := ⟨4, ![32, 16, 32, 16]⟩
abbrev S512x512 : Shape := ⟨2, ![512, 512]⟩
abbrev S1x16x1x4 : Shape := ⟨4, ![1, 16, 1, 4]⟩
abbrev S32x16x32x4 : Shape := ⟨4, ![32, 16, 32, 4]⟩
abbrev S512x128 : Shape := ⟨2, ![512, 128]⟩
abbrev S131072x512 : Shape := ⟨2, ![131072, 512]⟩
abbrev S131072x128 : Shape := ⟨2, ![131072, 128]⟩
abbrev S4194304x4 : Shape := ⟨2, ![4194304, 4]⟩
abbrev S2048x512 : Shape := ⟨2, ![2048, 512]⟩
abbrev S2048x128 : Shape := ⟨2, ![2048, 128]⟩

abbrev nBuf : Space → Nat
  | .hbm => 139
  | .vmem => 8
  | .smem => 0
  | _ => 0

abbrev hbmTy0_0 (i : Nat) : BufTy := match i % 128 with
  | 0 => ⟨S4194304x16, .f32⟩
  | 1 => ⟨S4, .f32⟩
  | 2 => ⟨S16x4, .f32⟩
  | 3 => ⟨S16x16, .i32⟩
  | 4 => ⟨S16x16, .i32⟩
  | 5 => ⟨S_, .i32⟩
  | 6 => ⟨S16x16, .i32⟩
  | 7 => ⟨S16x16, .i32⟩
  | 8 => ⟨S16x16, .i1⟩
  | 9 => ⟨S16x16, .f32⟩
  | 10 => ⟨S16x2x2x2x2, .f32⟩
  | 11 => ⟨S_, .f32⟩
  | 12 => ⟨S16x2x2x2x2, .f32⟩
  | 13 => ⟨S_, .f32⟩
  | 14 => ⟨S4, .f32⟩
  | 15 => ⟨S4, .f32⟩
  | 16 => ⟨S4, .f32⟩
  | 17 => ⟨S4, .f32⟩
  | 18 => ⟨S16x2x2x2x2, .f32⟩
  | 19 => ⟨S16x2x2x2x2, .f32⟩
  | 20 => ⟨S1, .f32⟩
  | 21 => ⟨S_, .f32⟩
  | 22 => ⟨S16x2x2x2x2, .f32⟩
  | 23 => ⟨S16x2x2x2x2, .f32⟩
  | 24 => ⟨S1, .f32⟩
  | 25 => ⟨S_, .f32⟩
  | 26 => ⟨S16x2x2x2x2, .f32⟩
  | 27 => ⟨S16x2x2x2x2, .f32⟩
  | 28 => ⟨S16x2x2x2x2, .f32⟩
  | 29 => ⟨S1, .f32⟩
  | 30 => ⟨S_, .f32⟩
  | 31 => ⟨S16x2x2x2x2, .f32⟩
  | 32 => ⟨S16x2x2x2x2, .f32⟩
  | 33 => ⟨S1, .f32⟩
  | 34 => ⟨S_, .f32⟩
  | 35 => ⟨S16x2x2x2x2, .f32⟩
  | 36 => ⟨S16x2x2x2x2, .f32⟩
  | 37 => ⟨S16x2x2x2x2, .f32⟩
  | 38 => ⟨S16x2x2x2x2, .f32⟩
  | 39 => ⟨S16x2x2x2x2, .f32⟩
  | 40 => ⟨S1, .f32⟩
  | 41 => ⟨S_, .f32⟩
  | 42 => ⟨S16x2x2x2x2, .f32⟩
  | 43 => ⟨S16x2x2x2x2, .f32⟩
  | 44 => ⟨S1, .f32⟩
  | 45 => ⟨S_, .f32⟩
  | 46 => ⟨S16x2x2x2x2, .f32⟩
  | 47 => ⟨S16x2x2x2x2, .f32⟩
  | 48 => ⟨S16x2x2x2x2, .f32⟩
  | 49 => ⟨S1, .f32⟩
  | 50 => ⟨S_, .f32⟩
  | 51 => ⟨S16x2x2x2x2, .f32⟩
  | 52 => ⟨S16x2x2x2x2, .f32⟩
  | 53 => ⟨S1, .f32⟩
  | 54 => ⟨S_, .f32⟩
  | 55 => ⟨S16x2x2x2x2, .f32⟩
  | 56 => ⟨S16x2x2x2x2, .f32⟩
  | 57 => ⟨S16x2x2x2x2, .f32⟩
  | 58 => ⟨S16x2x2x2x2, .f32⟩
  | 59 => ⟨S16x2x2x2x2, .f32⟩
  | 60 => ⟨S1, .f32⟩
  | 61 => ⟨S_, .f32⟩
  | 62 => ⟨S16x2x2x2x2, .f32⟩
  | 63 => ⟨S16x2x2x2x2, .f32⟩
  | 64 => ⟨S1, .f32⟩
  | 65 => ⟨S_, .f32⟩
  | 66 => ⟨S16x2x2x2x2, .f32⟩
  | 67 => ⟨S16x2x2x2x2, .f32⟩
  | 68 => ⟨S16x2x2x2x2, .f32⟩
  | 69 => ⟨S1, .f32⟩
  | 70 => ⟨S_, .f32⟩
  | 71 => ⟨S16x2x2x2x2, .f32⟩
  | 72 => ⟨S16x2x2x2x2, .f32⟩
  | 73 => ⟨S1, .f32⟩
  | 74 => ⟨S_, .f32⟩
  | 75 => ⟨S16x2x2x2x2, .f32⟩
  | 76 => ⟨S16x2x2x2x2, .f32⟩
  | 77 => ⟨S16x2x2x2x2, .f32⟩
  | 78 => ⟨S16x2x2x2x2, .f32⟩
  | 79 => ⟨S16x2x2x2x2, .f32⟩
  | 80 => ⟨S1, .f32⟩
  | 81 => ⟨S_, .f32⟩
  | 82 => ⟨S16x2x2x2x2, .f32⟩
  | 83 => ⟨S16x2x2x2x2, .f32⟩
  | 84 => ⟨S1, .f32⟩
  | 85 => ⟨S_, .f32⟩
  | 86 => ⟨S16x2x2x2x2, .f32⟩
  | 87 => ⟨S16x2x2x2x2, .f32⟩
  | 88 => ⟨S16x2x2x2x2, .f32⟩
  | 89 => ⟨S1, .f32⟩
  | 90 => ⟨S_, .f32⟩
  | 91 => ⟨S16x2x2x2x2, .f32⟩
  | 92 => ⟨S16x2x2x2x2, .f32⟩
  | 93 => ⟨S1, .f32⟩
  | 94 => ⟨S_, .f32⟩
  | 95 => ⟨S16x2x2x2x2, .f32⟩
  | 96 => ⟨S16x2x2x2x2, .f32⟩
  | 97 => ⟨S16x2x2x2x2, .f32⟩
  | 98 => ⟨S16x16, .f32⟩
  | 99 => ⟨S16x16, .f32⟩
  | 100 => ⟨S32x32, .i32⟩
  | 101 => ⟨S32x32, .i32⟩
  | 102 => ⟨S_, .i32⟩
  | 103 => ⟨S32x32, .i32⟩
  | 104 => ⟨S32x32, .i32⟩
  | 105 => ⟨S32x32, .i1⟩
  | 106 => ⟨S32x32, .f32⟩
  | 107 => ⟨S_, .f32⟩
  | 108 => ⟨S16x16, .f32⟩
  | 109 => ⟨S32x1x32x1, .f32⟩
  | 110 => ⟨S1x16x1x16, .f32⟩
  | 111 => ⟨S32x16x32x16, .f32⟩
  | 112 => ⟨S32x16x32x16, .f32⟩
  | 113 => ⟨S32x16x32x16, .f32⟩
  | 114 => ⟨S512x512, .f32⟩
  | 115 => ⟨S512x512, .bf16⟩
  | 116 => ⟨S32x1x32x1, .f32⟩
  | 117 => ⟨S1x16x1x16, .f32⟩
  | 118 => ⟨S32x16x32x16, .f32⟩
  | 119 => ⟨S32x16x32x16, .f32⟩
  | 120 => ⟨S32x16x32x16, .f32⟩
  | 121 => ⟨S512x512, .f32⟩
  | 122 => ⟨S512x512, .bf16⟩
  | 123 => ⟨S32x1x32x1, .f32⟩
  | 124 => ⟨S1x16x1x16, .f32⟩
  | 125 => ⟨S32x16x32x16, .f32⟩
  | 126 => ⟨S32x16x32x16, .f32⟩
  | 127 => ⟨S32x16x32x16, .f32⟩
  | _ => ⟨S4194304x16, .f32⟩

abbrev hbmTy0_1 (i : Nat) : BufTy := match i % 128 with
  | 0 => ⟨S512x512, .f32⟩
  | 1 => ⟨S512x512, .bf16⟩
  | 2 => ⟨S32x1x32x1, .f32⟩
  | 3 => ⟨S1x16x1x4, .f32⟩
  | 4 => ⟨S32x16x32x4, .f32⟩
  | 5 => ⟨S32x16x32x4, .f32⟩
  | 6 => ⟨S32x16x32x4, .f32⟩
  | 7 => ⟨S512x128, .f32⟩
  | 8 => ⟨S131072x512, .f32⟩
  | 9 => ⟨S131072x128, .f32⟩
  | 10 => ⟨S4194304x4, .f32⟩
  | _ => ⟨S4194304x16, .f32⟩

abbrev hbmTy (i : Nat) : BufTy := match i / 128 with
  | 0 => hbmTy0_0 i
  | 1 => hbmTy0_1 i
  | _ => ⟨S4194304x16, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x128, .f32⟩
  | .local _ .vmem, ⟨6, _⟩ => ⟨S2048x128, .f32⟩
  | .local _ .vmem, ⟨7, _⟩ => ⟨S2048x128, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_0 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_v24 : Ref sig .tc := ⟨.hbm, 30, rfl⟩
abbrev main_call0_v25 : Ref sig .tc := ⟨.hbm, 31, rfl⟩
abbrev main_call0_v26 : Ref sig .tc := ⟨.hbm, 32, rfl⟩
abbrev main_call0_v27 : Ref sig .tc := ⟨.hbm, 33, rfl⟩
abbrev main_call0_v28 : Ref sig .tc := ⟨.hbm, 34, rfl⟩
abbrev main_call0_v29 : Ref sig .tc := ⟨.hbm, 35, rfl⟩
abbrev main_call0_v30 : Ref sig .tc := ⟨.hbm, 36, rfl⟩
abbrev main_call0_v31 : Ref sig .tc := ⟨.hbm, 37, rfl⟩
abbrev main_call0_v32 : Ref sig .tc := ⟨.hbm, 38, rfl⟩
abbrev main_call0_v33 : Ref sig .tc := ⟨.hbm, 39, rfl⟩
abbrev main_call0_v34 : Ref sig .tc := ⟨.hbm, 40, rfl⟩
abbrev main_call0_v35 : Ref sig .tc := ⟨.hbm, 41, rfl⟩
abbrev main_call0_v36 : Ref sig .tc := ⟨.hbm, 42, rfl⟩
abbrev main_call0_v37 : Ref sig .tc := ⟨.hbm, 43, rfl⟩
abbrev main_call0_v38 : Ref sig .tc := ⟨.hbm, 44, rfl⟩
abbrev main_call0_v39 : Ref sig .tc := ⟨.hbm, 45, rfl⟩
abbrev main_call0_v40 : Ref sig .tc := ⟨.hbm, 46, rfl⟩
abbrev main_call0_v41 : Ref sig .tc := ⟨.hbm, 47, rfl⟩
abbrev main_call0_v42 : Ref sig .tc := ⟨.hbm, 48, rfl⟩
abbrev main_call0_v43 : Ref sig .tc := ⟨.hbm, 49, rfl⟩
abbrev main_call0_v44 : Ref sig .tc := ⟨.hbm, 50, rfl⟩
abbrev main_call0_v45 : Ref sig .tc := ⟨.hbm, 51, rfl⟩
abbrev main_call0_v46 : Ref sig .tc := ⟨.hbm, 52, rfl⟩
abbrev main_call0_v47 : Ref sig .tc := ⟨.hbm, 53, rfl⟩
abbrev main_call0_v48 : Ref sig .tc := ⟨.hbm, 54, rfl⟩
abbrev main_call0_v49 : Ref sig .tc := ⟨.hbm, 55, rfl⟩
abbrev main_call0_v50 : Ref sig .tc := ⟨.hbm, 56, rfl⟩
abbrev main_call0_v51 : Ref sig .tc := ⟨.hbm, 57, rfl⟩
abbrev main_call0_v52 : Ref sig .tc := ⟨.hbm, 58, rfl⟩
abbrev main_call0_v53 : Ref sig .tc := ⟨.hbm, 59, rfl⟩
abbrev main_call0_v54 : Ref sig .tc := ⟨.hbm, 60, rfl⟩
abbrev main_call0_v55 : Ref sig .tc := ⟨.hbm, 61, rfl⟩
abbrev main_call0_v56 : Ref sig .tc := ⟨.hbm, 62, rfl⟩
abbrev main_call0_v57 : Ref sig .tc := ⟨.hbm, 63, rfl⟩
abbrev main_call0_v58 : Ref sig .tc := ⟨.hbm, 64, rfl⟩
abbrev main_call0_v59 : Ref sig .tc := ⟨.hbm, 65, rfl⟩
abbrev main_call0_v60 : Ref sig .tc := ⟨.hbm, 66, rfl⟩
abbrev main_call0_v61 : Ref sig .tc := ⟨.hbm, 67, rfl⟩
abbrev main_call0_v62 : Ref sig .tc := ⟨.hbm, 68, rfl⟩
abbrev main_call0_v63 : Ref sig .tc := ⟨.hbm, 69, rfl⟩
abbrev main_call0_v64 : Ref sig .tc := ⟨.hbm, 70, rfl⟩
abbrev main_call0_v65 : Ref sig .tc := ⟨.hbm, 71, rfl⟩
abbrev main_call0_v66 : Ref sig .tc := ⟨.hbm, 72, rfl⟩
abbrev main_call0_v67 : Ref sig .tc := ⟨.hbm, 73, rfl⟩
abbrev main_call0_v68 : Ref sig .tc := ⟨.hbm, 74, rfl⟩
abbrev main_call0_v69 : Ref sig .tc := ⟨.hbm, 75, rfl⟩
abbrev main_call0_v70 : Ref sig .tc := ⟨.hbm, 76, rfl⟩
abbrev main_call0_v71 : Ref sig .tc := ⟨.hbm, 77, rfl⟩
abbrev main_call0_v72 : Ref sig .tc := ⟨.hbm, 78, rfl⟩
abbrev main_call0_v73 : Ref sig .tc := ⟨.hbm, 79, rfl⟩
abbrev main_call0_v74 : Ref sig .tc := ⟨.hbm, 80, rfl⟩
abbrev main_call0_v75 : Ref sig .tc := ⟨.hbm, 81, rfl⟩
abbrev main_call0_v76 : Ref sig .tc := ⟨.hbm, 82, rfl⟩
abbrev main_call0_v77 : Ref sig .tc := ⟨.hbm, 83, rfl⟩
abbrev main_call0_v78 : Ref sig .tc := ⟨.hbm, 84, rfl⟩
abbrev main_call0_v79 : Ref sig .tc := ⟨.hbm, 85, rfl⟩
abbrev main_call0_v80 : Ref sig .tc := ⟨.hbm, 86, rfl⟩
abbrev main_call0_v81 : Ref sig .tc := ⟨.hbm, 87, rfl⟩
abbrev main_call0_v82 : Ref sig .tc := ⟨.hbm, 88, rfl⟩
abbrev main_call0_v83 : Ref sig .tc := ⟨.hbm, 89, rfl⟩
abbrev main_call0_v84 : Ref sig .tc := ⟨.hbm, 90, rfl⟩
abbrev main_call0_v85 : Ref sig .tc := ⟨.hbm, 91, rfl⟩
abbrev main_call0_v86 : Ref sig .tc := ⟨.hbm, 92, rfl⟩
abbrev main_call0_v87 : Ref sig .tc := ⟨.hbm, 93, rfl⟩
abbrev main_call0_v88 : Ref sig .tc := ⟨.hbm, 94, rfl⟩
abbrev main_call0_v89 : Ref sig .tc := ⟨.hbm, 95, rfl⟩
abbrev main_call0_v90 : Ref sig .tc := ⟨.hbm, 96, rfl⟩
abbrev main_call0_v91 : Ref sig .tc := ⟨.hbm, 97, rfl⟩
abbrev main_call0_v92 : Ref sig .tc := ⟨.hbm, 98, rfl⟩
abbrev main_call0_v93 : Ref sig .tc := ⟨.hbm, 99, rfl⟩
abbrev main_call0_v94 : Ref sig .tc := ⟨.hbm, 100, rfl⟩
abbrev main_call0_v95 : Ref sig .tc := ⟨.hbm, 101, rfl⟩
abbrev main_call0_c_2 : Ref sig .tc := ⟨.hbm, 102, rfl⟩
abbrev main_call0_v96 : Ref sig .tc := ⟨.hbm, 103, rfl⟩
abbrev main_call0_v97 : Ref sig .tc := ⟨.hbm, 104, rfl⟩
abbrev main_call0_v98 : Ref sig .tc := ⟨.hbm, 105, rfl⟩
abbrev main_call0_v99 : Ref sig .tc := ⟨.hbm, 106, rfl⟩
abbrev main_call0_cst_3 : Ref sig .tc := ⟨.hbm, 107, rfl⟩
abbrev main_call0_v100 : Ref sig .tc := ⟨.hbm, 108, rfl⟩
abbrev main_call0_call8_v0 : Ref sig .tc := ⟨.hbm, 109, rfl⟩
abbrev main_call0_call8_v1 : Ref sig .tc := ⟨.hbm, 110, rfl⟩
abbrev main_call0_call8_v2 : Ref sig .tc := ⟨.hbm, 111, rfl⟩
abbrev main_call0_call8_v3 : Ref sig .tc := ⟨.hbm, 112, rfl⟩
abbrev main_call0_call8_v4 : Ref sig .tc := ⟨.hbm, 113, rfl⟩
abbrev main_call0_v101 : Ref sig .tc := ⟨.hbm, 114, rfl⟩
abbrev main_call0_v102 : Ref sig .tc := ⟨.hbm, 115, rfl⟩
abbrev main_call0_call9_v0 : Ref sig .tc := ⟨.hbm, 116, rfl⟩
abbrev main_call0_call9_v1 : Ref sig .tc := ⟨.hbm, 117, rfl⟩
abbrev main_call0_call9_v2 : Ref sig .tc := ⟨.hbm, 118, rfl⟩
abbrev main_call0_call9_v3 : Ref sig .tc := ⟨.hbm, 119, rfl⟩
abbrev main_call0_call9_v4 : Ref sig .tc := ⟨.hbm, 120, rfl⟩
abbrev main_call0_v103 : Ref sig .tc := ⟨.hbm, 121, rfl⟩
abbrev main_call0_v104 : Ref sig .tc := ⟨.hbm, 122, rfl⟩
abbrev main_call0_call10_v0 : Ref sig .tc := ⟨.hbm, 123, rfl⟩
abbrev main_call0_call10_v1 : Ref sig .tc := ⟨.hbm, 124, rfl⟩
abbrev main_call0_call10_v2 : Ref sig .tc := ⟨.hbm, 125, rfl⟩
abbrev main_call0_call10_v3 : Ref sig .tc := ⟨.hbm, 126, rfl⟩
abbrev main_call0_call10_v4 : Ref sig .tc := ⟨.hbm, 127, rfl⟩
abbrev main_call0_v105 : Ref sig .tc := ⟨.hbm, 128, rfl⟩
abbrev main_call0_v106 : Ref sig .tc := ⟨.hbm, 129, rfl⟩
abbrev main_call0_call11_v0 : Ref sig .tc := ⟨.hbm, 130, rfl⟩
abbrev main_call0_call11_v1 : Ref sig .tc := ⟨.hbm, 131, rfl⟩
abbrev main_call0_call11_v2 : Ref sig .tc := ⟨.hbm, 132, rfl⟩
abbrev main_call0_call11_v3 : Ref sig .tc := ⟨.hbm, 133, rfl⟩
abbrev main_call0_call11_v4 : Ref sig .tc := ⟨.hbm, 134, rfl⟩
abbrev main_call0_v107 : Ref sig .tc := ⟨.hbm, 135, rfl⟩
abbrev main_call0_v108 : Ref sig .tc := ⟨.hbm, 136, rfl⟩
abbrev main_call0_v109 : Ref sig .tc := ⟨.hbm, 137, rfl⟩
abbrev main_v0 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16x16 : S_.BroadcastsInDim S16x16 (![] : Fin 0 → Fin S16x16.rank)
  shapeCasts_S16x16_S16x2x2x2x2 : S16x16.ShapeCasts S16x2x2x2x2
  bcast_S_S16x2x2x2x2 : S_.BroadcastsInDim S16x2x2x2x2 (![] : Fin 0 → Fin S16x2x2x2x2.rank)
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  shapeCasts_S16x2x2x2x2_S16x16 : S16x2x2x2x2.ShapeCasts S16x16
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S16x16_S1x16x1x16_1_3 : S16x16.BroadcastsInDim S1x16x1x16 (![1, 3] : Fin 2 → Fin S1x16x1x16.rank)
  bcast_S32x1x32x1_S32x16x32x16_0_1_2_3 : S32x1x32x1.BroadcastsInDim S32x16x32x16 (![0, 1, 2, 3] : Fin 4 → Fin S32x16x32x16.rank)
  bcast_S1x16x1x16_S32x16x32x16_0_1_2_3 : S1x16x1x16.BroadcastsInDim S32x16x32x16 (![0, 1, 2, 3] : Fin 4 → Fin S32x16x32x16.rank)
  shapeCasts_S32x16x32x16_S512x512 : S32x16x32x16.ShapeCasts S512x512
  bitsLt_bf16_f32 : FTy.bits .bf16 < FTy.bits .f32
  bcast_S16x4_S1x16x1x4_1_3 : S16x4.BroadcastsInDim S1x16x1x4 (![1, 3] : Fin 2 → Fin S1x16x1x4.rank)
  bcast_S32x1x32x1_S32x16x32x4_0_1_2_3 : S32x1x32x1.BroadcastsInDim S32x16x32x4 (![0, 1, 2, 3] : Fin 4 → Fin S32x16x32x4.rank)
  bcast_S1x16x1x4_S32x16x32x4_0_1_2_3 : S1x16x1x4.BroadcastsInDim S32x16x32x4 (![0, 1, 2, 3] : Fin 4 → Fin S32x16x32x4.rank)
  shapeCasts_S32x16x32x4_S512x128 : S32x16x32x4.ShapeCasts S512x128
  shapeCasts_S4194304x16_S131072x512 : S4194304x16.ShapeCasts S131072x512
  shapeCasts_S131072x128_S4194304x4 : S131072x128.ShapeCasts S4194304x4
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_call0_v108) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v102) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v104) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v106) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v107) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v109) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S4 : Shape := ⟨1, ![4]⟩
abbrev S_ : Shape := ⟨0, ![]⟩
abbrev S4194304 : Shape := ⟨1, ![4194304]⟩
abbrev S4194304x1 : Shape := ⟨2, ![4194304, 1]⟩
abbrev S4194304x2x2x2x2 : Shape := ⟨5, ![4194304, 2, 2, 2, 2]⟩
abbrev S1 : Shape := ⟨1, ![1]⟩
abbrev S4194304x2 : Shape := ⟨2, ![4194304, 2]⟩
abbrev S4194304x4 : Shape := ⟨2, ![4194304, 4]⟩

abbrev nBuf : Space → Nat
  | .hbm => 133
  | .vmem => 0
  | .smem => 0
  | _ => 0

abbrev hbmTy0_0 (i : Nat) : BufTy := match i % 128 with
  | 0 => ⟨S4194304x16, .f32⟩
  | 1 => ⟨S4, .f32⟩
  | 2 => ⟨S4194304x16, .f32⟩
  | 3 => ⟨S_, .f32⟩
  | 4 => ⟨S4194304, .f32⟩
  | 5 => ⟨S4194304x1, .f32⟩
  | 6 => ⟨S4194304x1, .f32⟩
  | 7 => ⟨S4194304x16, .f32⟩
  | 8 => ⟨S4194304x16, .f32⟩
  | 9 => ⟨S4194304x2x2x2x2, .f32⟩
  | 10 => ⟨S_, .f32⟩
  | 11 => ⟨S4194304x2x2x2x2, .f32⟩
  | 12 => ⟨S_, .f32⟩
  | 13 => ⟨S4, .f32⟩
  | 14 => ⟨S4, .f32⟩
  | 15 => ⟨S4, .f32⟩
  | 16 => ⟨S4, .f32⟩
  | 17 => ⟨S4194304x2x2x2x2, .f32⟩
  | 18 => ⟨S4194304x2x2x2x2, .f32⟩
  | 19 => ⟨S1, .f32⟩
  | 20 => ⟨S_, .f32⟩
  | 21 => ⟨S4194304x2x2x2x2, .f32⟩
  | 22 => ⟨S4194304x2x2x2x2, .f32⟩
  | 23 => ⟨S1, .f32⟩
  | 24 => ⟨S_, .f32⟩
  | 25 => ⟨S4194304x2x2x2x2, .f32⟩
  | 26 => ⟨S4194304x2x2x2x2, .f32⟩
  | 27 => ⟨S4194304x2x2x2x2, .f32⟩
  | 28 => ⟨S1, .f32⟩
  | 29 => ⟨S_, .f32⟩
  | 30 => ⟨S4194304x2x2x2x2, .f32⟩
  | 31 => ⟨S4194304x2x2x2x2, .f32⟩
  | 32 => ⟨S1, .f32⟩
  | 33 => ⟨S_, .f32⟩
  | 34 => ⟨S4194304x2x2x2x2, .f32⟩
  | 35 => ⟨S4194304x2x2x2x2, .f32⟩
  | 36 => ⟨S4194304x2x2x2x2, .f32⟩
  | 37 => ⟨S4194304x2x2x2x2, .f32⟩
  | 38 => ⟨S4194304x2x2x2x2, .f32⟩
  | 39 => ⟨S1, .f32⟩
  | 40 => ⟨S_, .f32⟩
  | 41 => ⟨S4194304x2x2x2x2, .f32⟩
  | 42 => ⟨S4194304x2x2x2x2, .f32⟩
  | 43 => ⟨S1, .f32⟩
  | 44 => ⟨S_, .f32⟩
  | 45 => ⟨S4194304x2x2x2x2, .f32⟩
  | 46 => ⟨S4194304x2x2x2x2, .f32⟩
  | 47 => ⟨S4194304x2x2x2x2, .f32⟩
  | 48 => ⟨S1, .f32⟩
  | 49 => ⟨S_, .f32⟩
  | 50 => ⟨S4194304x2x2x2x2, .f32⟩
  | 51 => ⟨S4194304x2x2x2x2, .f32⟩
  | 52 => ⟨S1, .f32⟩
  | 53 => ⟨S_, .f32⟩
  | 54 => ⟨S4194304x2x2x2x2, .f32⟩
  | 55 => ⟨S4194304x2x2x2x2, .f32⟩
  | 56 => ⟨S4194304x2x2x2x2, .f32⟩
  | 57 => ⟨S4194304x2x2x2x2, .f32⟩
  | 58 => ⟨S4194304x2x2x2x2, .f32⟩
  | 59 => ⟨S1, .f32⟩
  | 60 => ⟨S_, .f32⟩
  | 61 => ⟨S4194304x2x2x2x2, .f32⟩
  | 62 => ⟨S4194304x2x2x2x2, .f32⟩
  | 63 => ⟨S1, .f32⟩
  | 64 => ⟨S_, .f32⟩
  | 65 => ⟨S4194304x2x2x2x2, .f32⟩
  | 66 => ⟨S4194304x2x2x2x2, .f32⟩
  | 67 => ⟨S4194304x2x2x2x2, .f32⟩
  | 68 => ⟨S1, .f32⟩
  | 69 => ⟨S_, .f32⟩
  | 70 => ⟨S4194304x2x2x2x2, .f32⟩
  | 71 => ⟨S4194304x2x2x2x2, .f32⟩
  | 72 => ⟨S1, .f32⟩
  | 73 => ⟨S_, .f32⟩
  | 74 => ⟨S4194304x2x2x2x2, .f32⟩
  | 75 => ⟨S4194304x2x2x2x2, .f32⟩
  | 76 => ⟨S4194304x2x2x2x2, .f32⟩
  | 77 => ⟨S4194304x2x2x2x2, .f32⟩
  | 78 => ⟨S4194304x2x2x2x2, .f32⟩
  | 79 => ⟨S1, .f32⟩
  | 80 => ⟨S_, .f32⟩
  | 81 => ⟨S4194304x2x2x2x2, .f32⟩
  | 82 => ⟨S4194304x2x2x2x2, .f32⟩
  | 83 => ⟨S1, .f32⟩
  | 84 => ⟨S_, .f32⟩
  | 85 => ⟨S4194304x2x2x2x2, .f32⟩
  | 86 => ⟨S4194304x2x2x2x2, .f32⟩
  | 87 => ⟨S4194304x2x2x2x2, .f32⟩
  | 88 => ⟨S1, .f32⟩
  | 89 => ⟨S_, .f32⟩
  | 90 => ⟨S4194304x2x2x2x2, .f32⟩
  | 91 => ⟨S4194304x2x2x2x2, .f32⟩
  | 92 => ⟨S1, .f32⟩
  | 93 => ⟨S_, .f32⟩
  | 94 => ⟨S4194304x2x2x2x2, .f32⟩
  | 95 => ⟨S4194304x2x2x2x2, .f32⟩
  | 96 => ⟨S4194304x2x2x2x2, .f32⟩
  | 97 => ⟨S4194304x2x2x2x2, .f32⟩
  | 98 => ⟨S4194304x2x2x2x2, .f32⟩
  | 99 => ⟨S4194304x2x2x2x2, .f32⟩
  | 100 => ⟨S_, .f32⟩
  | 101 => ⟨S4194304x2, .f32⟩
  | 102 => ⟨S4194304x1, .f32⟩
  | 103 => ⟨S4194304, .f32⟩
  | 104 => ⟨S4194304x1, .f32⟩
  | 105 => ⟨S4194304, .f32⟩
  | 106 => ⟨S4194304, .f32⟩
  | 107 => ⟨S_, .f32⟩
  | 108 => ⟨S4194304x2, .f32⟩
  | 109 => ⟨S4194304x1, .f32⟩
  | 110 => ⟨S4194304, .f32⟩
  | 111 => ⟨S4194304x1, .f32⟩
  | 112 => ⟨S4194304, .f32⟩
  | 113 => ⟨S4194304, .f32⟩
  | 114 => ⟨S_, .f32⟩
  | 115 => ⟨S4194304x2, .f32⟩
  | 116 => ⟨S4194304x1, .f32⟩
  | 117 => ⟨S4194304, .f32⟩
  | 118 => ⟨S4194304x1, .f32⟩
  | 119 => ⟨S4194304, .f32⟩
  | 120 => ⟨S4194304, .f32⟩
  | 121 => ⟨S_, .f32⟩
  | 122 => ⟨S4194304x2, .f32⟩
  | 123 => ⟨S4194304x1, .f32⟩
  | 124 => ⟨S4194304, .f32⟩
  | 125 => ⟨S4194304x1, .f32⟩
  | 126 => ⟨S4194304, .f32⟩
  | 127 => ⟨S4194304, .f32⟩
  | _ => ⟨S4194304x16, .f32⟩

abbrev hbmTy0_1 (i : Nat) : BufTy := match i % 128 with
  | 0 => ⟨S4194304x1, .f32⟩
  | 1 => ⟨S4194304x1, .f32⟩
  | 2 => ⟨S4194304x1, .f32⟩
  | 3 => ⟨S4194304x1, .f32⟩
  | 4 => ⟨S4194304x4, .f32⟩
  | _ => ⟨S4194304x16, .f32⟩

abbrev hbmTy (i : Nat) : BufTy := match i / 128 with
  | 0 => hbmTy0_0 i
  | 1 => hbmTy0_1 i
  | _ => ⟨S4194304x16, .f32⟩

abbrev bufTy : (tb : Table) → Fin (tcTables nBuf tb) → BufTy
  | .hbm, ⟨i, _⟩ => hbmTy i
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_cst_1 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_cst_2 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_cst_3 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_cst_4 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩

abbrev nD : Nat := 1
abbrev τ : Topo := Topo.v7x

variable {F : FTy → Type} [FloatOps F]

class Facts₀ : Prop where
  reducesTo_S4194304x16_S4194304_d1 : S4194304x16.ReducesTo [1] S4194304
  h_S_ : 0 < S_.numel
  bcast_S4194304_S4194304x1_0 : S4194304.BroadcastsInDim S4194304x1 (![0] : Fin 1 → Fin S4194304x1.rank)
  bcast_S4194304x1_S4194304x16_0_1 : S4194304x1.BroadcastsInDim S4194304x16 (![0, 1] : Fin 2 → Fin S4194304x16.rank)
  shapeCasts_S4194304x16_S4194304x2x2x2x2 : S4194304x16.ShapeCasts S4194304x2x2x2x2
  bcast_S_S4194304x2x2x2x2 : S_.BroadcastsInDim S4194304x2x2x2x2 (![] : Fin 0 → Fin S4194304x2x2x2x2.rank)
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  reducesTo_S4194304x2x2x2x2_S4194304x2_d2_3_4 : S4194304x2x2x2x2.ReducesTo [2, 3, 4] S4194304x2
  slices_S4194304x2_S4194304x1_0_0 : S4194304x2.Slices ![0, 0] S4194304x1
  shapeCasts_S4194304x1_S4194304 : S4194304x1.ShapeCasts S4194304
  slices_S4194304x2_S4194304x1_0_1 : S4194304x2.Slices ![0, 1] S4194304x1
  reducesTo_S4194304x2x2x2x2_S4194304x2_d1_3_4 : S4194304x2x2x2x2.ReducesTo [1, 3, 4] S4194304x2
  reducesTo_S4194304x2x2x2x2_S4194304x2_d1_2_4 : S4194304x2x2x2x2.ReducesTo [1, 2, 4] S4194304x2
  reducesTo_S4194304x2x2x2x2_S4194304x2_d1_2_3 : S4194304x2x2x2x2.ReducesTo [1, 2, 3] S4194304x2
  concatenates_S4194304x1_S4194304x1_S4194304x1_S4194304x1_S4194304x4_d1 : Shape.Concatenates [S4194304x1, S4194304x1, S4194304x1, S4194304x1] S4194304x4 1

variable [Facts₀]

class Facts : Prop extends Facts₀ where

variable [Facts]
-- ==== Proof.RefJoin.lean ====
/-
  The reference's run ends with its result at one long composed term of the two argument arrays; read one operation at a
  time, that term is the last stage of the operation-by-operation reading (both spell the same composition of the same
  operations, so the two agree by unfolding the stages' names).
-/
import proofs.«170417_j39341900431498_2_alg».proof.Proof.RefRun
import proofs.«170417_j39341900431498_2_alg».proof.Proof.RefRead

noncomputable section

namespace Cert.ReferenceIdeal.RefValue

open Cert.ReferenceIdeal Idealize.ShloMosaic Idealize.ShloMosaic.TcCoe Idealize.SL.Sem

variable {F : FTy → Type} [FloatOps F]

set_option maxRecDepth 8192 in
set_option maxHeartbeats 8000000 in
/-- The run's result term is the last stage of the reading, at the launch contents of the two arguments. -/
theorem res_eq_stage (m : (ℓ : Loc nD τ sig) → Buf (Elt F) ℓ) (c : Dev nD) :
    Cert.ReferenceIdeal.RunP.res_main_v120 m c
      = Cert.ReferenceIdeal.ReadP.val_main_v120 (F := F) (m ((c.tc : Thread nD τ).loc main_arg0)) (m ((c.tc : Thread nD τ).loc main_arg1)) := by
  unfold Cert.ReferenceIdeal.RunP.res_main_v120; rfl

end Cert.ReferenceIdeal.RefValue

end
-- ==== Proof.Spec.lean ====
/-
  The function both programs compute, index by index, on the extended reals.

  A row `x` of sixteen amplitudes is normalised, four single-qubit rotations RX(θ_q) act on it (wire q is bit q of the
  amplitude number, wire 0 the most significant), and the result is the expectation of Z on each wire.  With
  `c_q = cos (θ_q / 2)`, `s_q = sin (θ_q / 2)` one rotation on wire q sends the pair (real part, imaginary part) to
  `(c·re + s·im∘flip_q, c·im − s·re∘flip_q)`, `flip_q` reversing bit q.

  One program normalises by the quotient `x / sqrt (Σ x²)` and runs the four rotations on the row itself (`refOut`);
  the other multiplies by `rsqrt (Σ x²)`, applies two 16 × 16 matrices — the rotations run on the sixteen basis
  states — and contracts the probabilities with a table of signs (`kerOut`).
-/
import Idealize.ShloMosaic.PureOps.Ideal
import Idealize.ShloMosaic.Lib.ValueIdx

noncomputable section

namespace Cert.QL

open Idealize.ShloMosaic Idealize.ShloMosaic.ValueIdx

/-- The shapes of the two arguments and of the result. -/
abbrev SX : Shape := ⟨2, ![4194304, 16]⟩
abbrev SW : Shape := ⟨1, ![4]⟩
abbrev SO : Shape := ⟨2, ![4194304, 4]⟩

/-- Sixteen amplitudes, named by their four bits (wire 0 first). -/
abbrev St := Fin 2 → Fin 2 → Fin 2 → Fin 2 → EReal

/-- One rotation on wire 0: the pair (real, imaginary) after it. -/
def rx0 (c s : EReal) (P : St × St) : St × St :=
  (fun a b d e => c * P.1 a b d e + s * P.2 a.rev b d e, fun a b d e => c * P.2 a b d e - s * P.1 a.rev b d e)
/-- One rotation on wire 1. -/
def rx1 (c s : EReal) (P : St × St) : St × St :=
  (fun a b d e => c * P.1 a b d e + s * P.2 a b.rev d e, fun a b d e => c * P.2 a b d e - s * P.1 a b.rev d e)
/-- One rotation on wire 2. -/
def rx2 (c s : EReal) (P : St × St) : St × St :=
  (fun a b d e => c * P.1 a b d e + s * P.2 a b d.rev e, fun a b d e => c * P.2 a b d e - s * P.1 a b d.rev e)
/-- One rotation on wire 3. -/
def rx3 (c s : EReal) (P : St × St) : St × St :=
  (fun a b d e => c * P.1 a b d e + s * P.2 a b d e.rev, fun a b d e => c * P.2 a b d e - s * P.1 a b d e.rev)

/-- The four rotations, wire 0 first. -/
def circ (c s : Fin 4 → EReal) (P : St × St) : St × St :=
  rx3 (c 3) (s 3) (rx2 (c 2) (s 2) (rx1 (c 1) (s 1) (rx0 (c 0) (s 0) P)))

/-- `cos (θ_q / 2)` and `sin (θ_q / 2)`, the half written as the product with the binary32 word of one half. -/
def cw (W : SW.Idx → EReal) (q : Fin 4) : EReal := Ideal.cos (W (ix1 q) * Ideal.ofBits .f32 0x3F000000#32)
def sw (W : SW.Idx → EReal) (q : Fin 4) : EReal := Ideal.sin (W (ix1 q) * Ideal.ofBits .f32 0x3F000000#32)

/-- The amplitude number of four bits, wire 0 the most significant. -/
def flat (a b d e : Fin 2) : Fin 16 := ⟨8 * a.val + 4 * b.val + 2 * d.val + e.val, by omega⟩

/-- Bit `t` of a number (`t = 0` the least significant). -/
def bitOf (i t : ℕ) : Fin 2 := ⟨i / 2 ^ t % 2, Nat.mod_lt _ (by decide)⟩

/-- A function of four bits read at an amplitude number. -/
def atAmp (p : St) (i : ℕ) : EReal := p (bitOf i 3) (bitOf i 2) (bitOf i 1) (bitOf i 0)

/-- The sum of the squares of row `b`. -/
def ss (X : SX.Idx → EReal) (b : Fin 4194304) : EReal := ∑ k : Fin 16, X (ix2 b k) * X (ix2 b k)

/-- The probability of each amplitude. -/
def prob (P : St × St) : St := fun a b d e => P.1 a b d e * P.1 a b d e + P.2 a b d e * P.2 a b d e

/-- The marginal of wire `q` at the value `v`: the sum over the other three bits. -/
def marg (p : St) : Fin 4 → Fin 2 → EReal
  | 0, v => ∑ b : Fin 2, ∑ d : Fin 2, ∑ e : Fin 2, p v b d e
  | 1, v => ∑ a : Fin 2, ∑ d : Fin 2, ∑ e : Fin 2, p a v d e
  | 2, v => ∑ a : Fin 2, ∑ b : Fin 2, ∑ e : Fin 2, p a b v e
  | 3, v => ∑ a : Fin 2, ∑ b : Fin 2, ∑ d : Fin 2, p a b d v

/-- The state the quotient form ends in on row `b`: the rotations on `x / sqrt (Σ x²)`, imaginary part zero. -/
def refState (X : SX.Idx → EReal) (W : SW.Idx → EReal) (b : Fin 4194304) : St × St :=
  circ (cw W) (sw W)
    (fun a b' d e => Ideal.div (X (ix2 b (flat a b' d e))) (Ideal.sqrt (ss X b)), fun _ _ _ _ => 0)

/-- The quotient form: ⟨Z⟩ on wire `q` of row `b` as the difference of the two marginals. -/
def refOut (X : SX.Idx → EReal) (W : SW.Idx → EReal) (b : Fin 4194304) (q : Fin 4) : EReal :=
  marg (prob (refState X W b)) q 0 - marg (prob (refState X W b)) q 1

/-- Basis state `j`: one at amplitude `j`, zero elsewhere, imaginary part zero. -/
def basisState (j : ℕ) : St × St :=
  (fun a b d e => if j = (flat a b d e).val then 1 else 0, fun _ _ _ _ => 0)

/-- The rotations run on basis state `j`: row `j` of the two 16 × 16 matrices. -/
def rotBasis (W : SW.Idx → EReal) (j : ℕ) : St × St := circ (cw W) (sw W) (basisState j)

/-- Entry (j, i) of the real-part and of the imaginary-part matrix. -/
def mRe (W : SW.Idx → EReal) (j i : ℕ) : EReal := atAmp (rotBasis W j).1 i
def mIm (W : SW.Idx → EReal) (j i : ℕ) : EReal := atAmp (rotBasis W j).2 i

/-- The table of signs: +1 where bit of wire `q` of amplitude `i` is 0, −1 where it is 1. -/
def sgn (i q : ℕ) : EReal := if bitOf i (3 - q) = 0 then 1 else -1

/-- The reciprocal-root form's normalised amplitude `j` of row `b`. -/
def xn (X : SX.Idx → EReal) (b : Fin 4194304) (j : Fin 16) : EReal := X (ix2 b j) * Ideal.rsqrt (ss X b)

/-- The reciprocal-root form's probability of amplitude `i` of row `b`. -/
def kerProb (X : SX.Idx → EReal) (W : SW.Idx → EReal) (b : Fin 4194304) (i : Fin 16) : EReal :=
  (∑ j : Fin 16, xn X b j * mRe W j.val i.val) * (∑ j : Fin 16, xn X b j * mRe W j.val i.val)
    + (∑ j : Fin 16, xn X b j * mIm W j.val i.val) * (∑ j : Fin 16, xn X b j * mIm W j.val i.val)

/-- The reciprocal-root form: ⟨Z⟩ on wire `q` of row `b` as the probabilities against the signs. -/
def kerOut (X : SX.Idx → EReal) (W : SW.Idx → EReal) (b : Fin 4194304) (q : Fin 4) : EReal :=
  ∑ i : Fin 16, kerProb X W b i * sgn i.val q.val

end Cert.QL

end
-- ==== Proof.RefValueLib.lean ====
/-
  Small index lemmas for reading the quotient-form program one element at a time: a reversal along one axis of a
  rank-five array, the reshape of a one-element vector to a scalar, a sum over three of the four bit axes written as a
  triple sum, and a concatenation of four one-column arrays read at a column.
-/
import Idealize.ShloMosaic.PureOps.Ideal.Laws
import Idealize.ShloMosaic.Lib.ValueIdx
import Idealize.ShloMosaic.Lib.Pipeline.Value
import Idealize.ShloMosaic.PureOps.Reduce

noncomputable section

namespace Cert.ReferenceIdeal.RefValue

open Idealize.ShloMosaic Idealize.ShloMosaic.ValueIdx

variable {α : Type} {n0 n1 n2 n3 n4 : Nat}

/-- Reversing axis 1 of a rank-five array reads the operand with coordinate 1 mirrored. -/
theorem reverse1_apply (x : (⟨5, ![n0, n1, n2, n3, n4]⟩ : Shape).Idx → α) (r : Fin n0) (a : Fin n1) (b : Fin n2) (d : Fin n3) (e : Fin n4) :
    Host.reverse (s := ⟨5, ![n0, n1, n2, n3, n4]⟩) [1] x (ix5 r a b d e) = x (ix5 r a.rev b d e) := by
  unfold Host.reverse
  refine congrArg x (funext fun f => ?_)
  match f with
  | ⟨0, _⟩ => rfl
  | ⟨1, _⟩ => rfl
  | ⟨2, _⟩ => rfl
  | ⟨3, _⟩ => rfl
  | ⟨4, _⟩ => rfl

/-- Reversing axis 2 of a rank-five array reads the operand with coordinate 2 mirrored. -/
theorem reverse2_apply (x : (⟨5, ![n0, n1, n2, n3, n4]⟩ : Shape).Idx → α) (r : Fin n0) (a : Fin n1) (b : Fin n2) (d : Fin n3) (e : Fin n4) :
    Host.reverse (s := ⟨5, ![n0, n1, n2, n3, n4]⟩) [2] x (ix5 r a b d e) = x (ix5 r a b.rev d e) := by
  unfold Host.reverse
  refine congrArg x (funext fun f => ?_)
  match f with
  | ⟨0, _⟩ => rfl
  | ⟨1, _⟩ => rfl
  | ⟨2, _⟩ => rfl
  | ⟨3, _⟩ => rfl
  | ⟨4, _⟩ => rfl

/-- Reversing axis 3 of a rank-five array reads the operand with coordinate 3 mirrored. -/
theorem reverse3_apply (x : (⟨5, ![n0, n1, n2, n3, n4]⟩ : Shape).Idx → α) (r : Fin n0) (a : Fin n1) (b : Fin n2) (d : Fin n3) (e : Fin n4) :
    Host.reverse (s := ⟨5, ![n0, n1, n2, n3, n4]⟩) [3] x (ix5 r a b d e) = x (ix5 r a b d.rev e) := by
  unfold Host.reverse
  refine congrArg x (funext fun f => ?_)
  match f with
  | ⟨0, _⟩ => rfl
  | ⟨1, _⟩ => rfl
  | ⟨2, _⟩ => rfl
  | ⟨3, _⟩ => rfl
  | ⟨4, _⟩ => rfl

/-- Reversing axis 4 of a rank-five array reads the operand with coordinate 4 mirrored. -/
theorem reverse4_apply (x : (⟨5, ![n0, n1, n2, n3, n4]⟩ : Shape).Idx → α) (r : Fin n0) (a : Fin n1) (b : Fin n2) (d : Fin n3) (e : Fin n4) :
    Host.reverse (s := ⟨5, ![n0, n1, n2, n3, n4]⟩) [4] x (ix5 r a b d e) = x (ix5 r a b d e.rev) := by
  unfold Host.reverse
  refine congrArg x (funext fun f => ?_)
  match f with
  | ⟨0, _⟩ => rfl
  | ⟨1, _⟩ => rfl
  | ⟨2, _⟩ => rfl
  | ⟨3, _⟩ => rfl
  | ⟨4, _⟩ => rfl

/-- A one-element vector reshaped to a scalar reads the vector's one element. Both row-major positions lie below the
    element count, which is one for both shapes. -/
theorem scalarCast_apply (y : (⟨1, ![1]⟩ : Shape).Idx → α) (h : (⟨1, ![1]⟩ : Shape).ShapeCasts ⟨0, ![]⟩) (j : (⟨0, ![]⟩ : Shape).Idx) :
    shapeCast ⟨0, ![]⟩ y h j = y (ix1 0) := by
  refine shapeCast_apply y h j (ix1 0) ?_
  have h1 := ((⟨1, ![1]⟩ : Shape).rowMajor (ix1 0)).isLt
  have h2 := ((⟨0, ![]⟩ : Shape).rowMajor j).isLt
  have e1 : (⟨1, ![1]⟩ : Shape).numel = 1 := by decide
  have e2 : (⟨0, ![]⟩ : Shape).numel = 1 := by decide
  omega

/-- A sum over the members of a finite type that satisfy `p`, when those members are exactly the values of an injective
    parametrisation `g`, is the sum over the parameters. -/
theorem sum_filter_eq_sum_of_param {ι κ M : Type} [Fintype ι] [Fintype κ] [AddCommMonoid M] (p : ι → Prop) [DecidablePred p]
    (g : κ → ι) (hg : Function.Injective g) (hp : ∀ i, p i ↔ ∃ k, g k = i) (x : ι → M) :
    ∑ i ∈ Finset.univ.filter p, x i = ∑ k, x (g k) := by
  symm
  refine Finset.sum_bij (fun k _ => g k) ?_ ?_ ?_ ?_
  · intro k _; exact Finset.mem_filter.2 ⟨Finset.mem_univ _, (hp _).2 ⟨k, rfl⟩⟩
  · intro a _ b _ h; exact hg h
  · intro i hi
    obtain ⟨k, hk⟩ := (hp i).1 (Finset.mem_filter.1 hi).2
    exact ⟨k, Finset.mem_univ _, hk⟩
  · intros; rfl

/-- The state array's shape, a row of four bits, and the shape of a marginal, a row and one bit. -/
abbrev R5 : Shape := ⟨5, ![4194304, 2, 2, 2, 2]⟩
abbrev R2 : Shape := ⟨2, ![4194304, 2]⟩

/-- The sum over the axes 2, 3, 4 of a [4194304, 2, 2, 2, 2] array, read at row `r` and value `v` of axis 1: the
    initial value plus the triple sum over the three reduced bits. The indices that drop to (r, v) are exactly those
    with coordinate 0 equal to r and coordinate 1 equal to v, one for each choice of the other three. -/
theorem reduce234_apply (h : R5.ReducesTo [2, 3, 4] R2) (x : R5.Idx → EReal) (init : EReal)
    (r : Fin 4194304) (v : Fin 2) :
    Ideal.hostReduceAdd h x init (ix2 r v)
      = init + ∑ b : Fin 2, ∑ d : Fin 2, ∑ e : Fin 2, x (ix5 r v b d e) := by
  unfold Ideal.hostReduceAdd
  have h0 : ∀ i : R5.Idx, ((h.drop i 0 : Fin 4194304) : Nat) = (i 0 : Fin 4194304) := fun i =>
    h.drop_apply_val_of_eq i 0 0
  have h1 : ∀ i : R5.Idx, ((h.drop i 1 : Fin 2) : Nat) = (i 1 : Fin 2) := fun i =>
    h.drop_apply_val_of_eq i 1 1
  rw [sum_filter_eq_sum_of_param (fun i => h.drop i = ix2 r v)
    (fun k : Fin 2 × Fin 2 × Fin 2 => ix5 r v k.1 k.2.1 k.2.2) ?_ ?_ x, Fintype.sum_prod_type]
  · refine congrArg (init + ·) (Finset.sum_congr rfl fun _ _ => ?_)
    rw [Fintype.sum_prod_type]
  · intro k k' hk
    have e2 : k.1 = k'.1 := congrFun hk 2
    have e3 : k.2.1 = k'.2.1 := congrFun hk 3
    have e4 : k.2.2 = k'.2.2 := congrFun hk 4
    exact Prod.ext e2 (Prod.ext e3 e4)
  · intro i
    constructor
    · intro hi
      refine ⟨(i 2, i 3, i 4), ?_⟩
      have e0 : r = i 0 := Fin.ext (by rw [← h0 i, hi])
      have e1 : v = i 1 := Fin.ext (by rw [← h1 i, hi])
      rw [e0, e1]
      exact (eq_ix5 i).symm
    · rintro ⟨k, rfl⟩
      funext c
      match c with
      | ⟨0, _⟩ => exact Fin.ext (h0 _)
      | ⟨1, _⟩ => exact Fin.ext (h1 _)

/-- The sum over the axes 1, 3, 4 of a [4194304, 2, 2, 2, 2] array, read at row `r` and value `v` of axis 2: the
    initial value plus the triple sum over the three reduced bits. The indices that drop to (r, v) are exactly those
    with coordinate 0 equal to r and coordinate 2 equal to v, one for each choice of the other three. -/
theorem reduce134_apply (h : R5.ReducesTo [1, 3, 4] R2) (x : R5.Idx → EReal) (init : EReal)
    (r : Fin 4194304) (v : Fin 2) :
    Ideal.hostReduceAdd h x init (ix2 r v)
      = init + ∑ a : Fin 2, ∑ d : Fin 2, ∑ e : Fin 2, x (ix5 r a v d e) := by
  unfold Ideal.hostReduceAdd
  have h0 : ∀ i : R5.Idx, ((h.drop i 0 : Fin 4194304) : Nat) = (i 0 : Fin 4194304) := fun i =>
    h.drop_apply_val_of_eq i 0 0
  have h1 : ∀ i : R5.Idx, ((h.drop i 1 : Fin 2) : Nat) = (i 2 : Fin 2) := fun i =>
    h.drop_apply_val_of_eq i 1 2
  rw [sum_filter_eq_sum_of_param (fun i => h.drop i = ix2 r v)
    (fun k : Fin 2 × Fin 2 × Fin 2 => ix5 r k.1 v k.2.1 k.2.2) ?_ ?_ x, Fintype.sum_prod_type]
  · refine congrArg (init + ·) (Finset.sum_congr rfl fun _ _ => ?_)
    rw [Fintype.sum_prod_type]
  · intro k k' hk
    have e2 : k.1 = k'.1 := congrFun hk 1
    have e3 : k.2.1 = k'.2.1 := congrFun hk 3
    have e4 : k.2.2 = k'.2.2 := congrFun hk 4
    exact Prod.ext e2 (Prod.ext e3 e4)
  · intro i
    constructor
    · intro hi
      refine ⟨(i 1, i 3, i 4), ?_⟩
      have e0 : r = i 0 := Fin.ext (by rw [← h0 i, hi])
      have e1 : v = i 2 := Fin.ext (by rw [← h1 i, hi])
      rw [e0, e1]
      exact (eq_ix5 i).symm
    · rintro ⟨k, rfl⟩
      funext c
      match c with
      | ⟨0, _⟩ => exact Fin.ext (h0 _)
      | ⟨1, _⟩ => exact Fin.ext (h1 _)

/-- The sum over the axes 1, 2, 4 of a [4194304, 2, 2, 2, 2] array, read at row `r` and value `v` of axis 3: the
    initial value plus the triple sum over the three reduced bits. The indices that drop to (r, v) are exactly those
    with coordinate 0 equal to r and coordinate 3 equal to v, one for each choice of the other three. -/
theorem reduce124_apply (h : R5.ReducesTo [1, 2, 4] R2) (x : R5.Idx → EReal) (init : EReal)
    (r : Fin 4194304) (v : Fin 2) :
    Ideal.hostReduceAdd h x init (ix2 r v)
      = init + ∑ a : Fin 2, ∑ b : Fin 2, ∑ e : Fin 2, x (ix5 r a b v e) := by
  unfold Ideal.hostReduceAdd
  have h0 : ∀ i : R5.Idx, ((h.drop i 0 : Fin 4194304) : Nat) = (i 0 : Fin 4194304) := fun i =>
    h.drop_apply_val_of_eq i 0 0
  have h1 : ∀ i : R5.Idx, ((h.drop i 1 : Fin 2) : Nat) = (i 3 : Fin 2) := fun i =>
    h.drop_apply_val_of_eq i 1 3
  rw [sum_filter_eq_sum_of_param (fun i => h.drop i = ix2 r v)
    (fun k : Fin 2 × Fin 2 × Fin 2 => ix5 r k.1 k.2.1 v k.2.2) ?_ ?_ x, Fintype.sum_prod_type]
  · refine congrArg (init + ·) (Finset.sum_congr rfl fun _ _ => ?_)
    rw [Fintype.sum_prod_type]
  · intro k k' hk
    have e2 : k.1 = k'.1 := congrFun hk 1
    have e3 : k.2.1 = k'.2.1 := congrFun hk 2
    have e4 : k.2.2 = k'.2.2 := congrFun hk 4
    exact Prod.ext e2 (Prod.ext e3 e4)
  · intro i
    constructor
    · intro hi
      refine ⟨(i 1, i 2, i 4), ?_⟩
      have e0 : r = i 0 := Fin.ext (by rw [← h0 i, hi])
      have e1 : v = i 3 := Fin.ext (by rw [← h1 i, hi])
      rw [e0, e1]
      exact (eq_ix5 i).symm
    · rintro ⟨k, rfl⟩
      funext c
      match c with
      | ⟨0, _⟩ => exact Fin.ext (h0 _)
      | ⟨1, _⟩ => exact Fin.ext (h1 _)

/-- The sum over the axes 1, 2, 3 of a [4194304, 2, 2, 2, 2] array, read at row `r` and value `v` of axis 4: the
    initial value plus the triple sum over the three reduced bits. The indices that drop to (r, v) are exactly those
    with coordinate 0 equal to r and coordinate 4 equal to v, one for each choice of the other three. -/
theorem reduce123_apply (h : R5.ReducesTo [1, 2, 3] R2) (x : R5.Idx → EReal) (init : EReal)
    (r : Fin 4194304) (v : Fin 2) :
    Ideal.hostReduceAdd h x init (ix2 r v)
      = init + ∑ a : Fin 2, ∑ b : Fin 2, ∑ d : Fin 2, x (ix5 r a b d v) := by
  unfold Ideal.hostReduceAdd
  have h0 : ∀ i : R5.Idx, ((h.drop i 0 : Fin 4194304) : Nat) = (i 0 : Fin 4194304) := fun i =>
    h.drop_apply_val_of_eq i 0 0
  have h1 : ∀ i : R5.Idx, ((h.drop i 1 : Fin 2) : Nat) = (i 4 : Fin 2) := fun i =>
    h.drop_apply_val_of_eq i 1 4
  rw [sum_filter_eq_sum_of_param (fun i => h.drop i = ix2 r v)
    (fun k : Fin 2 × Fin 2 × Fin 2 => ix5 r k.1 k.2.1 k.2.2 v) ?_ ?_ x, Fintype.sum_prod_type]
  · refine congrArg (init + ·) (Finset.sum_congr rfl fun _ _ => ?_)
    rw [Fintype.sum_prod_type]
  · intro k k' hk
    have e2 : k.1 = k'.1 := congrFun hk 1
    have e3 : k.2.1 = k'.2.1 := congrFun hk 2
    have e4 : k.2.2 = k'.2.2 := congrFun hk 3
    exact Prod.ext e2 (Prod.ext e3 e4)
  · intro i
    constructor
    · intro hi
      refine ⟨(i 1, i 2, i 3), ?_⟩
      have e0 : r = i 0 := Fin.ext (by rw [← h0 i, hi])
      have e1 : v = i 4 := Fin.ext (by rw [← h1 i, hi])
      rw [e0, e1]
      exact (eq_ix5 i).symm
    · rintro ⟨k, rfl⟩
      funext c
      match c with
      | ⟨0, _⟩ => exact Fin.ext (h0 _)
      | ⟨1, _⟩ => exact Fin.ext (h1 _)

/-- The shapes of one column and of the four columns side by side. -/
abbrev C1 : Shape := ⟨2, ![4194304, 1]⟩
abbrev C4 : Shape := ⟨2, ![4194304, 4]⟩

/-- Four one-column arrays laid side by side, read at row `b` and column `q`: the `q`-th array at row `b`. -/
theorem concat4_apply (u0 u1 u2 u3 : C1.Idx → α) (h : Shape.Concatenates [C1, C1, C1, C1] C4 1) (b : Fin 4194304) (q : Fin 4) :
    concatenate C4 1 [⟨C1, u0⟩, ⟨C1, u1⟩, ⟨C1, u2⟩, ⟨C1, u3⟩] h (ix2 b q) = (![u0, u1, u2, u3] q) (ix2 b 0) :=
  concatenate_ofFn_unit_apply (t := C4) (s₁ := C1) 1 (fun n : Fin 4 => ![u0, u1, u2, u3] n) h rfl rfl (ix2 b q) q rfl (ix2 b 0)
    (fun c hc => by
      match c with
      | ⟨0, _⟩ => rfl
      | ⟨1, _⟩ => exact absurd rfl hc)

end Cert.ReferenceIdeal.RefValue

end
-- ==== Proof.RefValueCoef.lean ====
/-
  The rotation coefficients. Each coefficient the program uses is one entry of the vector of half-angle cosines or
  sines, cut out as a one-element slice, reshaped to a scalar and spread over the whole state array; read at any index
  it is `cos (θ_q / 2)` or `sin (θ_q / 2)`.
-/
import proofs.«170417_j39341900431498_2_alg».proof.Proof.RefRead
import proofs.«170417_j39341900431498_2_alg».proof.Proof.Spec
import proofs.«170417_j39341900431498_2_alg».proof.Proof.RefValueLib

noncomputable section

namespace Cert.ReferenceIdeal.RefValue

open Idealize.ShloMosaic Idealize.ShloMosaic.ValueIdx Cert.ReferenceIdeal Cert.ReferenceIdeal.ReadP Cert.QL

/-- Entry `q` of the half-angle cosines. -/
theorem cosHalf_apply (W : FVec Ideal S4 .f32) (q : Fin 4) : val_main_v7 (F := Ideal) W (ix1 q) = cw W q := by
  rw [val_main_v7_apply, val_main_v6_apply, val_main_v5_apply, val_main_cst_0_apply]
  rfl

/-- Entry `q` of the half-angle sines. -/
theorem sinHalf_apply (W : FVec Ideal S4 .f32) (q : Fin 4) : val_main_v8 (F := Ideal) W (ix1 q) = sw W q := by
  rw [val_main_v8_apply, val_main_v6_apply, val_main_v5_apply, val_main_cst_0_apply]
  rfl

theorem coef_v13 (W : FVec Ideal S4 .f32) (i : S4194304x2x2x2x2.Idx) :
    val_main_v13 (F := Ideal) W i = cw W 0 := by
  rw [val_main_v13_apply]
  unfold val_main_v12
  rw [scalarCast_apply, val_main_v11_apply]
  have hi : idx_main_v11 (ix1 0) = ix1 0 := funext fun a => match a with | ⟨0, _⟩ => Fin.ext rfl
  rw [hi, cosHalf_apply]

theorem coef_v17 (W : FVec Ideal S4 .f32) (i : S4194304x2x2x2x2.Idx) :
    val_main_v17 (F := Ideal) W i = sw W 0 := by
  rw [val_main_v17_apply]
  unfold val_main_v16
  rw [scalarCast_apply, val_main_v15_apply]
  have hi : idx_main_v15 (ix1 0) = ix1 0 := funext fun a => match a with | ⟨0, _⟩ => Fin.ext rfl
  rw [hi, sinHalf_apply]

theorem coef_v22 (W : FVec Ideal S4 .f32) (i : S4194304x2x2x2x2.Idx) :
    val_main_v22 (F := Ideal) W i = cw W 0 := by
  rw [val_main_v22_apply]
  unfold val_main_v21
  rw [scalarCast_apply, val_main_v20_apply]
  have hi : idx_main_v20 (ix1 0) = ix1 0 := funext fun a => match a with | ⟨0, _⟩ => Fin.ext rfl
  rw [hi, cosHalf_apply]

theorem coef_v26 (W : FVec Ideal S4 .f32) (i : S4194304x2x2x2x2.Idx) :
    val_main_v26 (F := Ideal) W i = sw W 0 := by
  rw [val_main_v26_apply]
  unfold val_main_v25
  rw [scalarCast_apply, val_main_v24_apply]
  have hi : idx_main_v24 (ix1 0) = ix1 0 := funext fun a => match a with | ⟨0, _⟩ => Fin.ext rfl
  rw [hi, sinHalf_apply]

theorem coef_v33 (W : FVec Ideal S4 .f32) (i : S4194304x2x2x2x2.Idx) :
    val_main_v33 (F := Ideal) W i = cw W 1 := by
  rw [val_main_v33_apply]
  unfold val_main_v32
  rw [scalarCast_apply, val_main_v31_apply]
  have hi : idx_main_v31 (ix1 0) = ix1 1 := funext fun a => match a with | ⟨0, _⟩ => Fin.ext rfl
  rw [hi, cosHalf_apply]

theorem coef_v37 (W : FVec Ideal S4 .f32) (i : S4194304x2x2x2x2.Idx) :
    val_main_v37 (F := Ideal) W i = sw W 1 := by
  rw [val_main_v37_apply]
  unfold val_main_v36
  rw [scalarCast_apply, val_main_v35_apply]
  have hi : idx_main_v35 (ix1 0) = ix1 1 := funext fun a => match a with | ⟨0, _⟩ => Fin.ext rfl
  rw [hi, sinHalf_apply]

theorem coef_v42 (W : FVec Ideal S4 .f32) (i : S4194304x2x2x2x2.Idx) :
    val_main_v42 (F := Ideal) W i = cw W 1 := by
  rw [val_main_v42_apply]
  unfold val_main_v41
  rw [scalarCast_apply, val_main_v40_apply]
  have hi : idx_main_v40 (ix1 0) = ix1 1 := funext fun a => match a with | ⟨0, _⟩ => Fin.ext rfl
  rw [hi, cosHalf_apply]

theorem coef_v46 (W : FVec Ideal S4 .f32) (i : S4194304x2x2x2x2.Idx) :
    val_main_v46 (F := Ideal) W i = sw W 1 := by
  rw [val_main_v46_apply]
  unfold val_main_v45
  rw [scalarCast_apply, val_main_v44_apply]
  have hi : idx_main_v44 (ix1 0) = ix1 1 := funext fun a => match a with | ⟨0, _⟩ => Fin.ext rfl
  rw [hi, sinHalf_apply]

theorem coef_v53 (W : FVec Ideal S4 .f32) (i : S4194304x2x2x2x2.Idx) :
    val_main_v53 (F := Ideal) W i = cw W 2 := by
  rw [val_main_v53_apply]
  unfold val_main_v52
  rw [scalarCast_apply, val_main_v51_apply]
  have hi : idx_main_v51 (ix1 0) = ix1 2 := funext fun a => match a with | ⟨0, _⟩ => Fin.ext rfl
  rw [hi, cosHalf_apply]

theorem coef_v57 (W : FVec Ideal S4 .f32) (i : S4194304x2x2x2x2.Idx) :
    val_main_v57 (F := Ideal) W i = sw W 2 := by
  rw [val_main_v57_apply]
  unfold val_main_v56
  rw [scalarCast_apply, val_main_v55_apply]
  have hi : idx_main_v55 (ix1 0) = ix1 2 := funext fun a => match a with | ⟨0, _⟩ => Fin.ext rfl
  rw [hi, sinHalf_apply]

theorem coef_v62 (W : FVec Ideal S4 .f32) (i : S4194304x2x2x2x2.Idx) :
    val_main_v62 (F := Ideal) W i = cw W 2 := by
  rw [val_main_v62_apply]
  unfold val_main_v61
  rw [scalarCast_apply, val_main_v60_apply]
  have hi : idx_main_v60 (ix1 0) = ix1 2 := funext fun a => match a with | ⟨0, _⟩ => Fin.ext rfl
  rw [hi, cosHalf_apply]

theorem coef_v66 (W : FVec Ideal S4 .f32) (i : S4194304x2x2x2x2.Idx) :
    val_main_v66 (F := Ideal) W i = sw W 2 := by
  rw [val_main_v66_apply]
  unfold val_main_v65
  rw [scalarCast_apply, val_main_v64_apply]
  have hi : idx_main_v64 (ix1 0) = ix1 2 := funext fun a => match a with | ⟨0, _⟩ => Fin.ext rfl
  rw [hi, sinHalf_apply]

theorem coef_v73 (W : FVec Ideal S4 .f32) (i : S4194304x2x2x2x2.Idx) :
    val_main_v73 (F := Ideal) W i = cw W 3 := by
  rw [val_main_v73_apply]
  unfold val_main_v72
  rw [scalarCast_apply, val_main_v71_apply]
  have hi : idx_main_v71 (ix1 0) = ix1 3 := funext fun a => match a with | ⟨0, _⟩ => Fin.ext rfl
  rw [hi, cosHalf_apply]

theorem coef_v77 (W : FVec Ideal S4 .f32) (i : S4194304x2x2x2x2.Idx) :
    val_main_v77 (F := Ideal) W i = sw W 3 := by
  rw [val_main_v77_apply]
  unfold val_main_v76
  rw [scalarCast_apply, val_main_v75_apply]
  have hi : idx_main_v75 (ix1 0) = ix1 3 := funext fun a => match a with | ⟨0, _⟩ => Fin.ext rfl
  rw [hi, sinHalf_apply]

theorem coef_v82 (W : FVec Ideal S4 .f32) (i : S4194304x2x2x2x2.Idx) :
    val_main_v82 (F := Ideal) W i = cw W 3 := by
  rw [val_main_v82_apply]
  unfold val_main_v81
  rw [scalarCast_apply, val_main_v80_apply]
  have hi : idx_main_v80 (ix1 0) = ix1 3 := funext fun a => match a with | ⟨0, _⟩ => Fin.ext rfl
  rw [hi, cosHalf_apply]

theorem coef_v86 (W : FVec Ideal S4 .f32) (i : S4194304x2x2x2x2.Idx) :
    val_main_v86 (F := Ideal) W i = sw W 3 := by
  rw [val_main_v86_apply]
  unfold val_main_v85
  rw [scalarCast_apply, val_main_v84_apply]
  have hi : idx_main_v84 (ix1 0) = ix1 3 := funext fun a => match a with | ⟨0, _⟩ => Fin.ext rfl
  rw [hi, sinHalf_apply]

end Cert.ReferenceIdeal.RefValue

end
-- ==== Proof.RefValueSteps.lean ====
/-
  The state of one row through the four rotations. `stage0` is the normalised row with zero imaginary part, read by
  its four bits; each later stage is one rotation applied to the stage before it.
-/
import proofs.«170417_j39341900431498_2_alg».proof.Proof.RefValueCoef

noncomputable section

namespace Cert.ReferenceIdeal.RefValue

open Idealize.ShloMosaic Idealize.ShloMosaic.ValueIdx Cert.ReferenceIdeal Cert.ReferenceIdeal.ReadP Cert.QL

/-- The pair (real part, imaginary part) of row `r` before the rotations, as functions of the four bits. -/
def stage0 (X : FVec Ideal S4194304x16 .f32) (r : Fin 4194304) : St × St :=
  (fun a b d e => val_main_v3 (F := Ideal) X (ix5 r a b d e), fun a b d e => val_main_v4 (F := Ideal) (ix5 r a b d e))

/-- The pair (real part, imaginary part) of row `r` after 1 rotation, as functions of the four bits. -/
def stage1 (X : FVec Ideal S4194304x16 .f32) (W : FVec Ideal S4 .f32) (r : Fin 4194304) : St × St :=
  (fun a b d e => val_main_v19 (F := Ideal) X W (ix5 r a b d e), fun a b d e => val_main_v28 (F := Ideal) X W (ix5 r a b d e))

/-- The pair (real part, imaginary part) of row `r` after 2 rotations, as functions of the four bits. -/
def stage2 (X : FVec Ideal S4194304x16 .f32) (W : FVec Ideal S4 .f32) (r : Fin 4194304) : St × St :=
  (fun a b d e => val_main_v39 (F := Ideal) X W (ix5 r a b d e), fun a b d e => val_main_v48 (F := Ideal) X W (ix5 r a b d e))

/-- The pair (real part, imaginary part) of row `r` after 3 rotations, as functions of the four bits. -/
def stage3 (X : FVec Ideal S4194304x16 .f32) (W : FVec Ideal S4 .f32) (r : Fin 4194304) : St × St :=
  (fun a b d e => val_main_v59 (F := Ideal) X W (ix5 r a b d e), fun a b d e => val_main_v68 (F := Ideal) X W (ix5 r a b d e))

/-- The pair (real part, imaginary part) of row `r` after 4 rotations, as functions of the four bits. -/
def stage4 (X : FVec Ideal S4194304x16 .f32) (W : FVec Ideal S4 .f32) (r : Fin 4194304) : St × St :=
  (fun a b d e => val_main_v79 (F := Ideal) X W (ix5 r a b d e), fun a b d e => val_main_v88 (F := Ideal) X W (ix5 r a b d e))

/-- Rotation on wire 0: the new real part is `c·re + s·im∘flip`, the new imaginary part `c·im − s·re∘flip`, the flip
    reversing bit 0. -/
theorem stage1_eq (X : FVec Ideal S4194304x16 .f32) (W : FVec Ideal S4 .f32) (r : Fin 4194304) :
    stage1 X W r = rx0 (cw W 0) (sw W 0) (stage0 X r) := by
  refine Prod.ext (funext fun a => funext fun b => funext fun d => funext fun e => ?_)
    (funext fun a => funext fun b => funext fun d => funext fun e => ?_)
  · show val_main_v19 (F := Ideal) X W (ix5 r a b d e)
      = cw W 0 * val_main_v3 (F := Ideal) X (ix5 r a b d e) + sw W 0 * val_main_v4 (F := Ideal) (ix5 r a.rev b d e)
    rw [val_main_v19_apply, val_main_v14_apply, val_main_v18_apply, coef_v13, coef_v17]
    unfold val_main_v10
    rw [reverse1_apply]
    rfl
  · show val_main_v28 (F := Ideal) X W (ix5 r a b d e)
      = cw W 0 * val_main_v4 (F := Ideal) (ix5 r a b d e) - sw W 0 * val_main_v3 (F := Ideal) X (ix5 r a.rev b d e)
    rw [val_main_v28_apply, val_main_v23_apply, val_main_v27_apply, coef_v22, coef_v26]
    unfold val_main_v9
    rw [reverse1_apply]
    rfl

/-- Rotation on wire 1: the new real part is `c·re + s·im∘flip`, the new imaginary part `c·im − s·re∘flip`, the flip
    reversing bit 1. -/
theorem stage2_eq (X : FVec Ideal S4194304x16 .f32) (W : FVec Ideal S4 .f32) (r : Fin 4194304) :
    stage2 X W r = rx1 (cw W 1) (sw W 1) (stage1 X W r) := by
  refine Prod.ext (funext fun a => funext fun b => funext fun d => funext fun e => ?_)
    (funext fun a => funext fun b => funext fun d => funext fun e => ?_)
  · show val_main_v39 (F := Ideal) X W (ix5 r a b d e)
      = cw W 1 * val_main_v19 (F := Ideal) X W (ix5 r a b d e) + sw W 1 * val_main_v28 (F := Ideal) X W (ix5 r a b.rev d e)
    rw [val_main_v39_apply, val_main_v34_apply, val_main_v38_apply, coef_v33, coef_v37]
    unfold val_main_v30
    rw [reverse2_apply]
    rfl
  · show val_main_v48 (F := Ideal) X W (ix5 r a b d e)
      = cw W 1 * val_main_v28 (F := Ideal) X W (ix5 r a b d e) - sw W 1 * val_main_v19 (F := Ideal) X W (ix5 r a b.rev d e)
    rw [val_main_v48_apply, val_main_v43_apply, val_main_v47_apply, coef_v42, coef_v46]
    unfold val_main_v29
    rw [reverse2_apply]
    rfl

/-- Rotation on wire 2: the new real part is `c·re + s·im∘flip`, the new imaginary part `c·im − s·re∘flip`, the flip
    reversing bit 2. -/
theorem stage3_eq (X : FVec Ideal S4194304x16 .f32) (W : FVec Ideal S4 .f32) (r : Fin 4194304) :
    stage3 X W r = rx2 (cw W 2) (sw W 2) (stage2 X W r) := by
  refine Prod.ext (funext fun a => funext fun b => funext fun d => funext fun e => ?_)
    (funext fun a => funext fun b => funext fun d => funext fun e => ?_)
  · show val_main_v59 (F := Ideal) X W (ix5 r a b d e)
      = cw W 2 * val_main_v39 (F := Ideal) X W (ix5 r a b d e) + sw W 2 * val_main_v48 (F := Ideal) X W (ix5 r a b d.rev e)
    rw [val_main_v59_apply, val_main_v54_apply, val_main_v58_apply, coef_v53, coef_v57]
    unfold val_main_v50
    rw [reverse3_apply]
    rfl
  · show val_main_v68 (F := Ideal) X W (ix5 r a b d e)
      = cw W 2 * val_main_v48 (F := Ideal) X W (ix5 r a b d e) - sw W 2 * val_main_v39 (F := Ideal) X W (ix5 r a b d.rev e)
    rw [val_main_v68_apply, val_main_v63_apply, val_main_v67_apply, coef_v62, coef_v66]
    unfold val_main_v49
    rw [reverse3_apply]
    rfl

/-- Rotation on wire 3: the new real part is `c·re + s·im∘flip`, the new imaginary part `c·im − s·re∘flip`, the flip
    reversing bit 3. -/
theorem stage4_eq (X : FVec Ideal S4194304x16 .f32) (W : FVec Ideal S4 .f32) (r : Fin 4194304) :
    stage4 X W r = rx3 (cw W 3) (sw W 3) (stage3 X W r) := by
  refine Prod.ext (funext fun a => funext fun b => funext fun d => funext fun e => ?_)
    (funext fun a => funext fun b => funext fun d => funext fun e => ?_)
  · show val_main_v79 (F := Ideal) X W (ix5 r a b d e)
      = cw W 3 * val_main_v59 (F := Ideal) X W (ix5 r a b d e) + sw W 3 * val_main_v68 (F := Ideal) X W (ix5 r a b d e.rev)
    rw [val_main_v79_apply, val_main_v74_apply, val_main_v78_apply, coef_v73, coef_v77]
    unfold val_main_v70
    rw [reverse4_apply]
    rfl
  · show val_main_v88 (F := Ideal) X W (ix5 r a b d e)
      = cw W 3 * val_main_v68 (F := Ideal) X W (ix5 r a b d e) - sw W 3 * val_main_v59 (F := Ideal) X W (ix5 r a b d e.rev)
    rw [val_main_v88_apply, val_main_v83_apply, val_main_v87_apply, coef_v82, coef_v86]
    unfold val_main_v69
    rw [reverse4_apply]
    rfl

end Cert.ReferenceIdeal.RefValue

end
-- ==== Proof.RefValueStart.lean ====
/-
  The state before the rotations: the row divided by the square root of its sum of squares, laid out by its four bits
  (amplitude number 8a + 4b + 2d + e), and a zero imaginary part.
-/
import proofs.«170417_j39341900431498_2_alg».proof.Proof.RefValueCoef

noncomputable section

namespace Cert.ReferenceIdeal.RefValue

open Idealize.ShloMosaic Idealize.ShloMosaic.ValueIdx Cert.ReferenceIdeal Cert.ReferenceIdeal.ReadP Cert.QL

/-- The norm of row `r`, spread along the row: the square root of the sum of the sixteen squares (the sum starts from
    the word of zero, which is 0). -/
theorem norm_apply (X : FVec Ideal S4194304x16 .f32) (r : Fin 4194304) (k : Fin 16) :
    val_main_v1 (F := Ideal) X (ix2 r k) = Ideal.sqrt (ss X r) := by
  rw [val_main_v1_apply, val_main_v0_apply, val_main_call0_v2_apply, val_main_call0_v1_apply, val_main_call0_cst_apply]
  simp only [Ideal.hostUnary_sqrt_def, Ideal.ofBits_def, Ideal.ofBits_zero_f32, zero_add]
  unfold ss
  refine congrArg Ideal.sqrt (Finset.sum_congr rfl fun j _ => ?_)
  rw [val_main_call0_v0_apply]
  have hi : idx_main_call0_v1 (idx_main_call0_v2 (idx_main_v1 (ix2 r k))) j = ix2 r j :=
    funext fun c => match c with | ⟨0, _⟩ => Fin.ext rfl | ⟨1, _⟩ => Fin.ext rfl
  rw [hi]
  rfl

/-- The reshape of a row of sixteen to four bits reads amplitude number 8a + 4b + 2d + e of the same row. -/
theorem reshape_idx (r : Fin 4194304) (a b d e : Fin 2) : idx_main_v3 (ix5 r a b d e) = ix2 r (flat a b d e) := by
  have ha := a.isLt; have hb := b.isLt; have hd := d.isLt; have he := e.isLt
  have h0 : ((((r.val * 2 + a.val) * 2 + b.val) * 2 + d.val) * 2 + e.val) / 16 = r.val := by omega
  have h1 : ((((r.val * 2 + a.val) * 2 + b.val) * 2 + d.val) * 2 + e.val) % 16
      = 8 * a.val + 4 * b.val + 2 * d.val + e.val := by omega
  exact funext fun c => match c with
    | ⟨0, _⟩ => Fin.ext h0
    | ⟨1, _⟩ => Fin.ext h1

/-- Before the rotations the real part is the normalised row … -/
theorem re0_apply (X : FVec Ideal S4194304x16 .f32) (r : Fin 4194304) (a b d e : Fin 2) :
    val_main_v3 (F := Ideal) X (ix5 r a b d e) = Ideal.div (X (ix2 r (flat a b d e))) (Ideal.sqrt (ss X r)) := by
  rw [val_main_v3_apply, val_main_v2_apply, reshape_idx, norm_apply]
  rfl

/-- … and the imaginary part is zero. -/
theorem im0_apply (i : S4194304x2x2x2x2.Idx) : val_main_v4 (F := Ideal) i = 0 := by
  rw [val_main_v4_apply, val_main_cst_apply]
  exact Ideal.ofBits_zero_f32

end Cert.ReferenceIdeal.RefValue

end
-- ==== Proof.RefValue.lean ====
/-
  The quotient-form program's result read at an index. Row `b`, column `q` of the result is the expectation of Z on
  wire `q` of the normalised, rotated row: the marginal probability of bit `q` being 0 minus that of it being 1. The
  state after the four rotations is `refState`; its probabilities summed over the other three bits are `marg`; the
  result's four columns are the four differences laid side by side.
-/
import proofs.«170417_j39341900431498_2_alg».proof.Proof.RefValueSteps
import proofs.«170417_j39341900431498_2_alg».proof.Proof.RefValueStart

noncomputable section

namespace Cert.ReferenceIdeal.RefValue

open Idealize.ShloMosaic Idealize.ShloMosaic.ValueIdx Cert.ReferenceIdeal Cert.ReferenceIdeal.ReadP Cert.QL

/-- Before the rotations: the normalised row by its four bits, and a zero imaginary part. -/
theorem stage0_eq (X : FVec Ideal S4194304x16 .f32) (r : Fin 4194304) :
    stage0 X r = (fun a b d e => Ideal.div (X (ix2 r (flat a b d e))) (Ideal.sqrt (ss X r)), fun _ _ _ _ => 0) :=
  Prod.ext (funext fun a => funext fun b => funext fun d => funext fun e => re0_apply X r a b d e)
    (funext fun a => funext fun b => funext fun d => funext fun e => im0_apply (ix5 r a b d e))

/-- After the four rotations the row's state is the one the target formula names. -/
theorem stage4_eq_refState (X : FVec Ideal S4194304x16 .f32) (W : FVec Ideal S4 .f32) (r : Fin 4194304) :
    stage4 X W r = refState X W r := by
  rw [stage4_eq, stage3_eq, stage2_eq, stage1_eq, stage0_eq]
  rfl

/-- The probability array at row `r` and bits (a, b, d, e): real part squared plus imaginary part squared. -/
theorem prob_apply (X : FVec Ideal S4194304x16 .f32) (W : FVec Ideal S4 .f32) (r : Fin 4194304) (a b d e : Fin 2) :
    val_main_v91 (F := Ideal) X W (ix5 r a b d e) = prob (refState X W r) a b d e := by
  rw [← stage4_eq_refState, val_main_v91_apply, val_main_v89_apply, val_main_v90_apply]
  rfl

/-- The sum of the probabilities over the three bits other than wire 0's, at row `r` and value `v` of that bit: the
    marginal of wire 0 (the sum starts from the word of zero, which is 0). -/
theorem marg0_apply (X : FVec Ideal S4194304x16 .f32) (W : FVec Ideal S4 .f32) (r : Fin 4194304) (v : Fin 2) :
    val_main_v92 (F := Ideal) X W (ix2 r v) = marg (prob (refState X W r)) 0 v := by
  unfold val_main_v92
  simp only [Host.reduceAdd, Ideal.hostReduceAdd_def]
  rw [reduce234_apply, val_main_cst_1_apply]
  simp only [Ideal.ofBits_def, Ideal.ofBits_zero_f32, zero_add, prob_apply]
  rfl

/-- The sum of the probabilities over the three bits other than wire 1's, at row `r` and value `v` of that bit: the
    marginal of wire 1 (the sum starts from the word of zero, which is 0). -/
theorem marg1_apply (X : FVec Ideal S4194304x16 .f32) (W : FVec Ideal S4 .f32) (r : Fin 4194304) (v : Fin 2) :
    val_main_v98 (F := Ideal) X W (ix2 r v) = marg (prob (refState X W r)) 1 v := by
  unfold val_main_v98
  simp only [Host.reduceAdd, Ideal.hostReduceAdd_def]
  rw [reduce134_apply, val_main_cst_2_apply]
  simp only [Ideal.ofBits_def, Ideal.ofBits_zero_f32, zero_add, prob_apply]
  rfl

/-- The sum of the probabilities over the three bits other than wire 2's, at row `r` and value `v` of that bit: the
    marginal of wire 2 (the sum starts from the word of zero, which is 0). -/
theorem marg2_apply (X : FVec Ideal S4194304x16 .f32) (W : FVec Ideal S4 .f32) (r : Fin 4194304) (v : Fin 2) :
    val_main_v104 (F := Ideal) X W (ix2 r v) = marg (prob (refState X W r)) 2 v := by
  unfold val_main_v104
  simp only [Host.reduceAdd, Ideal.hostReduceAdd_def]
  rw [reduce124_apply, val_main_cst_3_apply]
  simp only [Ideal.ofBits_def, Ideal.ofBits_zero_f32, zero_add, prob_apply]
  rfl

/-- The sum of the probabilities over the three bits other than wire 3's, at row `r` and value `v` of that bit: the
    marginal of wire 3 (the sum starts from the word of zero, which is 0). -/
theorem marg3_apply (X : FVec Ideal S4194304x16 .f32) (W : FVec Ideal S4 .f32) (r : Fin 4194304) (v : Fin 2) :
    val_main_v110 (F := Ideal) X W (ix2 r v) = marg (prob (refState X W r)) 3 v := by
  unfold val_main_v110
  simp only [Host.reduceAdd, Ideal.hostReduceAdd_def]
  rw [reduce123_apply, val_main_cst_4_apply]
  simp only [Ideal.ofBits_def, Ideal.ofBits_zero_f32, zero_add, prob_apply]
  rfl

/-- Column 0 of the result: the marginal of wire 0 at bit value 0 minus the one at bit value 1. -/
theorem col0_apply (X : FVec Ideal S4194304x16 .f32) (W : FVec Ideal S4 .f32) (b : Fin 4194304) :
    val_main_v116 (F := Ideal) X W (ix2 b 0) = refOut X W b 0 := by
  rw [val_main_v116_apply, val_main_v97_apply, val_main_v94_apply, val_main_v96_apply, val_main_v93_apply,
    val_main_v95_apply]
  have i0 : idx_main_v93 (idx_main_v94 (idx_main_v116 (ix2 b 0))) = ix2 b 0 :=
    funext fun c => match c with | ⟨0, _⟩ => Fin.ext (Nat.div_one _) | ⟨1, _⟩ => Fin.ext rfl
  have i1 : idx_main_v95 (idx_main_v96 (idx_main_v116 (ix2 b 0))) = ix2 b 1 :=
    funext fun c => match c with | ⟨0, _⟩ => Fin.ext (Nat.div_one _) | ⟨1, _⟩ => Fin.ext rfl
  rw [i0, i1, marg0_apply, marg0_apply]
  rfl

/-- Column 1 of the result: the marginal of wire 1 at bit value 0 minus the one at bit value 1. -/
theorem col1_apply (X : FVec Ideal S4194304x16 .f32) (W : FVec Ideal S4 .f32) (b : Fin 4194304) :
    val_main_v117 (F := Ideal) X W (ix2 b 0) = refOut X W b 1 := by
  rw [val_main_v117_apply, val_main_v103_apply, val_main_v100_apply, val_main_v102_apply, val_main_v99_apply,
    val_main_v101_apply]
  have i0 : idx_main_v99 (idx_main_v100 (idx_main_v117 (ix2 b 0))) = ix2 b 0 :=
    funext fun c => match c with | ⟨0, _⟩ => Fin.ext (Nat.div_one _) | ⟨1, _⟩ => Fin.ext rfl
  have i1 : idx_main_v101 (idx_main_v102 (idx_main_v117 (ix2 b 0))) = ix2 b 1 :=
    funext fun c => match c with | ⟨0, _⟩ => Fin.ext (Nat.div_one _) | ⟨1, _⟩ => Fin.ext rfl
  rw [i0, i1, marg1_apply, marg1_apply]
  rfl

/-- Column 2 of the result: the marginal of wire 2 at bit value 0 minus the one at bit value 1. -/
theorem col2_apply (X : FVec Ideal S4194304x16 .f32) (W : FVec Ideal S4 .f32) (b : Fin 4194304) :
    val_main_v118 (F := Ideal) X W (ix2 b 0) = refOut X W b 2 := by
  rw [val_main_v118_apply, val_main_v109_apply, val_main_v106_apply, val_main_v108_apply, val_main_v105_apply,
    val_main_v107_apply]
  have i0 : idx_main_v105 (idx_main_v106 (idx_main_v118 (ix2 b 0))) = ix2 b 0 :=
    funext fun c => match c with | ⟨0, _⟩ => Fin.ext (Nat.div_one _) | ⟨1, _⟩ => Fin.ext rfl
  have i1 : idx_main_v107 (idx_main_v108 (idx_main_v118 (ix2 b 0))) = ix2 b 1 :=
    funext fun c => match c with | ⟨0, _⟩ => Fin.ext (Nat.div_one _) | ⟨1, _⟩ => Fin.ext rfl
  rw [i0, i1, marg2_apply, marg2_apply]
  rfl

/-- Column 3 of the result: the marginal of wire 3 at bit value 0 minus the one at bit value 1. -/
theorem col3_apply (X : FVec Ideal S4194304x16 .f32) (W : FVec Ideal S4 .f32) (b : Fin 4194304) :
    val_main_v119 (F := Ideal) X W (ix2 b 0) = refOut X W b 3 := by
  rw [val_main_v119_apply, val_main_v115_apply, val_main_v112_apply, val_main_v114_apply, val_main_v111_apply,
    val_main_v113_apply]
  have i0 : idx_main_v111 (idx_main_v112 (idx_main_v119 (ix2 b 0))) = ix2 b 0 :=
    funext fun c => match c with | ⟨0, _⟩ => Fin.ext (Nat.div_one _) | ⟨1, _⟩ => Fin.ext rfl
  have i1 : idx_main_v113 (idx_main_v114 (idx_main_v119 (ix2 b 0))) = ix2 b 1 :=
    funext fun c => match c with | ⟨0, _⟩ => Fin.ext (Nat.div_one _) | ⟨1, _⟩ => Fin.ext rfl
  rw [i0, i1, marg3_apply, marg3_apply]
  rfl

/-- Four one-column arrays side by side, read at each of the four columns: that column's array. -/
theorem concat4_col0 {α : Type} (u0 u1 u2 u3 : C1.Idx → α) (h : Shape.Concatenates [C1, C1, C1, C1] C4 1) (b : Fin 4194304) :
    concatenate C4 1 [⟨C1, u0⟩, ⟨C1, u1⟩, ⟨C1, u2⟩, ⟨C1, u3⟩] h (ix2 b 0) = u0 (ix2 b 0) := concat4_apply u0 u1 u2 u3 h b 0
theorem concat4_col1 {α : Type} (u0 u1 u2 u3 : C1.Idx → α) (h : Shape.Concatenates [C1, C1, C1, C1] C4 1) (b : Fin 4194304) :
    concatenate C4 1 [⟨C1, u0⟩, ⟨C1, u1⟩, ⟨C1, u2⟩, ⟨C1, u3⟩] h (ix2 b 1) = u1 (ix2 b 0) := concat4_apply u0 u1 u2 u3 h b 1
theorem concat4_col2 {α : Type} (u0 u1 u2 u3 : C1.Idx → α) (h : Shape.Concatenates [C1, C1, C1, C1] C4 1) (b : Fin 4194304) :
    concatenate C4 1 [⟨C1, u0⟩, ⟨C1, u1⟩, ⟨C1, u2⟩, ⟨C1, u3⟩] h (ix2 b 2) = u2 (ix2 b 0) := concat4_apply u0 u1 u2 u3 h b 2
theorem concat4_col3 {α : Type} (u0 u1 u2 u3 : C1.Idx → α) (h : Shape.Concatenates [C1, C1, C1, C1] C4 1) (b : Fin 4194304) :
    concatenate C4 1 [⟨C1, u0⟩, ⟨C1, u1⟩, ⟨C1, u2⟩, ⟨C1, u3⟩] h (ix2 b 3) = u3 (ix2 b 0) := concat4_apply u0 u1 u2 u3 h b 3

/-- The result at row `b` and column `q` is the target formula there. -/
theorem ref_apply (X : FVec Ideal S4194304x16 .f32) (W : FVec Ideal S4 .f32) (b : Fin 4194304) (q : Fin 4) :
    Cert.ReferenceIdeal.ReadP.val_main_v120 (F := Ideal) X W (ix2 b q) = refOut X W b q := by
  have hq : q = 0 ∨ q = 1 ∨ q = 2 ∨ q = 3 := by revert q; decide
  unfold val_main_v120
  rcases hq with rfl | rfl | rfl | rfl
  · rw [concat4_col0]; exact col0_apply X W b
  · rw [concat4_col1]; exact col1_apply X W b
  · rw [concat4_col2]; exact col2_apply X W b
  · rw [concat4_col3]; exact col3_apply X W b

end Cert.ReferenceIdeal.RefValue

end
-- ==== Proof.AlgebraReal.lean ====
/-
  The real-number model of the two formulas, and the identity between them.

  On real amplitudes each rotation is a linear map of the pair (real part, imaginary part); hence the four rotations
  applied to the state `Σ_j y_j · e_j` give `Σ_j y_j ·` (the rotations applied to `e_j`): the row `y` times the two
  16 × 16 matrices.  Contracting the sixteen probabilities with the signs of wire `q` is the difference of the two
  marginals of that wire.
-/
import proofs.«170417_j39341900431498_2_alg».proof.Proof.Spec

noncomputable section

namespace Cert.QL

open Idealize.ShloMosaic

/-- Sixteen real amplitudes, named by their four bits (wire 0 first). -/
abbrev StR := Fin 2 → Fin 2 → Fin 2 → Fin 2 → ℝ

/-- One rotation on wire 0, on real pairs. -/
def rx0R (c s : ℝ) (P : StR × StR) : StR × StR :=
  (fun a b d e => c * P.1 a b d e + s * P.2 a.rev b d e, fun a b d e => c * P.2 a b d e - s * P.1 a.rev b d e)
/-- One rotation on wire 1, on real pairs. -/
def rx1R (c s : ℝ) (P : StR × StR) : StR × StR :=
  (fun a b d e => c * P.1 a b d e + s * P.2 a b.rev d e, fun a b d e => c * P.2 a b d e - s * P.1 a b.rev d e)
/-- One rotation on wire 2, on real pairs. -/
def rx2R (c s : ℝ) (P : StR × StR) : StR × StR :=
  (fun a b d e => c * P.1 a b d e + s * P.2 a b d.rev e, fun a b d e => c * P.2 a b d e - s * P.1 a b d.rev e)
/-- One rotation on wire 3, on real pairs. -/
def rx3R (c s : ℝ) (P : StR × StR) : StR × StR :=
  (fun a b d e => c * P.1 a b d e + s * P.2 a b d e.rev, fun a b d e => c * P.2 a b d e - s * P.1 a b d e.rev)

/-- The four rotations, wire 0 first, on real pairs. -/
def circR (c s : Fin 4 → ℝ) (P : StR × StR) : StR × StR :=
  rx3R (c 3) (s 3) (rx2R (c 2) (s 2) (rx1R (c 1) (s 1) (rx0R (c 0) (s 0) P)))

/-! ### Each rotation is linear -/

theorem rx0R_add (c s : ℝ) (P Q : StR × StR) : rx0R c s (P + Q) = rx0R c s P + rx0R c s Q := by
  refine Prod.ext ?_ ?_ <;> funext a b d e <;> simp only [rx0R, Prod.fst_add, Prod.snd_add, Pi.add_apply] <;> ring
theorem rx1R_add (c s : ℝ) (P Q : StR × StR) : rx1R c s (P + Q) = rx1R c s P + rx1R c s Q := by
  refine Prod.ext ?_ ?_ <;> funext a b d e <;> simp only [rx1R, Prod.fst_add, Prod.snd_add, Pi.add_apply] <;> ring
theorem rx2R_add (c s : ℝ) (P Q : StR × StR) : rx2R c s (P + Q) = rx2R c s P + rx2R c s Q := by
  refine Prod.ext ?_ ?_ <;> funext a b d e <;> simp only [rx2R, Prod.fst_add, Prod.snd_add, Pi.add_apply] <;> ring
theorem rx3R_add (c s : ℝ) (P Q : StR × StR) : rx3R c s (P + Q) = rx3R c s P + rx3R c s Q := by
  refine Prod.ext ?_ ?_ <;> funext a b d e <;> simp only [rx3R, Prod.fst_add, Prod.snd_add, Pi.add_apply] <;> ring

theorem rx0R_smul (c s t : ℝ) (P : StR × StR) : rx0R c s (t • P) = t • rx0R c s P := by
  refine Prod.ext ?_ ?_ <;> funext a b d e <;>
    simp only [rx0R, Prod.smul_fst, Prod.smul_snd, Pi.smul_apply, smul_eq_mul] <;> ring
theorem rx1R_smul (c s t : ℝ) (P : StR × StR) : rx1R c s (t • P) = t • rx1R c s P := by
  refine Prod.ext ?_ ?_ <;> funext a b d e <;>
    simp only [rx1R, Prod.smul_fst, Prod.smul_snd, Pi.smul_apply, smul_eq_mul] <;> ring
theorem rx2R_smul (c s t : ℝ) (P : StR × StR) : rx2R c s (t • P) = t • rx2R c s P := by
  refine Prod.ext ?_ ?_ <;> funext a b d e <;>
    simp only [rx2R, Prod.smul_fst, Prod.smul_snd, Pi.smul_apply, smul_eq_mul] <;> ring
theorem rx3R_smul (c s t : ℝ) (P : StR × StR) : rx3R c s (t • P) = t • rx3R c s P := by
  refine Prod.ext ?_ ?_ <;> funext a b d e <;>
    simp only [rx3R, Prod.smul_fst, Prod.smul_snd, Pi.smul_apply, smul_eq_mul] <;> ring

theorem circR_add (c s : Fin 4 → ℝ) (P Q : StR × StR) : circR c s (P + Q) = circR c s P + circR c s Q := by
  simp only [circR, rx0R_add, rx1R_add, rx2R_add, rx3R_add]

theorem circR_smul (c s : Fin 4 → ℝ) (t : ℝ) (P : StR × StR) : circR c s (t • P) = t • circR c s P := by
  simp only [circR, rx0R_smul, rx1R_smul, rx2R_smul, rx3R_smul]

theorem circR_zero (c s : Fin 4 → ℝ) : circR c s 0 = 0 := by
  have h := circR_smul c s 0 0
  rwa [zero_smul, zero_smul] at h

/-- The four rotations commute with finite sums. -/
theorem circR_sum {ι : Type} (c s : Fin 4 → ℝ) (S : Finset ι) (f : ι → StR × StR) :
    circR c s (∑ j ∈ S, f j) = ∑ j ∈ S, circR c s (f j) := by
  classical
  induction S using Finset.induction_on with
  | empty => simp only [Finset.sum_empty, circR_zero]
  | insert a S ha ih => rw [Finset.sum_insert ha, Finset.sum_insert ha, circR_add, ih]

/-! ### The state as a combination of the basis states -/

/-- Basis state `j` on reals: one at amplitude `j`, zero elsewhere, imaginary part zero. -/
def basisR (j : ℕ) : StR × StR :=
  (fun a b d e => if j = (flat a b d e).val then 1 else 0, fun _ _ _ _ => 0)

/-- The state whose amplitude number `k` is `y k`, imaginary part zero. -/
def stateR (y : Fin 16 → ℝ) : StR × StR := (fun a b d e => y (flat a b d e), fun _ _ _ _ => 0)

theorem stateR_eq_sum (y : Fin 16 → ℝ) : stateR y = ∑ j : Fin 16, y j • basisR j.val := by
  refine Prod.ext ?_ ?_ <;> funext a b d e
  · simp only [stateR, basisR, Prod.fst_sum, Prod.smul_fst, Finset.sum_apply, Pi.smul_apply, smul_eq_mul, mul_ite,
      mul_one, mul_zero, Fin.val_inj, Finset.sum_ite_eq', Finset.mem_univ, if_true]
  · simp only [stateR, basisR, Prod.snd_sum, Prod.smul_snd, Finset.sum_apply, Pi.smul_apply, smul_eq_mul, mul_zero,
      Finset.sum_const_zero]

/-- Linearity: the rotations on the state `y` are the combination, with the coefficients `y`, of the rotations on the
    basis states. -/
theorem circR_stateR (c s : Fin 4 → ℝ) (y : Fin 16 → ℝ) :
    circR c s (stateR y) = ∑ j : Fin 16, y j • circR c s (basisR j.val) := by
  rw [stateR_eq_sum, circR_sum]
  exact Finset.sum_congr rfl fun j _ => circR_smul c s (y j) _

/-! ### The two formulas on reals -/

/-- A real function of four bits read at an amplitude number. -/
def atAmpR (p : StR) (i : ℕ) : ℝ := p (bitOf i 3) (bitOf i 2) (bitOf i 1) (bitOf i 0)

/-- The probability of each amplitude. -/
def probR (P : StR × StR) : StR := fun a b d e => P.1 a b d e * P.1 a b d e + P.2 a b d e * P.2 a b d e

/-- The marginal of wire `q` at the value `v`. -/
def margR (p : StR) : Fin 4 → Fin 2 → ℝ
  | 0, v => ∑ b : Fin 2, ∑ d : Fin 2, ∑ e : Fin 2, p v b d e
  | 1, v => ∑ a : Fin 2, ∑ d : Fin 2, ∑ e : Fin 2, p a v d e
  | 2, v => ∑ a : Fin 2, ∑ b : Fin 2, ∑ e : Fin 2, p a b v e
  | 3, v => ∑ a : Fin 2, ∑ b : Fin 2, ∑ d : Fin 2, p a b d v

/-- The sign of amplitude `i` on wire `q`. -/
def sgnR (i q : ℕ) : ℝ := if bitOf i (3 - q) = 0 then 1 else -1

/-- Entry (j, i) of the two real matrices. -/
def mReR (c s : Fin 4 → ℝ) (j i : ℕ) : ℝ := atAmpR (circR c s (basisR j)).1 i
def mImR (c s : Fin 4 → ℝ) (j i : ℕ) : ℝ := atAmpR (circR c s (basisR j)).2 i

/-- The matrix form's probability of amplitude `i`. -/
def kerProbR (c s : Fin 4 → ℝ) (y : Fin 16 → ℝ) (i : Fin 16) : ℝ :=
  (∑ j : Fin 16, y j * mReR c s j.val i.val) * (∑ j : Fin 16, y j * mReR c s j.val i.val)
    + (∑ j : Fin 16, y j * mImR c s j.val i.val) * (∑ j : Fin 16, y j * mImR c s j.val i.val)

/-- The matrix form's result on wire `q`. -/
def kerOutR (c s : Fin 4 → ℝ) (y : Fin 16 → ℝ) (q : Fin 4) : ℝ := ∑ i : Fin 16, kerProbR c s y i * sgnR i.val q.val

/-- The direct form's result on wire `q`. -/
def refOutR (c s : Fin 4 → ℝ) (y : Fin 16 → ℝ) (q : Fin 4) : ℝ :=
  margR (probR (circR c s (stateR y))) q 0 - margR (probR (circR c s (stateR y))) q 1

/-- The row times the matrices is the rotated state, so the matrix form's probabilities are the rotated state's. -/
theorem kerProbR_eq (c s : Fin 4 → ℝ) (y : Fin 16 → ℝ) (i : Fin 16) :
    kerProbR c s y i = atAmpR (probR (circR c s (stateR y))) i.val := by
  have h1 : ∑ j : Fin 16, y j * mReR c s j.val i.val = atAmpR (circR c s (stateR y)).1 i.val := by
    rw [circR_stateR]
    simp only [atAmpR, mReR, Prod.fst_sum, Prod.smul_fst, Finset.sum_apply, Pi.smul_apply, smul_eq_mul]
  have h2 : ∑ j : Fin 16, y j * mImR c s j.val i.val = atAmpR (circR c s (stateR y)).2 i.val := by
    rw [circR_stateR]
    simp only [atAmpR, mImR, Prod.snd_sum, Prod.smul_snd, Finset.sum_apply, Pi.smul_apply, smul_eq_mul]
  rw [kerProbR, h1, h2]
  rfl

/-- The bits of an amplitude number built from four bits are those bits. -/
theorem bitOf_flat : ∀ a b d e : Fin 2, bitOf (flat a b d e).val 3 = a ∧ bitOf (flat a b d e).val 2 = b
    ∧ bitOf (flat a b d e).val 1 = d ∧ bitOf (flat a b d e).val 0 = e := by decide

/-- A sum over the sixteen amplitude numbers is the sum over their four bits. -/
theorem sum16 (f : Fin 16 → ℝ) : ∑ i : Fin 16, f i = ∑ a : Fin 2, ∑ b : Fin 2, ∑ d : Fin 2, ∑ e : Fin 2, f (flat a b d e) := by
  have hf : ∀ a b d e : Fin 2, flat a b d e = ⟨8 * a.val + 4 * b.val + 2 * d.val + e.val, by omega⟩ := fun _ _ _ _ => rfl
  simp only [Fin.sum_univ_two, hf]
  simp [Fin.sum_univ_succ]
  ring

/-- Contracting with the signs of wire `q` is the difference of the two marginals of that wire. -/
theorem sum_sgnR (p : StR) (q : Fin 4) :
    ∑ i : Fin 16, atAmpR p i.val * sgnR i.val q.val = margR p q 0 - margR p q 1 := by
  have h3 : ∀ a b d e : Fin 2, bitOf (flat a b d e).val 3 = a := fun a b d e => (bitOf_flat a b d e).1
  have h2 : ∀ a b d e : Fin 2, bitOf (flat a b d e).val 2 = b := fun a b d e => (bitOf_flat a b d e).2.1
  have h1 : ∀ a b d e : Fin 2, bitOf (flat a b d e).val 1 = d := fun a b d e => (bitOf_flat a b d e).2.2.1
  have h0 : ∀ a b d e : Fin 2, bitOf (flat a b d e).val 0 = e := fun a b d e => (bitOf_flat a b d e).2.2.2
  rw [sum16]
  fin_cases q <;> simp [atAmpR, sgnR, margR, h3, h2, h1, h0, Fin.sum_univ_two] <;> ring

/-- The two real formulas agree. -/
theorem kerOutR_eq_refOutR (c s : Fin 4 → ℝ) (y : Fin 16 → ℝ) (q : Fin 4) : kerOutR c s y q = refOutR c s y q := by
  simp only [kerOutR, kerProbR_eq]
  exact sum_sgnR _ q

end Cert.QL

end
-- ==== Proof.AlgebraCoe.lean ====
/-
  Transport between the extended reals and the reals: on real data every piece of the two formulas is the coercion of
  its real counterpart.  (On the extended reals distributivity and cancellation fail at the infinities, so the algebra is
  done on reals and only carried over here, one operation at a time.)
-/
import proofs.«170417_j39341900431498_2_alg».proof.Proof.AlgebraReal

noncomputable section

namespace Cert.QL

open Idealize.ShloMosaic

/-- A pair of real states read on the extended reals. -/
def up (P : StR × StR) : St × St :=
  (fun a b d e => (P.1 a b d e : EReal), fun a b d e => (P.2 a b d e : EReal))

/-- The coercion commutes with finite sums. -/
theorem coe_sum {ι : Type} (S : Finset ι) (f : ι → ℝ) : ((∑ i ∈ S, f i : ℝ) : EReal) = ∑ i ∈ S, (f i : EReal) := by
  classical
  induction S using Finset.induction_on with
  | empty => simp only [Finset.sum_empty, EReal.coe_zero]
  | insert a S ha ih => rw [Finset.sum_insert ha, Finset.sum_insert ha, EReal.coe_add, ih]

theorem rx0_up (c s : ℝ) (P : StR × StR) : rx0 (c : EReal) (s : EReal) (up P) = up (rx0R c s P) := by
  simp only [rx0, rx0R, up, EReal.coe_add, EReal.coe_sub, EReal.coe_mul]
theorem rx1_up (c s : ℝ) (P : StR × StR) : rx1 (c : EReal) (s : EReal) (up P) = up (rx1R c s P) := by
  simp only [rx1, rx1R, up, EReal.coe_add, EReal.coe_sub, EReal.coe_mul]
theorem rx2_up (c s : ℝ) (P : StR × StR) : rx2 (c : EReal) (s : EReal) (up P) = up (rx2R c s P) := by
  simp only [rx2, rx2R, up, EReal.coe_add, EReal.coe_sub, EReal.coe_mul]
theorem rx3_up (c s : ℝ) (P : StR × StR) : rx3 (c : EReal) (s : EReal) (up P) = up (rx3R c s P) := by
  simp only [rx3, rx3R, up, EReal.coe_add, EReal.coe_sub, EReal.coe_mul]

/-- The four rotations with real cosines and sines, on a real pair, are the real rotations. -/
theorem circ_up (c s : Fin 4 → ℝ) (P : StR × StR) :
    circ (fun q => (c q : EReal)) (fun q => (s q : EReal)) (up P) = up (circR c s P) := by
  simp only [circ, circR, rx0_up, rx1_up, rx2_up, rx3_up]

theorem basisState_up (j : ℕ) : basisState j = up (basisR j) := by
  refine Prod.ext ?_ ?_ <;> funext a b d e
  · show (if j = (flat a b d e).val then (1 : EReal) else 0)
      = (((if j = (flat a b d e).val then (1 : ℝ) else 0 : ℝ)) : EReal)
    split_ifs
    · exact EReal.coe_one.symm
    · exact EReal.coe_zero.symm
  · exact EReal.coe_zero.symm

theorem stateR_up (y : Fin 16 → ℝ) :
    ((fun a b d e => (y (flat a b d e) : EReal), fun _ _ _ _ => 0) : St × St) = up (stateR y) := by
  refine Prod.ext ?_ ?_ <;> funext a b d e
  · rfl
  · exact EReal.coe_zero.symm

theorem atAmp_up (p : StR) (i : ℕ) : atAmp (fun a b d e => (p a b d e : EReal)) i = (atAmpR p i : EReal) := rfl

theorem prob_up (P : StR × StR) : prob (up P) = fun a b d e => (probR P a b d e : EReal) := by
  funext a b d e
  simp only [prob, probR, up, EReal.coe_add, EReal.coe_mul]

theorem marg_up (p : StR) (q : Fin 4) (v : Fin 2) :
    marg (fun a b d e => (p a b d e : EReal)) q v = (margR p q v : EReal) := by
  fin_cases q <;> simp only [marg, margR, Fin.sum_univ_two, EReal.coe_add] <;> rfl

theorem sgn_up (i q : ℕ) : sgn i q = (sgnR i q : EReal) := by
  unfold sgn sgnR
  split_ifs
  · exact EReal.coe_one.symm
  · rw [EReal.coe_neg, EReal.coe_one]

/-- The binary32 word of one half is a real number. -/
theorem half_real : ∃ h : ℝ, Ideal.ofBits .f32 0x3F000000#32 = (h : EReal) := by
  refine ⟨1 / 2, ?_⟩
  simp [Ideal.ofBits, Ideal.ieee, -EReal.coe_mul]
  norm_num

end Cert.QL

end
-- ==== Proof.Algebra.lean ====
/-
  The two index-level formulas agree on real data with a positive sum of squares.

  The sum of squares `S` of the row is a positive real, so its square root is a nonzero real: the quotient by the root
  and the product with the reciprocal root give the same real amplitudes `y_k = x_k / √S`.  The cosines and sines of the
  real half-angles are real.  Both formulas are then the coercions of their real counterparts, which agree.
-/
import proofs.«170417_j39341900431498_2_alg».proof.Proof.AlgebraCoe

noncomputable section

namespace Cert.QL

open Idealize.ShloMosaic Idealize.ShloMosaic.ValueIdx

theorem kerOut_eq_refOut (X : SX.Idx → EReal) (W : SW.Idx → EReal)
    (hX : ∀ i, ∃ r : ℝ, X i = (r : EReal)) (hW : ∀ i, ∃ r : ℝ, W i = (r : EReal))
    (b : Fin 4194304) (hpos : 0 < ss X b) (q : Fin 4) :
    kerOut X W b q = refOut X W b q := by
  -- real witnesses for the row, the angles and the half
  choose x hx using fun k : Fin 16 => hX (ix2 b k)
  choose θ hθ using fun t : Fin 4 => hW (ix1 t)
  obtain ⟨h, hh⟩ := half_real
  -- the sum of squares is a positive real
  obtain ⟨S, hss⟩ : ∃ S : ℝ, ss X b = (S : EReal) := by
    refine ⟨∑ k : Fin 16, x k * x k, ?_⟩
    rw [coe_sum]
    exact Finset.sum_congr rfl fun k _ => by rw [hx, EReal.coe_mul]
  have hS : 0 < S := by
    rw [hss] at hpos
    exact_mod_cast hpos
  have hne : Real.sqrt S ≠ 0 := (Real.sqrt_pos.mpr hS).ne'
  have hsqrt : Ideal.sqrt (ss X b) = (Real.sqrt S : EReal) := by
    rw [hss, Ideal.sqrt_coe, if_neg (not_lt.mpr hS.le)]
  have hrsqrt : Ideal.rsqrt (ss X b) = (((Real.sqrt S)⁻¹ : ℝ) : EReal) := by
    rw [hss, Ideal.rsqrt_coe, if_neg (not_lt.mpr hS.le), if_neg hS.ne']
  -- the real cosines, sines and normalised amplitudes
  let c : Fin 4 → ℝ := fun t => Real.cos (θ t * h)
  let s : Fin 4 → ℝ := fun t => Real.sin (θ t * h)
  let y : Fin 16 → ℝ := fun k => x k * (Real.sqrt S)⁻¹
  have hcw : cw W = fun t => (c t : EReal) := by
    funext t
    show Ideal.cos (W (ix1 t) * Ideal.ofBits .f32 0x3F000000#32) = _
    rw [hθ, hh, ← EReal.coe_mul, Ideal.cos_coe]
  have hsw : sw W = fun t => (s t : EReal) := by
    funext t
    show Ideal.sin (W (ix1 t) * Ideal.ofBits .f32 0x3F000000#32) = _
    rw [hθ, hh, ← EReal.coe_mul, Ideal.sin_coe]
  have hdiv : ∀ k : Fin 16, Ideal.div (X (ix2 b k)) (Ideal.sqrt (ss X b)) = (y k : EReal) := by
    intro k
    rw [hsqrt, Ideal.div_coe hne, hx, ← EReal.coe_mul, one_div]
  have hxn : ∀ j : Fin 16, xn X b j = (y j : EReal) := by
    intro j
    rw [xn, hx, hrsqrt, ← EReal.coe_mul]
  -- the direct form's state and the matrices' rows are coercions of the real rotations
  have href : refState X W b = up (circR c s (stateR y)) := by
    rw [refState, hcw, hsw, ← circ_up, ← stateR_up]
    simp only [hdiv]
  have hrot : ∀ j : ℕ, rotBasis W j = up (circR c s (basisR j)) := by
    intro j
    rw [rotBasis, hcw, hsw, basisState_up, circ_up]
  have hRe : ∀ j i : ℕ, mRe W j i = (mReR c s j i : EReal) := by
    intro j i
    rw [mRe, hrot]
    rfl
  have hIm : ∀ j i : ℕ, mIm W j i = (mImR c s j i : EReal) := by
    intro j i
    rw [mIm, hrot]
    rfl
  -- both results are coercions of the real results
  have hker : kerOut X W b q = (kerOutR c s y q : EReal) := by
    simp only [kerOut, kerProb, kerOutR, kerProbR, hRe, hIm, hxn, sgn_up, coe_sum, EReal.coe_add, EReal.coe_mul]
  have hrefo : refOut X W b q = (refOutR c s y q : EReal) := by
    rw [refOut, href, prob_up, marg_up, marg_up, refOutR, EReal.coe_sub]
  rw [hker, hrefo, kerOutR_eq_refOutR]

end Cert.QL

end
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.LibFiniteConjunct.lean ====
/-
  One conjunct of a "every floating-point input is finite" precondition, read.

  Such a precondition is a conjunction of `jnp.all (|x| < +inf)`, one per array: a reduce-by-and, into a result of one
  index, of the comparison of each entry's absolute value against the word of plus infinity.  If the conjunct is `1`
  then every entry's absolute value `max a (-a)` is below plus infinity, so the entry is neither infinity: a real number.
  General in the array's shape and in the reduced axes.
-/
import proofs.«170417_j39341900431498_2_alg».proof.Proof.LibFinite
import Idealize.ShloMosaic.Lib.ReduceAll
import Idealize.ShloMosaic.Lib.ValueIdx

noncomputable section

namespace Cert.Lib.FiniteConjunct

open Idealize.ShloMosaic Cert.Fin

instance : Subsingleton (⟨0, ![]⟩ : Shape).Idx := ⟨fun a b => funext fun d => d.elim0⟩

/-- The word `0x7F800000` is plus infinity. -/
theorem wInf_eq : Ideal.ofBits .f32 0x7F800000#32 = ⊤ := by simp [Ideal.ofBits, Ideal.ieee]

/-- An extended real whose absolute value compares below plus infinity is a real number. -/
theorem isReal_of_abs_lt_inf (a : EReal)
    (h : Ideal.cmp .olt (max a (-a)) (Ideal.ofBits .f32 0x7F800000#32) = 1#1) : IsReal a := by
  rw [wInf_eq] at h
  have hlt : max a (-a) < ⊤ := by
    by_contra hc
    have : Ideal.cmp .olt (max a (-a)) ⊤ = 0#1 := by
      unfold Ideal.cmp
      simp [hc]
    rw [this] at h
    exact absurd h (by decide)
  refine isReal_of_ne (fun e => ?_) (fun e => ?_)
  · rw [e] at hlt; simp at hlt
  · rw [e] at hlt; simp at hlt

/-- One conjunct: "every entry's absolute value is below plus infinity" makes every entry real. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) : AllReal x := fun i =>
  isReal_of_abs_lt_inf (x i) (Host.reduce_andi_all _ _ hr hu ValueIdx.ix0 e i)

end Cert.Lib.FiniteConjunct

end
-- ==== Proof.LibHostRowSum.lean ====
/-
  The host's sum of each row, read at a row, over the extended reals: a `stablehlo.reduce … add` along the second axis
  of an `[a, n]` array, read at row `p`, is the initial value's one element plus the sum over `k` of the entries `(p, k)`.
  The companion of the row maximum's reading; general in the extents, stated over indices built from coordinates, the
  reduction's side conditions taken as variables so that whatever proofs a program's text carries unify with them.
-/
import Idealize.ShloMosaic.Lib.ValueIdx
import Idealize.ShloMosaic.PureOps.Ideal.Laws

namespace Cert.Lib.HostRowSum

open Idealize.ShloMosaic Idealize.ShloMosaic.ValueIdx

/-- The host's sum along the second axis, read at row `p`: the initial value's element plus the sum of the row. -/
theorem hostSum_axis1_apply {a n : ℕ} {u : Shape} (x : FVec Ideal ⟨2, ![a, n]⟩ .f32) (init : u.Idx → EReal)
    (h' : (⟨2, ![a, n]⟩ : Shape).ReducesTo [1] ⟨1, ![a]⟩) (h : (⟨2, ![a, n]⟩ : Shape).Reduces [1] ⟨1, ![a]⟩) (hu : 0 < u.numel)
    (p : Fin a) :
    Host.reduceAdd (F := Ideal) (φ := .f32) x init h' hu (ix1 p) = init (Shape.Idx.first hu) + ∑ k : Fin n, x (ix2 p k) := by
  show FloatOps.hostReduceAdd [1] h' .single x (init (Shape.Idx.first hu)) (ix1 p) = _
  rw [Ideal.hostReduceAdd_def]
  refine (Ideal.hostReduceAdd_single h' h x _ (ix1 p)).trans ?_
  refine congrArg (init (Shape.Idx.first hu) + ·) (Finset.sum_congr rfl fun k _ => congrArg x (funext fun d => ?_))
  match d with
  | ⟨0, _⟩ => rfl
  | ⟨1, _⟩ => rfl

end Cert.Lib.HostRowSum
-- ==== Proof.PreDecode.lean ====
/-
  What the precondition says about the two argument arrays.

  The precondition is a conjunction of three `jnp.all`: every entry of `inputs` has absolute value below plus
  infinity, every entry of `q_weights` likewise, and every row of `inputs` has a positive sum of squares.  Read on the
  extended reals: every entry of both arrays is a real number, and no row of `inputs` is the zero row — the domain on
  which dividing a row by its Euclidean norm means something.
-/
import proofs.«170417_j39341900431498_2_alg».proof.Pre_finite_inputs
import proofs.«170417_j39341900431498_2_alg».proof.Proof.LibFiniteConjunct
import proofs.«170417_j39341900431498_2_alg».proof.Proof.LibHostRowSum
import proofs.«170417_j39341900431498_2_alg».proof.Proof.Spec
import Idealize.ShloMosaic.Lib.ReduceAll
import Idealize.ShloMosaic.Lib.Affine
import Idealize.ShloMosaic.Lib.Pipeline.Value

noncomputable section

namespace Cert.QL.PreDecode

open Idealize.ShloMosaic Idealize.ShloMosaic.ValueIdx Cert.Fin Cert.Lib.FiniteConjunct Cert.QL
open Cert.Pre_finite_inputs Cert.Pre_finite_inputs.Facts

variable [hF : Cert.Pre_finite_inputs.Facts]

instance : Subsingleton Cert.Pre_finite_inputs.S_.Idx := ⟨fun a b => funext fun d => d.elim0⟩

/-- One conjunct `jnp.all (a > 0)`: a reduce-by-and, into a result of one index, of the comparison of each entry against
    the zero word; if it is `1` every entry is positive.  General in the shape and the reduced axes. -/
theorem pos_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .ogt a (broadcastInDim s ![] hb (constant (F := Ideal) ⟨0, ![]⟩ .f32 0x00000000#32)))
      (constantI ⟨0, ![]⟩ 1 1#1) hr hu ValueIdx.ix0 = 1#1) (i : s.Idx) : 0 < a i := by
  have hc : Ideal.cmp .ogt (a i) (broadcastInDim s ![] hb (constant (F := Ideal) ⟨0, ![]⟩ .f32 0x00000000#32) i) = 1#1 :=
    Host.reduce_andi_all _ _ hr hu ValueIdx.ix0 e i
  have hz : broadcastInDim s ![] hb (constant (F := Ideal) ⟨0, ![]⟩ .f32 0x00000000#32) i = 0 := by
    rw [broadcastInDim_apply _ hb _ i ValueIdx.ix0 (fun d => d.elim0)]
    show Ideal.ofBits .f32 0x00000000#32 = 0
    exact Ideal.ofBits_zero_f32
  rw [hz] at hc
  by_contra hn
  have : Ideal.cmp .ogt (a i) 0 = 0#1 := by
    unfold Ideal.cmp
    simp [hn]
  rw [this] at hc
  exact absurd hc (by decide)

/-- Under the precondition every entry of both arrays is a real number and every row of `inputs` has a positive sum of
    squares. -/
theorem of_pre (X : FVec Ideal S4194304x16 .f32) (W : FVec Ideal S4 .f32)
    (h : Cert.Pre_finite_inputs.fn (F := Ideal) X W = fun _ => 1#1) :
    (∀ i, ∃ r : ℝ, X i = (r : EReal)) ∧ (∀ i, ∃ r : ℝ, W i = (r : EReal)) ∧ ∀ b : Fin 4194304, 0 < ss X b := by
  have h0 := congrFun h ix0
  dsimp only [Cert.Pre_finite_inputs.fn] at h0
  obtain ⟨h12, h3⟩ := IntOp.andi_eq_one.mp h0
  obtain ⟨h1, h2⟩ := IntOp.andi_eq_one.mp h12
  refine ⟨allReal_of_all X bcast_S_S4194304x16 reducesTo_S4194304x16_S_d0_1 h_S_ h1,
    allReal_of_all W bcast_S_S4 reducesTo_S4_S_d0 h_S_ h2, fun b => ?_⟩
  have hpos := pos_of_all _ bcast_S_S4194304 reducesTo_S4194304_S_d0 h_S_ h3 (ix1 b)
  rw [Cert.Lib.HostRowSum.hostSum_axis1_apply (mulf X X) _ reducesTo_S4194304x16_S4194304_d1 (by decide) h_S_ b] at hpos
  have hz : (constant (F := Ideal) S_ .f32 0x00000000#32) (Shape.Idx.first h_S_) = 0 := Ideal.ofBits_zero_f32
  rw [hz, zero_add] at hpos
  exact hpos

end Cert.QL.PreDecode

end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.PackedRow.lean ====
/-
  Thirty-two rows packed side by side, and block-diagonal operators.

  A packed row holds thirty-two rows of sixteen amplitudes, row `a` in lanes `16a … 16a + 15`.  An operator lifted by
  the Kronecker product with the 32 × 32 identity has entry `(k, l)` equal to `[k/16 = l/16] · M(k % 16, l % 16)`: it
  acts on each of the thirty-two rows separately.  A contraction over all 512 lanes against such an operator therefore
  keeps only the sixteen lanes of the output's own row: every other term carries the factor zero.  On the extended
  reals this needs no finiteness (`x * 0 = 0` and `x * 1 = x` hold for every `x`).

  Here: the sum of squares, the normalised amplitudes, the two matrix products, the probabilities and the contraction
  with the sign table, each written over the packed row, collapse to the per-row formula `Cert.QL.kerOut`.
-/
import proofs.«170417_j39341900431498_2_alg».proof.Proof.Spec
import proofs.«170417_j39341900431498_2_alg».proof.Proof.LibBlockRuns

noncomputable section

namespace Cert.QL.Packed

open Idealize.ShloMosaic Idealize.ShloMosaic.ValueIdx Cert.QL Cert.Lib.BlockRuns

/-- An entry of an identity matrix. -/
def eyeE (a b : ℕ) : EReal := if a = b then 1 else 0

theorem eyeE_self (a : ℕ) : eyeE a a = 1 := if_pos rfl
theorem eyeE_ne {a b : ℕ} (h : a ≠ b) : eyeE a b = 0 := if_neg h

/-- Lane `r` of row `a` of a packed row of 512 lanes, and of a packed result of 128 lanes. -/
abbrev lane (a : Fin 32) (r : Fin 16) : Fin 512 := runIdx 32 16 512 rfl a r
abbrev lane4 (a : Fin 32) (q : Fin 4) : Fin 128 := runIdx 32 4 128 rfl a q

theorem lane_div (a : Fin 32) (r : Fin 16) : (lane a r).val / 16 = a.val := by
  show (a.val * 16 + r.val) / 16 = a.val
  have := r.isLt; omega
theorem lane_mod (a : Fin 32) (r : Fin 16) : (lane a r).val % 16 = r.val := by
  show (a.val * 16 + r.val) % 16 = r.val
  have := r.isLt; omega
theorem lane4_div (a : Fin 32) (q : Fin 4) : (lane4 a q).val / 4 = a.val := by
  show (a.val * 4 + q.val) / 4 = a.val
  have := q.isLt; omega
theorem lane4_mod (a : Fin 32) (q : Fin 4) : (lane4 a q).val % 4 = q.val := by
  show (a.val * 4 + q.val) % 4 = q.val
  have := q.isLt; omega

variable (xr : Fin 512 → EReal) (re im sg : ℕ → ℕ → EReal)

/-- The packed sum of squares: the row against `identity ⊗ ones`. -/
def n2 (l : Fin 512) : EReal := ∑ k : Fin 512, (xr k * xr k) * eyeE (k.val / 16) (l.val / 16)
/-- The packed normalised row. -/
def xnP (k : Fin 512) : EReal := xr k * Ideal.rsqrt (n2 xr k)
/-- The packed normalised row against `identity ⊗ M`. -/
def prodP (M : ℕ → ℕ → EReal) (l : Fin 512) : EReal :=
  ∑ k : Fin 512, xnP xr k * (eyeE (k.val / 16) (l.val / 16) * M (k.val % 16) (l.val % 16))
/-- The packed probabilities against `identity ⊗ signs`. -/
def outP (l' : Fin 128) : EReal :=
  ∑ l : Fin 512, (prodP xr re l * prodP xr re l + prodP xr im l * prodP xr im l)
    * (eyeE (l.val / 16) (l'.val / 4) * sg (l.val % 16) (l'.val % 4))

/-- The sum of squares at a lane of row `a` is the sum of the squares of row `a`. -/
theorem n2_lane (a : Fin 32) (r : Fin 16) : n2 xr (lane a r) = ∑ j : Fin 16, xr (lane a j) * xr (lane a j) := by
  unfold n2
  refine sum_one_run 32 16 512 rfl _ _ a (fun j => ?_) (fun a' j ha => ?_)
  · show xr (lane a j) * xr (lane a j) * eyeE ((lane a j).val / 16) ((lane a r).val / 16) = _
    rw [lane_div, lane_div, eyeE_self, mul_one]
  · show xr (lane a' j) * xr (lane a' j) * eyeE ((lane a' j).val / 16) ((lane a r).val / 16) = 0
    rw [lane_div, lane_div, eyeE_ne (fun h => ha (Fin.ext h)), mul_zero]

/-- A product with `identity ⊗ M` at a lane of row `a` is row `a` times `M`. -/
theorem prodP_lane (M : ℕ → ℕ → EReal) (a : Fin 32) (i : Fin 16) :
    prodP xr M (lane a i) = ∑ j : Fin 16, xnP xr (lane a j) * M j.val i.val := by
  unfold prodP
  refine sum_one_run 32 16 512 rfl _ _ a (fun j => ?_) (fun a' j ha => ?_)
  · show xnP xr (lane a j) * (eyeE ((lane a j).val / 16) ((lane a i).val / 16) * M ((lane a j).val % 16) ((lane a i).val % 16)) = _
    rw [lane_div, lane_div, lane_mod, lane_mod, eyeE_self, one_mul]
  · show xnP xr (lane a' j) * (eyeE ((lane a' j).val / 16) ((lane a i).val / 16) * M ((lane a' j).val % 16) ((lane a i).val % 16)) = 0
    rw [lane_div, lane_div, eyeE_ne (fun h => ha (Fin.ext h)), zero_mul, mul_zero]

/-- The contraction with `identity ⊗ signs` at result lane `q` of row `a` keeps the sixteen probabilities of row `a`. -/
theorem outP_lane (a : Fin 32) (q : Fin 4) :
    outP xr re im sg (lane4 a q)
      = ∑ i : Fin 16, (prodP xr re (lane a i) * prodP xr re (lane a i) + prodP xr im (lane a i) * prodP xr im (lane a i))
          * sg i.val q.val := by
  unfold outP
  refine sum_one_run 32 16 512 rfl _ _ a (fun i => ?_) (fun a' i ha => ?_)
  · show _ * (eyeE ((lane a i).val / 16) ((lane4 a q).val / 4) * sg ((lane a i).val % 16) ((lane4 a q).val % 4)) = _
    rw [lane_div, lane4_div, lane_mod, lane4_mod, eyeE_self, one_mul]
  · show _ * (eyeE ((lane a' i).val / 16) ((lane4 a q).val / 4) * sg ((lane a' i).val % 16) ((lane4 a q).val % 4)) = 0
    rw [lane_div, lane4_div, eyeE_ne (fun h => ha (Fin.ext h)), zero_mul, mul_zero]

/-- Row `32 g + a` of the array, as lanes of packed row `g`. -/
def rowOf (g : Fin 131072) (a : Fin 32) : Fin 4194304 := ⟨32 * g.val + a.val, by have := g.isLt; have := a.isLt; omega⟩

/-- Packed row `g` of the array `X`: lane `k` holds entry `k % 16` of row `32 g + k / 16`. -/
def packedRow (X : SX.Idx → EReal) (g : Fin 131072) (k : Fin 512) : EReal :=
  X (ix2 (⟨32 * g.val + k.val / 16, by have := g.isLt; have := k.isLt; omega⟩ : Fin 4194304)
         (⟨k.val % 16, Nat.mod_lt _ (by norm_num)⟩ : Fin 16))

theorem packedRow_lane (X : SX.Idx → EReal) (g : Fin 131072) (a : Fin 32) (j : Fin 16) :
    packedRow X g (lane a j) = X (ix2 (rowOf g a) j) := by
  unfold packedRow rowOf
  congr 1
  funext d
  match d with
  | ⟨0, _⟩ => exact Fin.ext (by show 32 * g.val + (lane a j).val / 16 = 32 * g.val + a.val; rw [lane_div])
  | ⟨1, _⟩ => exact Fin.ext (by show (lane a j).val % 16 = j.val; rw [lane_mod])

/-- THE PACKED FORM IS THE PER-ROW FORM: result lane `q` of row `a` of packed row `g`, computed over all 512 lanes with
    the lifted operators, is `kerOut` of row `32 g + a`. -/
theorem outP_eq_kerOut (X : SX.Idx → EReal) (W : SW.Idx → EReal) (g : Fin 131072) (a : Fin 32) (q : Fin 4) :
    outP (packedRow X g) (mRe W) (mIm W) sgn (lane4 a q) = kerOut X W (rowOf g a) q := by
  rw [outP_lane]
  unfold kerOut kerProb
  refine Finset.sum_congr rfl fun i _ => ?_
  have hx : ∀ j : Fin 16, xnP (packedRow X g) (lane a j) = xn X (rowOf g a) j := fun j => by
    unfold xnP xn ss
    rw [n2_lane, packedRow_lane]
    congr 2
    exact Finset.sum_congr rfl fun j' _ => by rw [packedRow_lane]
  rw [prodP_lane, prodP_lane]
  simp only [hx]

end Cert.QL.Packed

end
-- ==== Proof.Payload.lean ====
/-
  What the kernel body stores, read at one entry.

  The body takes a block of 2048 packed rows and four operand matrices and stores one matrix product chain: the squares
  against `identity ⊗ ones` (each lane gets its own row's sum of squares), the reciprocal square root, the normalised
  block against the two lifted rotation matrices, the probabilities, and those against the lifted sign table.  On the
  extended reals every product into a zero accumulator is the plain sum over the 512 lanes, the casts to a narrower
  format are the identity, so entry `(p, l)` of the stored block is the packed-row expression `outP` of row `p`.
-/
import proofs.«170417_j39341900431498_2_alg».proof.Proof.Gen.KernelIdeal.Skeleton
import proofs.«170417_j39341900431498_2_alg».proof.Proof.LibPlainDot
import proofs.«170417_j39341900431498_2_alg».proof.Proof.PackedRow
import Idealize.ShloMosaic.Lib.Pipeline.Value

noncomputable section

namespace Cert.KernelIdeal.Payload

open Idealize.ShloMosaic Idealize.ShloMosaic.ValueIdx Cert.KernelIdeal Cert.KernelIdeal.Gen
open Cert.QL.Packed

/-- A product of a [2048,512] block with a [512,512] matrix into the zero accumulator, at an entry. -/
theorem mm512 {φ₁ φ₂ : FTy} (x : FVec Ideal S2048x512 φ₁) (w : FVec Ideal S512x512 φ₂) (p : Fin 2048) (q : Fin 512) :
    (matmul (F := Ideal) dot_S2048x512_S512x512_S2048x512_1_0_0_1_n_n none x w (constant S2048x512 .f32 0x00000000#32) (ix2 p q) : EReal)
      = ∑ k : Fin 512, (x (ix2 p k) : EReal) * w (ix2 k q) :=
  Cert.Lib.PlainDot.matmul_zero_apply (a := 2048) (K := 512) (b := 512) dot_S2048x512_S512x512_S2048x512_1_0_0_1_n_n
    rfl rfl rfl rfl rfl rfl rfl rfl none x w p q

/-- A product of a [2048,512] block with a [512,128] matrix into the zero accumulator, at an entry. -/
theorem mm128 {φ₁ φ₂ : FTy} (prec : Option ContractPrecision) (x : FVec Ideal S2048x512 φ₁) (w : FVec Ideal S512x128 φ₂) (p : Fin 2048) (q : Fin 128) :
    (matmul (F := Ideal) dot_S2048x512_S512x128_S2048x128_1_0_0_1_n_n prec x w (constant S2048x128 .f32 0x00000000#32) (ix2 p q) : EReal)
      = ∑ k : Fin 512, (x (ix2 p k) : EReal) * w (ix2 k q) :=
  Cert.Lib.PlainDot.matmul_zero_apply (a := 2048) (K := 512) (b := 128) dot_S2048x512_S512x128_S2048x128_1_0_0_1_n_n
    rfl rfl rfl rfl rfl rfl rfl rfl prec x w p q

variable (x0 : FVec Ideal S2048x512 .f32) (vJ vRe vIm : FVec Ideal S512x512 .bf16) (vS : FVec Ideal S512x128 .f32)

/-- The block of sums of squares. -/
def nrm : FVec Ideal S2048x512 .f32 :=
  matmul (φ₂ := .bf16) dot_S2048x512_S512x512_S2048x512_1_0_0_1_n_n none (truncf .bf16 (mulf (x0 : FVec Ideal S2048x512 .f32) x0) Gen.bitsLt_bf16_f32) (vJ : FVec Ideal S512x512 .bf16) (constant S2048x512 .f32 0x00000000#32)
/-- The normalised block. -/
def xnA : FVec Ideal S2048x512 .bf16 := truncf .bf16 (mulf (x0 : FVec Ideal S2048x512 .f32) (rsqrt (nrm x0 vJ))) Gen.bitsLt_bf16_f32
/-- The normalised block against one lifted matrix. -/
def prA (vM : FVec Ideal S512x512 .bf16) : FVec Ideal S2048x512 .f32 :=
  matmul (φ₂ := .bf16) dot_S2048x512_S512x512_S2048x512_1_0_0_1_n_n none (xnA x0 vJ) (vM : FVec Ideal S512x512 .bf16) (constant S2048x512 .f32 0x00000000#32)
/-- The stored block. -/
def payTerm : FVec Ideal S2048x128 .f32 :=
  matmul (φ₂ := .f32) dot_S2048x512_S512x128_S2048x128_1_0_0_1_n_n (some .fp32)
    (addf (mulf (prA x0 vJ vRe) (prA x0 vJ vRe)) (mulf (prA x0 vJ vIm) (prA x0 vJ vIm))) (vS : FVec Ideal S512x128 .f32) (constant S2048x128 .f32 0x00000000#32)

/-- The body's payload is that chain (the reshapes between equal shapes are the identity). -/
theorem pay_eq : k0_pay1 (F := Ideal) x0 vJ vRe vIm vS = payTerm x0 vJ vRe vIm vS := by
  unfold k0_pay1 payTerm prA xnA nrm
  simp only [shapeCast_self]

variable (re im sg : ℕ → ℕ → EReal)
  (hJ : ∀ k l : Fin 512, vJ (ix2 k l) = eyeE (k.val / 16) (l.val / 16))
  (hRe : ∀ k l : Fin 512, vRe (ix2 k l) = eyeE (k.val / 16) (l.val / 16) * re (k.val % 16) (l.val % 16))
  (hIm : ∀ k l : Fin 512, vIm (ix2 k l) = eyeE (k.val / 16) (l.val / 16) * im (k.val % 16) (l.val % 16))
  (hS : ∀ (k : Fin 512) (l : Fin 128), vS (ix2 k l) = eyeE (k.val / 16) (l.val / 4) * sg (k.val % 16) (l.val % 4))

include hJ in
theorem nrm_apply (p : Fin 2048) (k : Fin 512) : nrm x0 vJ (ix2 p k) = n2 (fun k => x0 (ix2 p k)) k := by
  unfold nrm n2
  refine (mm512 _ _ p k).trans (Finset.sum_congr rfl fun k' _ => ?_)
  rw [hJ]
  rfl

include hJ in
theorem xnA_apply (p : Fin 2048) (k : Fin 512) : xnA x0 vJ (ix2 p k) = xnP (fun k => x0 (ix2 p k)) k := by
  unfold xnP
  rw [← nrm_apply x0 vJ hJ p k]
  rfl

include hJ in
theorem prA_apply (vM : FVec Ideal S512x512 .bf16) (M : ℕ → ℕ → EReal)
    (hM : ∀ k l : Fin 512, vM (ix2 k l) = eyeE (k.val / 16) (l.val / 16) * M (k.val % 16) (l.val % 16))
    (p : Fin 2048) (l : Fin 512) : prA x0 vJ vM (ix2 p l) = prodP (fun k => x0 (ix2 p k)) M l := by
  unfold prA prodP
  refine (mm512 _ _ p l).trans (Finset.sum_congr rfl fun k _ => ?_)
  rw [hM, xnA_apply x0 vJ hJ p k]

include hJ hRe hIm hS in
/-- ENTRY (p, l) OF THE STORED BLOCK is the packed-row expression of row `p` of the block at result lane `l`. -/
theorem pay_apply (p : Fin 2048) (l : Fin 128) :
    k0_pay1 (F := Ideal) x0 vJ vRe vIm vS (ix2 p l) = outP (fun k => x0 (ix2 p k)) re im sg l := by
  rw [pay_eq]
  unfold payTerm outP
  refine (mm128 _ _ _ p l).trans (Finset.sum_congr rfl fun k _ => ?_)
  rw [hS]
  refine congrArg₂ (· * ·) ?_ rfl
  show prA x0 vJ vRe (ix2 p k) * prA x0 vJ vRe (ix2 p k) + prA x0 vJ vIm (ix2 p k) * prA x0 vJ vIm (ix2 p k) = _
  rw [prA_apply x0 vJ hJ vRe re hRe, prA_apply x0 vJ hJ vIm im hIm]

end Cert.KernelIdeal.Payload

end
-- ==== Proof.HostKronX.lean ====
/-
  The packing reshape.  The argument array of 4194304 rows of 16 is read as 131072 rows of 512: packed row `g`, lane `k`
  is entry `k % 16` of row `32 g + k / 16`, the two having the same row-major position
  `512 g + k = 16 (32 g + k / 16) + k % 16`.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Prefix

open Idealize.ShloMosaic Idealize.ShloMosaic.TcCoe Idealize.ShloMosaic.ValueIdx Cert.KernelIdeal Cert.KernelIdeal.Gen Cert.QL

variable (m : (ℓ : Loc nD τ sig) → Buf (Elt Ideal) ℓ) (c : Dev nD)

/-- The packed input is the reshape of the argument: the same flat sequence of elements. -/
theorem V_v108_eq :
    (V m c main_call0_v108 : S131072x512.Idx → EReal)
      = shapeCast S131072x512 (m ((c : Thread nD τ).loc main_arg0) : S4194304x16.Idx → EReal) shapeCasts_S4194304x16_S131072x512 := by
  show StableHlo.after hostOps0 (fun b => m (c, b)) (Proc.devRef .tc main_call0_v108) = _
  after_results_simp
  rfl

end Cert.KernelIdeal.Prefix

end
-- ==== Proof.HostKronLift.lean ====
/-
  The Kronecker product as the host program forms it: the left factor spread over axes 0 and 2 of a rank-four array, the
  right factor over axes 1 and 3, the two multiplied entry by entry and the result reshaped to a matrix.  Entry `(k, l)`
  of the product with a 16 × 16 right factor is `a (k / 16, l / 16) · b (k % 16, l % 16)`; with a 16 × 4 right factor it
  is `a (k / 16, l / 4) · b (k % 16, l % 4)`.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Prefix

open Idealize.ShloMosaic Idealize.ShloMosaic.TcCoe Idealize.ShloMosaic.ValueIdx Cert.KernelIdeal Cert.KernelIdeal.Gen Cert.QL

/-! ## The Kronecker product with a 32 × 32 matrix, as the program builds it

The left factor is spread over axes 0 and 2 of a rank-4 array, the right factor over axes 1 and 3, the two are
multiplied element by element, and the rank-4 array is read row-major as a matrix: entry `(16 p + q, n r + s)` is
`a (p, r) * b (q, s)`. -/

/-- The left factor on axes 0 and 2, repeated along axes 1 and 3 (of extents 16 and 16). -/
def liftL (a : S32x32.Idx → EReal) : S32x16x32x16.Idx → EReal :=
  broadcastInDim S32x16x32x16 ![0, 1, 2, 3] bcast_S32x1x32x1_S32x16x32x16_0_1_2_3
    (broadcastInDim S32x1x32x1 ![0, 2] bcast_S32x32_S32x1x32x1_0_2 a)

/-- The right factor on axes 1 and 3, repeated along axes 0 and 2. -/
def liftR (b : S16x16.Idx → EReal) : S32x16x32x16.Idx → EReal :=
  broadcastInDim S32x16x32x16 ![0, 1, 2, 3] bcast_S1x16x1x16_S32x16x32x16_0_1_2_3
    (broadcastInDim S1x16x1x16 ![1, 3] bcast_S16x16_S1x16x1x16_1_3 b)

/-- The product of the two spread factors, read as a 512 × 512 matrix. -/
def kronTerm (a : S32x32.Idx → EReal) (b : S16x16.Idx → EReal) : S512x512.Idx → EReal :=
  shapeCast S512x512 (mulf (F := Ideal) (φ := .f32) (liftL a) (liftR b)) shapeCasts_S32x16x32x16_S512x512

theorem liftL_apply (a : S32x32.Idx → EReal) (p : Fin 32) (q : Fin 16) (r : Fin 32) (s : Fin 16) :
    liftL a (ix4 p q r s) = a (ix2 p r) := by
  unfold liftL
  rw [broadcastInDim_apply _ bcast_S32x1x32x1_S32x16x32x16_0_1_2_3 _ (ix4 p q r s) (ix4 p (0 : Fin 1) r (0 : Fin 1)) (fun e => match e with
    | ⟨0, _⟩ => by show p.val = if (32 : Nat) = 1 then 0 else p.val; rw [if_neg (by decide)]
    | ⟨1, _⟩ => by show 0 = if (1 : Nat) = 1 then 0 else q.val; rw [if_pos rfl]
    | ⟨2, _⟩ => by show r.val = if (32 : Nat) = 1 then 0 else r.val; rw [if_neg (by decide)]
    | ⟨3, _⟩ => by show 0 = if (1 : Nat) = 1 then 0 else s.val; rw [if_pos rfl])]
  exact broadcastInDim_apply _ bcast_S32x32_S32x1x32x1_0_2 a (ix4 p (0 : Fin 1) r (0 : Fin 1)) (ix2 p r) (fun e => match e with
    | ⟨0, _⟩ => by show p.val = if (32 : Nat) = 1 then 0 else p.val; rw [if_neg (by decide)]
    | ⟨1, _⟩ => by show r.val = if (32 : Nat) = 1 then 0 else r.val; rw [if_neg (by decide)])

theorem liftR_apply (b : S16x16.Idx → EReal) (p : Fin 32) (q : Fin 16) (r : Fin 32) (s : Fin 16) :
    liftR b (ix4 p q r s) = b (ix2 q s) := by
  unfold liftR
  rw [broadcastInDim_apply _ bcast_S1x16x1x16_S32x16x32x16_0_1_2_3 _ (ix4 p q r s) (ix4 (0 : Fin 1) q (0 : Fin 1) s) (fun e => match e with
    | ⟨0, _⟩ => by show 0 = if (1 : Nat) = 1 then 0 else p.val; rw [if_pos rfl]
    | ⟨1, _⟩ => by show q.val = if (16 : Nat) = 1 then 0 else q.val; rw [if_neg (by decide)]
    | ⟨2, _⟩ => by show 0 = if (1 : Nat) = 1 then 0 else r.val; rw [if_pos rfl]
    | ⟨3, _⟩ => by show s.val = if (16 : Nat) = 1 then 0 else s.val; rw [if_neg (by decide)])]
  exact broadcastInDim_apply _ bcast_S16x16_S1x16x1x16_1_3 b (ix4 (0 : Fin 1) q (0 : Fin 1) s) (ix2 q s) (fun e => match e with
    | ⟨0, _⟩ => by show q.val = if (16 : Nat) = 1 then 0 else q.val; rw [if_neg (by decide)]
    | ⟨1, _⟩ => by show s.val = if (16 : Nat) = 1 then 0 else s.val; rw [if_neg (by decide)])

/-- Entry `(k, l)` of the Kronecker product: `a (k / 16, l / 16) * b (k % 16, l % 16)`. -/
theorem kronTerm_apply (a : S32x32.Idx → EReal) (b : S16x16.Idx → EReal) (k l : Fin 512) :
    kronTerm a b (ix2 k l)
      = a (ix2 ⟨k.val / 16, by have := k.isLt; omega⟩ ⟨l.val / 16, by have := l.isLt; omega⟩)
        * b (ix2 ⟨k.val % 16, Nat.mod_lt _ (by norm_num)⟩ ⟨l.val % 16, Nat.mod_lt _ (by norm_num)⟩) := by
  have hk := k.isLt
  have hl := l.isLt
  unfold kronTerm
  rw [shapeCast_apply _ shapeCasts_S32x16x32x16_S512x512 (ix2 k l)
    (ix4 (⟨k.val / 16, by omega⟩ : Fin 32) (⟨k.val % 16, Nat.mod_lt _ (by norm_num)⟩ : Fin 16)
         (⟨l.val / 16, by omega⟩ : Fin 32) (⟨l.val % 16, Nat.mod_lt _ (by norm_num)⟩ : Fin 16))
    (by rewrite [Shape.rowMajor_val_four, Shape.rowMajor_val_two]
        show ((k.val / 16 * 16 + k.val % 16) * 32 + l.val / 16) * 16 + l.val % 16 = k.val * 512 + l.val
        omega)]
  show liftL a _ * liftR b _ = _
  rw [liftL_apply, liftR_apply]

/-! ## The same with a 16 × 4 right factor: a 512 × 128 matrix -/

def liftL3 (a : S32x32.Idx → EReal) : S32x16x32x4.Idx → EReal :=
  broadcastInDim S32x16x32x4 ![0, 1, 2, 3] bcast_S32x1x32x1_S32x16x32x4_0_1_2_3
    (broadcastInDim S32x1x32x1 ![0, 2] bcast_S32x32_S32x1x32x1_0_2 a)

def liftR3 (b : S16x4.Idx → EReal) : S32x16x32x4.Idx → EReal :=
  broadcastInDim S32x16x32x4 ![0, 1, 2, 3] bcast_S1x16x1x4_S32x16x32x4_0_1_2_3
    (broadcastInDim S1x16x1x4 ![1, 3] bcast_S16x4_S1x16x1x4_1_3 b)

def kron3Term (a : S32x32.Idx → EReal) (b : S16x4.Idx → EReal) : S512x128.Idx → EReal :=
  shapeCast S512x128 (mulf (F := Ideal) (φ := .f32) (liftL3 a) (liftR3 b)) shapeCasts_S32x16x32x4_S512x128

theorem liftL3_apply (a : S32x32.Idx → EReal) (p : Fin 32) (q : Fin 16) (r : Fin 32) (s : Fin 4) :
    liftL3 a (ix4 p q r s) = a (ix2 p r) := by
  unfold liftL3
  rw [broadcastInDim_apply _ bcast_S32x1x32x1_S32x16x32x4_0_1_2_3 _ (ix4 p q r s) (ix4 p (0 : Fin 1) r (0 : Fin 1)) (fun e => match e with
    | ⟨0, _⟩ => by show p.val = if (32 : Nat) = 1 then 0 else p.val; rw [if_neg (by decide)]
    | ⟨1, _⟩ => by show 0 = if (1 : Nat) = 1 then 0 else q.val; rw [if_pos rfl]
    | ⟨2, _⟩ => by show r.val = if (32 : Nat) = 1 then 0 else r.val; rw [if_neg (by decide)]
    | ⟨3, _⟩ => by show 0 = if (1 : Nat) = 1 then 0 else s.val; rw [if_pos rfl])]
  exact broadcastInDim_apply _ bcast_S32x32_S32x1x32x1_0_2 a (ix4 p (0 : Fin 1) r (0 : Fin 1)) (ix2 p r) (fun e => match e with
    | ⟨0, _⟩ => by show p.val = if (32 : Nat) = 1 then 0 else p.val; rw [if_neg (by decide)]
    | ⟨1, _⟩ => by show r.val = if (32 : Nat) = 1 then 0 else r.val; rw [if_neg (by decide)])

theorem liftR3_apply (b : S16x4.Idx → EReal) (p : Fin 32) (q : Fin 16) (r : Fin 32) (s : Fin 4) :
    liftR3 b (ix4 p q r s) = b (ix2 q s) := by
  unfold liftR3
  rw [broadcastInDim_apply _ bcast_S1x16x1x4_S32x16x32x4_0_1_2_3 _ (ix4 p q r s) (ix4 (0 : Fin 1) q (0 : Fin 1) s) (fun e => match e with
    | ⟨0, _⟩ => by show 0 = if (1 : Nat) = 1 then 0 else p.val; rw [if_pos rfl]
    | ⟨1, _⟩ => by show q.val = if (16 : Nat) = 1 then 0 else q.val; rw [if_neg (by decide)]
    | ⟨2, _⟩ => by show 0 = if (1 : Nat) = 1 then 0 else r.val; rw [if_pos rfl]
    | ⟨3, _⟩ => by show s.val = if (4 : Nat) = 1 then 0 else s.val; rw [if_neg (by decide)])]
  exact broadcastInDim_apply _ bcast_S16x4_S1x16x1x4_1_3 b (ix4 (0 : Fin 1) q (0 : Fin 1) s) (ix2 q s) (fun e => match e with
    | ⟨0, _⟩ => by show q.val = if (16 : Nat) = 1 then 0 else q.val; rw [if_neg (by decide)]
    | ⟨1, _⟩ => by show s.val = if (4 : Nat) = 1 then 0 else s.val; rw [if_neg (by decide)])

/-- Entry `(k, l)` of the product with a 16 × 4 right factor: `a (k / 16, l / 4) * b (k % 16, l % 4)`. -/
theorem kron3Term_apply (a : S32x32.Idx → EReal) (b : S16x4.Idx → EReal) (k : Fin 512) (l : Fin 128) :
    kron3Term a b (ix2 k l)
      = a (ix2 ⟨k.val / 16, by have := k.isLt; omega⟩ ⟨l.val / 4, by have := l.isLt; omega⟩)
        * b (ix2 ⟨k.val % 16, Nat.mod_lt _ (by norm_num)⟩ ⟨l.val % 4, Nat.mod_lt _ (by norm_num)⟩) := by
  have hk := k.isLt
  have hl := l.isLt
  unfold kron3Term
  rw [shapeCast_apply _ shapeCasts_S32x16x32x4_S512x128 (ix2 k l)
    (ix4 (⟨k.val / 16, by omega⟩ : Fin 32) (⟨k.val % 16, Nat.mod_lt _ (by norm_num)⟩ : Fin 16)
         (⟨l.val / 4, by omega⟩ : Fin 32) (⟨l.val % 4, Nat.mod_lt _ (by norm_num)⟩ : Fin 4))
    (by rewrite [Shape.rowMajor_val_four, Shape.rowMajor_val_two]
        show ((k.val / 16 * 16 + k.val % 16) * 32 + l.val / 4) * 4 + l.val % 4 = k.val * 128 + l.val
        omega)]
  show liftL3 a _ * liftR3 b _ = _
  rw [liftL3_apply, liftR3_apply]

end Cert.KernelIdeal.Prefix

end
-- ==== Proof.HostKronEye.lean ====
/-
  The constant tables.  The 32 × 32 identity is built from the row number, the column number, a comparison for equality
  and a conversion to a float: entry one on the diagonal, zero off it.  The 16 × 16 array of ones is the word of 1.0
  spread over the array.  The 16 × 4 table of signs spells, in row `i`, the four bits of `i`, most significant first,
  as +1 for a bit 0 and −1 for a bit 1.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Prefix

open Idealize.ShloMosaic Idealize.ShloMosaic.TcCoe Idealize.ShloMosaic.ValueIdx Cert.KernelIdeal Cert.KernelIdeal.Gen Cert.QL

/-! ## The constant factors: the 32 × 32 identity, the all-ones block and the table of signs -/

/-- The identity as the program builds it: row number compared with column number, the bit converted to a float. -/
def eye32 : S32x32.Idx → EReal :=
  uitofp (F := Ideal) .f32
    (cmpi .eq (addi (iotaInDim S32x32 32 0) (broadcastInDim S32x32 ![] bcast_S_S32x32 (constantI S_ 32 0#32)))
      (iotaInDim S32x32 32 1))

/-- Entry `(p, r)` of the identity. -/
theorem eye32_apply (p r : Fin 32) : eye32 (ix2 p r) = if p.val = r.val then (1 : EReal) else 0 := by
  have hp := p.isLt
  have hr := r.isLt
  show (((IntOp.cmpi .eq (IntOp.addi (BitVec.ofNat 32 p.val) 0#32) (BitVec.ofNat 32 r.val)).toNat : ℝ) : EReal) = _
  by_cases h : p.val = r.val
  · rw [if_pos h, h]
    simp [IntOp.cmpi, IntOp.addi]
  · rw [if_neg h]
    have hne : BitVec.ofNat 32 p.val ≠ BitVec.ofNat 32 r.val := by
      intro he
      have h2 := congrArg BitVec.toNat he
      simp [BitVec.toNat_ofNat] at h2
      omega
    simp [IntOp.cmpi, IntOp.addi, hne]

/-- The 16 × 16 block of ones. -/
def ones16 : S16x16.Idx → EReal :=
  broadcastInDim S16x16 ![] bcast_S_S16x16 (constant (F := Ideal) S_ .f32 0x3F800000#32)

/-- The binary32 word `0x3F800000` is one. -/
theorem ofBits_one : Ideal.ofBits .f32 0x3F800000#32 = (1 : EReal) := by
  simp [Ideal.ofBits, Ideal.ieee]
  first
    | (rw [← EReal.coe_mul]; norm_num)
    | (norm_cast; norm_num)

/-- The binary32 word `0xBF800000` is minus one. -/
theorem ofBits_neg_one : Ideal.ofBits .f32 0xBF800000#32 = (-1 : EReal) := by
  simp [Ideal.ofBits, Ideal.ieee]
  first
    | (rw [← EReal.coe_mul]; norm_num)
    | (norm_cast; norm_num)

theorem ones16_apply (j : S16x16.Idx) : ones16 j = 1 := by
  show Ideal.ofBits .f32 0x3F800000#32 = 1
  exact ofBits_one

/-! ## The table of signs -/

/-- The 16 × 4 table as the program lists it: one binary32 word per entry, row-major. -/
def signTab : S16x4.Idx → EReal := fun i => FloatOps.ofBits (F := Ideal) .f32 (lit0 (S16x4.rowMajor i))

/-- Word `n = 4 i + q` of the table is `+1` when bit `3 − q` of `i` is zero and `−1` when it is one. -/
theorem lit0_eq : ∀ n : Fin 64,
    lit0 n = if (n.val / 4) / 2 ^ (3 - n.val % 4) % 2 = 0 then 0x3F800000#32 else 0xBF800000#32 := by decide

/-- Row `i` of the table is the four bits of `i`, most significant first, as `+1` / `−1`. -/
theorem signTab_apply (i : Fin 16) (q : Fin 4) : signTab (ix2 i q) = sgn i.val q.val := by
  have hi := i.isLt
  have hq := q.isLt
  have hv0 : (S16x4.rowMajor (ix2 i q)).val = i.val * 4 + q.val := by rw [Shape.rowMajor_val_two]; rfl
  obtain ⟨n, hn, hv⟩ : ∃ n : Fin 64, (S16x4.rowMajor (ix2 i q) : Fin 64) = n ∧ n.val = i.val * 4 + q.val :=
    ⟨S16x4.rowMajor (ix2 i q), rfl, hv0⟩
  show Ideal.ofBits .f32 (lit0 (S16x4.rowMajor (ix2 i q))) = _
  rw [hn, lit0_eq, hv]
  have h1 : (i.val * 4 + q.val) / 4 = i.val := by omega
  have h2 : (i.val * 4 + q.val) % 4 = q.val := by omega
  rw [h1, h2]
  unfold sgn bitOf
  by_cases hb : i.val / 2 ^ (3 - q.val) % 2 = 0
  · rw [if_pos hb, if_pos (Fin.ext hb), ofBits_one]
  · rw [if_neg hb, if_neg (fun h => hb (Fin.ext_iff.mp h)), ofBits_neg_one]

end Cert.KernelIdeal.Prefix

end
-- ==== Proof.HostKronConst.lean ====
/-
  What the host program leaves in the buffers of the 32 × 32 identity, of the 16 × 16 array of ones and of the table of
  signs: those constant arrays.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import proofs.«170417_j39341900431498_2_alg».proof.Proof.HostKronLift
import proofs.«170417_j39341900431498_2_alg».proof.Proof.HostKronEye

noncomputable section

namespace Cert.KernelIdeal.Prefix

open Idealize.ShloMosaic Idealize.ShloMosaic.TcCoe Idealize.ShloMosaic.ValueIdx Cert.KernelIdeal Cert.KernelIdeal.Gen Cert.QL

variable (m : (ℓ : Loc nD τ sig) → Buf (Elt Ideal) ℓ) (c : Dev nD)

/-! ## What the constant buffers hold -/

/-- The identity's buffer holds the identity. -/
theorem V_v99_eq : (V m c main_call0_v99 : S32x32.Idx → EReal) = eye32 := by
  show StableHlo.after hostOps0 (fun b => m (c, b)) (Proc.devRef .tc main_call0_v99) = _
  after_results_simp
  rfl

/-- The ones block's buffer holds the ones block. -/
theorem V_v100_eq : (V m c main_call0_v100 : S16x16.Idx → EReal) = ones16 := by
  show StableHlo.after hostOps0 (fun b => m (c, b)) (Proc.devRef .tc main_call0_v100) = _
  after_results_simp
  rfl

/-- The table's buffer holds the table of signs. -/
theorem V_cst_eq : (V m c main_call0_cst : S16x4.Idx → EReal) = signTab := by
  show StableHlo.after hostOps0 (fun b => m (c, b)) (Proc.devRef .tc main_call0_cst) = _
  after_results_simp
  rfl

end Cert.KernelIdeal.Prefix

end
-- ==== Proof.HostKronStage102.lean ====
/-
  The buffer of the lifted real-part matrix: the Kronecker product of the 32 × 32 identity with the 16 × 16 real-part
  matrix, cast to the narrower float format (the identity on the extended reals), as a function of the two factors'
  buffers.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import proofs.«170417_j39341900431498_2_alg».proof.Proof.HostKronLift

noncomputable section

namespace Cert.KernelIdeal.Prefix

open Idealize.ShloMosaic Idealize.ShloMosaic.TcCoe Idealize.ShloMosaic.ValueIdx Cert.KernelIdeal Cert.KernelIdeal.Gen Cert.QL

variable (m : (ℓ : Loc nD τ sig) → Buf (Elt Ideal) ℓ) (c : Dev nD)

/-- The first lifted matrix is the Kronecker product of the identity with the real-part matrix, narrowed (the identity on the extended reals). -/
theorem V_v102_eq :
    (V m c main_call0_v102 : S512x512.Idx → EReal)
      = truncf (F := Ideal) .bf16 (kronTerm (V m c main_call0_v99) (V m c main_call0_v92)) bitsLt_bf16_f32 := by
  show StableHlo.after hostOps0 (fun b => m (c, b)) (Proc.devRef .tc main_call0_v102)
      = truncf (F := Ideal) .bf16 (kronTerm (StableHlo.after hostOps0 (fun b => m (c, b)) (Proc.devRef .tc main_call0_v99)) (StableHlo.after hostOps0 (fun b => m (c, b)) (Proc.devRef .tc main_call0_v92))) bitsLt_bf16_f32
  unfold kronTerm liftL liftR
  after_results_simp
  rfl

end Cert.KernelIdeal.Prefix

end
-- ==== Proof.HostKronStage104.lean ====
/-
  The buffer of the lifted imaginary-part matrix: the Kronecker product of the 32 × 32 identity with the 16 × 16
  imaginary-part matrix, cast to the narrower float format (the identity on the extended reals), as a function of the
  two factors' buffers.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import proofs.«170417_j39341900431498_2_alg».proof.Proof.HostKronLift

noncomputable section

namespace Cert.KernelIdeal.Prefix

open Idealize.ShloMosaic Idealize.ShloMosaic.TcCoe Idealize.ShloMosaic.ValueIdx Cert.KernelIdeal Cert.KernelIdeal.Gen Cert.QL

variable (m : (ℓ : Loc nD τ sig) → Buf (Elt Ideal) ℓ) (c : Dev nD)

/-- The second lifted matrix is the Kronecker product of the identity with the imaginary-part matrix, narrowed (the identity on the extended reals). -/
theorem V_v104_eq :
    (V m c main_call0_v104 : S512x512.Idx → EReal)
      = truncf (F := Ideal) .bf16 (kronTerm (V m c main_call0_v99) (V m c main_call0_v93)) bitsLt_bf16_f32 := by
  show StableHlo.after hostOps0 (fun b => m (c, b)) (Proc.devRef .tc main_call0_v104)
      = truncf (F := Ideal) .bf16 (kronTerm (StableHlo.after hostOps0 (fun b => m (c, b)) (Proc.devRef .tc main_call0_v99)) (StableHlo.after hostOps0 (fun b => m (c, b)) (Proc.devRef .tc main_call0_v93))) bitsLt_bf16_f32
  unfold kronTerm liftL liftR
  after_results_simp
  rfl

end Cert.KernelIdeal.Prefix

end
-- ==== Proof.HostKronStage106.lean ====
/-
  The buffer of `identity ⊗ ones`: the Kronecker product of the 32 × 32 identity with the 16 × 16 array of ones, cast to
  the narrower float format (the identity on the extended reals), as a function of the two factors' buffers.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import proofs.«170417_j39341900431498_2_alg».proof.Proof.HostKronLift

noncomputable section

namespace Cert.KernelIdeal.Prefix

open Idealize.ShloMosaic Idealize.ShloMosaic.TcCoe Idealize.ShloMosaic.ValueIdx Cert.KernelIdeal Cert.KernelIdeal.Gen Cert.QL

variable (m : (ℓ : Loc nD τ sig) → Buf (Elt Ideal) ℓ) (c : Dev nD)

/-- The third lifted matrix is the Kronecker product of the identity with the block of ones, narrowed (the identity on the extended reals). -/
theorem V_v106_eq :
    (V m c main_call0_v106 : S512x512.Idx → EReal)
      = truncf (F := Ideal) .bf16 (kronTerm (V m c main_call0_v99) (V m c main_call0_v100)) bitsLt_bf16_f32 := by
  show StableHlo.after hostOps0 (fun b => m (c, b)) (Proc.devRef .tc main_call0_v106)
      = truncf (F := Ideal) .bf16 (kronTerm (StableHlo.after hostOps0 (fun b => m (c, b)) (Proc.devRef .tc main_call0_v99)) (StableHlo.after hostOps0 (fun b => m (c, b)) (Proc.devRef .tc main_call0_v100))) bitsLt_bf16_f32
  unfold kronTerm liftL liftR
  after_results_simp
  rfl

end Cert.KernelIdeal.Prefix

end
-- ==== Proof.HostKronStage107.lean ====
/-
  The buffer of the lifted table of signs: the Kronecker product of the 32 × 32 identity with the 16 × 4 table, as a
  function of the two factors' buffers.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import proofs.«170417_j39341900431498_2_alg».proof.Proof.HostKronLift

noncomputable section

namespace Cert.KernelIdeal.Prefix

open Idealize.ShloMosaic Idealize.ShloMosaic.TcCoe Idealize.ShloMosaic.ValueIdx Cert.KernelIdeal Cert.KernelIdeal.Gen Cert.QL

variable (m : (ℓ : Loc nD τ sig) → Buf (Elt Ideal) ℓ) (c : Dev nD)

/-- The lifted table is the Kronecker product of the identity with the 16 × 4 table. -/
theorem V_v107_eq :
    (V m c main_call0_v107 : S512x128.Idx → EReal)
      = kron3Term (V m c main_call0_v99) (V m c main_call0_cst) := by
  show StableHlo.after hostOps0 (fun b => m (c, b)) (Proc.devRef .tc main_call0_v107)
      = kron3Term (StableHlo.after hostOps0 (fun b => m (c, b)) (Proc.devRef .tc main_call0_v99)) (StableHlo.after hostOps0 (fun b => m (c, b)) (Proc.devRef .tc main_call0_cst))
  unfold kron3Term liftL3 liftR3
  after_results_simp
  rfl

end Cert.KernelIdeal.Prefix

end
-- ==== Proof.HostKron.lean ====
/-
  The five arrays the region stages, entry by entry: the packed argument; the 32 × 32 identity's Kronecker products with
  the real-part matrix, with the imaginary-part matrix, with the array of ones and with the table of signs.  Entry
  `(k, l)` of a lifted matrix is zero unless `k` and `l` belong to the same one of the thirty-two packed rows, and is then
  the small matrix's entry at the positions inside the row.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import proofs.«170417_j39341900431498_2_alg».proof.Proof.HostKronX
import proofs.«170417_j39341900431498_2_alg».proof.Proof.HostKronLift
import proofs.«170417_j39341900431498_2_alg».proof.Proof.HostKronEye
import proofs.«170417_j39341900431498_2_alg».proof.Proof.HostKronConst
import proofs.«170417_j39341900431498_2_alg».proof.Proof.HostKronStage102
import proofs.«170417_j39341900431498_2_alg».proof.Proof.HostKronStage104
import proofs.«170417_j39341900431498_2_alg».proof.Proof.HostKronStage106
import proofs.«170417_j39341900431498_2_alg».proof.Proof.HostKronStage107

noncomputable section

namespace Cert.KernelIdeal.Prefix

open Idealize.ShloMosaic Idealize.ShloMosaic.TcCoe Idealize.ShloMosaic.ValueIdx Cert.KernelIdeal Cert.KernelIdeal.Gen Cert.QL

variable (m : (ℓ : Loc nD τ sig) → Buf (Elt Ideal) ℓ) (c : Dev nD)

/-! ## The five arrays the kernel's windows stage, entry by entry -/

/-- Row `g` of the packed input holds rows `32 g … 32 g + 31` of the argument side by side: flat position
    `512 g + k = 16 (32 g + k / 16) + k % 16`. -/
theorem V_x (g : Fin 131072) (k : Fin 512) :
    (V m c main_call0_v108 : S131072x512.Idx → EReal) (ix2 g k)
      = (m ((c : Thread nD τ).loc main_arg0) : S4194304x16.Idx → EReal)
          (ix2 ⟨32 * g.val + k.val / 16, by have := g.isLt; have := k.isLt; omega⟩ ⟨k.val % 16, Nat.mod_lt _ (by norm_num)⟩) := by
  rw [V_v108_eq]
  refine shapeCast_apply _ shapeCasts_S4194304x16_S131072x512 _ _ ?_
  rewrite [Shape.rowMajor_val_two, Shape.rowMajor_val_two]
  have hg := g.isLt
  have hk := k.isLt
  show (32 * g.val + k.val / 16) * 16 + k.val % 16 = g.val * 512 + k.val
  omega

/-- The first lifted matrix is block diagonal: the real-part matrix in each of the 32 diagonal blocks. -/
theorem V_v102 (k l : Fin 512) :
    (V m c main_call0_v102 : S512x512.Idx → EReal) (ix2 k l)
      = (if k.val / 16 = l.val / 16 then (1 : EReal) else 0)
        * (V m c main_call0_v92 : S16x16.Idx → EReal)
            (ix2 ⟨k.val % 16, Nat.mod_lt _ (by norm_num)⟩ ⟨l.val % 16, Nat.mod_lt _ (by norm_num)⟩) := by
  rw [V_v102_eq]
  show kronTerm (V m c main_call0_v99) (V m c main_call0_v92) (ix2 k l) = _
  rw [kronTerm_apply, V_v99_eq, eye32_apply]

/-- The second lifted matrix: the imaginary-part matrix in each diagonal block. -/
theorem V_v104 (k l : Fin 512) :
    (V m c main_call0_v104 : S512x512.Idx → EReal) (ix2 k l)
      = (if k.val / 16 = l.val / 16 then (1 : EReal) else 0)
        * (V m c main_call0_v93 : S16x16.Idx → EReal)
            (ix2 ⟨k.val % 16, Nat.mod_lt _ (by norm_num)⟩ ⟨l.val % 16, Nat.mod_lt _ (by norm_num)⟩) := by
  rw [V_v104_eq]
  show kronTerm (V m c main_call0_v99) (V m c main_call0_v93) (ix2 k l) = _
  rw [kronTerm_apply, V_v99_eq, eye32_apply]

/-- The third lifted matrix: ones in each diagonal block, zero elsewhere. -/
theorem V_v106 (k l : Fin 512) :
    (V m c main_call0_v106 : S512x512.Idx → EReal) (ix2 k l) = (if k.val / 16 = l.val / 16 then (1 : EReal) else 0) := by
  rw [V_v106_eq]
  show kronTerm (V m c main_call0_v99) (V m c main_call0_v100) (ix2 k l) = _
  rw [kronTerm_apply, V_v99_eq, eye32_apply, V_v100_eq, ones16_apply, mul_one]

/-- The lifted table: the table of signs in each of the 32 diagonal 16 × 4 blocks. -/
theorem V_v107 (k : Fin 512) (l : Fin 128) :
    (V m c main_call0_v107 : S512x128.Idx → EReal) (ix2 k l)
      = (if k.val / 16 = l.val / 4 then (1 : EReal) else 0) * sgn (k.val % 16) (l.val % 4) := by
  rw [V_v107_eq, kron3Term_apply, V_v99_eq, eye32_apply, V_cst_eq, signTab_apply]

end Cert.KernelIdeal.Prefix

end
-- ==== Proof.HostCircuitDefs.lean ====
/-
  The host program's rotation circuit, stage by stage, as functions of the four angles.

  The sixteen basis states are the rows of the 16 × 16 identity, reshaped so that the column number is written with its
  four bits (wire 0 the most significant). The imaginary parts start at zero. With `c = cos (θ/2)`, `s = sin (θ/2)`
  (the half written as the product with the binary32 word of one half), rotation `q` sends the pair
  (real part `pr`, imaginary part `pi`) to `(c_q · pr + s_q · pi∘flip_q, c_q · pi − s_q · pr∘flip_q)`, `flip_q` reversing
  the bit of wire `q`; each coefficient is entry `q` of the vector of cosines or sines, sliced out, made a scalar and
  spread over the whole array. After the four rotations both arrays are reshaped back to 16 × 16.
-/
import proofs.«170417_j39341900431498_2_alg».proof.Proof.Gen.KernelIdeal.Frame
import proofs.«170417_j39341900431498_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Prefix

open Idealize.ShloMosaic Idealize.ShloMosaic.ValueIdx Cert.KernelIdeal Cert.KernelIdeal.Gen Cert.QL

/-- The 16 × 16 identity: the row number (plus the word zero) compared with the column number, the one-bit answer
    converted to a number. -/
def eye2 : S16x16.Idx → EReal :=
  uitofp (F := Ideal) .f32
    (cmpi .eq (addi (iotaInDim S16x16 32 0) (broadcastInDim S16x16 ![] bcast_S_S16x16 (constantI S_ 32 0#32)))
      (iotaInDim S16x16 32 1))

/-- The identity with its column number written in four bits. -/
def eye5 : S16x2x2x2x2.Idx → EReal := shapeCast S16x2x2x2x2 eye2 shapeCasts_S16x16_S16x2x2x2x2

/-- The zero array of the same shape. -/
def zero5 : S16x2x2x2x2.Idx → EReal :=
  broadcastInDim S16x2x2x2x2 ![] bcast_S_S16x2x2x2x2 (constant (F := Ideal) S_ .f32 0x00000000#32)

/-- The four half angles. -/
def halfAngle (W : S4.Idx → EReal) : S4.Idx → EReal :=
  mulf (F := Ideal) (φ := .f32) W (broadcastInDim S4 ![] bcast_S_S4 (constant (F := Ideal) S_ .f32 0x3F000000#32))

/-- Their cosines and sines. -/
def cvec (W : S4.Idx → EReal) : S4.Idx → EReal := Host.cos (F := Ideal) (φ := .f32) (halfAngle W)
def svec (W : S4.Idx → EReal) : S4.Idx → EReal := Host.sin (F := Ideal) (φ := .f32) (halfAngle W)

/-- Entry `q` of a vector of four, spread over the whole five-axis array. -/
def coef0 (v : S4.Idx → EReal) : S16x2x2x2x2.Idx → EReal :=
  broadcastInDim S16x2x2x2x2 ![] bcast_S_S16x2x2x2x2
    (shapeCast S_ (extractStridedSlice S1 ![0] v slices_S4_S1_0) shapeCasts_S1_S_)
def coef1 (v : S4.Idx → EReal) : S16x2x2x2x2.Idx → EReal :=
  broadcastInDim S16x2x2x2x2 ![] bcast_S_S16x2x2x2x2
    (shapeCast S_ (extractStridedSlice S1 ![1] v slices_S4_S1_1) shapeCasts_S1_S_)
def coef2 (v : S4.Idx → EReal) : S16x2x2x2x2.Idx → EReal :=
  broadcastInDim S16x2x2x2x2 ![] bcast_S_S16x2x2x2x2
    (shapeCast S_ (extractStridedSlice S1 ![2] v slices_S4_S1_2) shapeCasts_S1_S_)
def coef3 (v : S4.Idx → EReal) : S16x2x2x2x2.Idx → EReal :=
  broadcastInDim S16x2x2x2x2 ![] bcast_S_S16x2x2x2x2
    (shapeCast S_ (extractStridedSlice S1 ![3] v slices_S4_S1_3) shapeCasts_S1_S_)

/-- One rotation's new real part: `c · pr + s · pi∘flip`, the flip on array axis `q + 1`. -/
def stepRe0 (cv sv : S4.Idx → EReal) (pr pi : S16x2x2x2x2.Idx → EReal) : S16x2x2x2x2.Idx → EReal :=
  addf (F := Ideal) (φ := .f32) (mulf (F := Ideal) (φ := .f32) (coef0 cv) pr)
    (mulf (F := Ideal) (φ := .f32) (coef0 sv) (Host.reverse [1] pi))
def stepRe1 (cv sv : S4.Idx → EReal) (pr pi : S16x2x2x2x2.Idx → EReal) : S16x2x2x2x2.Idx → EReal :=
  addf (F := Ideal) (φ := .f32) (mulf (F := Ideal) (φ := .f32) (coef1 cv) pr)
    (mulf (F := Ideal) (φ := .f32) (coef1 sv) (Host.reverse [2] pi))
def stepRe2 (cv sv : S4.Idx → EReal) (pr pi : S16x2x2x2x2.Idx → EReal) : S16x2x2x2x2.Idx → EReal :=
  addf (F := Ideal) (φ := .f32) (mulf (F := Ideal) (φ := .f32) (coef2 cv) pr)
    (mulf (F := Ideal) (φ := .f32) (coef2 sv) (Host.reverse [3] pi))
def stepRe3 (cv sv : S4.Idx → EReal) (pr pi : S16x2x2x2x2.Idx → EReal) : S16x2x2x2x2.Idx → EReal :=
  addf (F := Ideal) (φ := .f32) (mulf (F := Ideal) (φ := .f32) (coef3 cv) pr)
    (mulf (F := Ideal) (φ := .f32) (coef3 sv) (Host.reverse [4] pi))

/-- One rotation's new imaginary part: `c · pi − s · pr∘flip`. -/
def stepIm0 (cv sv : S4.Idx → EReal) (pr pi : S16x2x2x2x2.Idx → EReal) : S16x2x2x2x2.Idx → EReal :=
  subf (F := Ideal) (φ := .f32) (mulf (F := Ideal) (φ := .f32) (coef0 cv) pi)
    (mulf (F := Ideal) (φ := .f32) (coef0 sv) (Host.reverse [1] pr))
def stepIm1 (cv sv : S4.Idx → EReal) (pr pi : S16x2x2x2x2.Idx → EReal) : S16x2x2x2x2.Idx → EReal :=
  subf (F := Ideal) (φ := .f32) (mulf (F := Ideal) (φ := .f32) (coef1 cv) pi)
    (mulf (F := Ideal) (φ := .f32) (coef1 sv) (Host.reverse [2] pr))
def stepIm2 (cv sv : S4.Idx → EReal) (pr pi : S16x2x2x2x2.Idx → EReal) : S16x2x2x2x2.Idx → EReal :=
  subf (F := Ideal) (φ := .f32) (mulf (F := Ideal) (φ := .f32) (coef2 cv) pi)
    (mulf (F := Ideal) (φ := .f32) (coef2 sv) (Host.reverse [3] pr))
def stepIm3 (cv sv : S4.Idx → EReal) (pr pi : S16x2x2x2x2.Idx → EReal) : S16x2x2x2x2.Idx → EReal :=
  subf (F := Ideal) (φ := .f32) (mulf (F := Ideal) (φ := .f32) (coef3 cv) pi)
    (mulf (F := Ideal) (φ := .f32) (coef3 sv) (Host.reverse [4] pr))

/-- The pair of arrays after one, two, three and four rotations. -/
def re1 (W : S4.Idx → EReal) : S16x2x2x2x2.Idx → EReal := stepRe0 (cvec W) (svec W) eye5 zero5
def im1 (W : S4.Idx → EReal) : S16x2x2x2x2.Idx → EReal := stepIm0 (cvec W) (svec W) eye5 zero5
def re2 (W : S4.Idx → EReal) : S16x2x2x2x2.Idx → EReal := stepRe1 (cvec W) (svec W) (re1 W) (im1 W)
def im2 (W : S4.Idx → EReal) : S16x2x2x2x2.Idx → EReal := stepIm1 (cvec W) (svec W) (re1 W) (im1 W)
def re3 (W : S4.Idx → EReal) : S16x2x2x2x2.Idx → EReal := stepRe2 (cvec W) (svec W) (re2 W) (im2 W)
def im3 (W : S4.Idx → EReal) : S16x2x2x2x2.Idx → EReal := stepIm2 (cvec W) (svec W) (re2 W) (im2 W)
def re4 (W : S4.Idx → EReal) : S16x2x2x2x2.Idx → EReal := stepRe3 (cvec W) (svec W) (re3 W) (im3 W)
def im4 (W : S4.Idx → EReal) : S16x2x2x2x2.Idx → EReal := stepIm3 (cvec W) (svec W) (re3 W) (im3 W)

/-- The two 16 × 16 matrices. -/
def matRe (W : S4.Idx → EReal) : S16x16.Idx → EReal := shapeCast S16x16 (re4 W) shapeCasts_S16x2x2x2x2_S16x16
def matIm (W : S4.Idx → EReal) : S16x16.Idx → EReal := shapeCast S16x16 (im4 W) shapeCasts_S16x2x2x2x2_S16x16

end Cert.KernelIdeal.Prefix

end
-- ==== Proof.HostCircuitRun.lean ====
/-
  What the host program leaves in the two buffers of the rotation matrices: the composed stages of the circuit, as a
  function of the buffer of the four angles.
-/
import proofs.«170417_j39341900431498_2_alg».proof.Proof.HostCircuitDefs

set_option maxRecDepth 16384

noncomputable section

namespace Cert.KernelIdeal.Prefix

open Idealize.ShloMosaic Idealize.ShloMosaic.ValueIdx Cert.KernelIdeal Cert.KernelIdeal.Gen Cert.QL
open Idealize.ShloMosaic.StableHlo Idealize.ShloMosaic.TcCoe

variable (m : (ℓ : Loc nD τ sig) → Buf (Elt Ideal) ℓ) (c : Dev nD)

set_option maxHeartbeats 4000000 in
/-- The real-part matrix's buffer holds the four rotations run on the identity, reshaped to 16 × 16. -/
theorem V_v92_eq :
    (V m c main_call0_v92 : S16x16.Idx → EReal) = matRe (m ((c : Thread nD τ).loc main_arg1)) := by
  show StableHlo.after hostOps0 (fun b => m (c, b)) (Proc.devRef .tc main_call0_v92) = _
  after_results_simp
  rfl

set_option maxHeartbeats 4000000 in
/-- The imaginary-part matrix's buffer holds the imaginary parts after the same four rotations, reshaped likewise. -/
theorem V_v93_eq :
    (V m c main_call0_v93 : S16x16.Idx → EReal) = matIm (m ((c : Thread nD τ).loc main_arg1)) := by
  show StableHlo.after hostOps0 (fun b => m (c, b)) (Proc.devRef .tc main_call0_v93) = _
  after_results_simp
  rfl

end Cert.KernelIdeal.Prefix

end
-- ==== Proof.HostCircuit.lean ====
/-
  The two 16 × 16 rotation matrices the host program builds, entry by entry.

  Entry (j, i) of the real-part (imaginary-part) matrix is the real (imaginary) part, at amplitude `i`, of the four
  rotations run on basis state `j`. The program holds the sixteen states as one array indexed by (state, bit of wire 0,
  …, bit of wire 3); reading that array at a fixed state `j` turns each of its stages into the corresponding rotation
  on a pair of functions of four bits.
-/
import proofs.«170417_j39341900431498_2_alg».proof.Proof.HostCircuitRun

noncomputable section

namespace Cert.KernelIdeal.Prefix

open Idealize.ShloMosaic Idealize.ShloMosaic.ValueIdx Cert.KernelIdeal Cert.KernelIdeal.Gen Cert.QL

/-! ## The coefficients: entry `q` of a vector of four, read anywhere in the five-axis array -/

/-- The scalar shape has one index, at row-major position zero. -/
theorem rowMajor_scalar (j : S_.Idx) : (S_.rowMajor j).val = 0 := by
  have h := (S_.rowMajor j).isLt
  have hn : S_.numel = 1 := by decide
  omega

theorem coef0_apply (v : S4.Idx → EReal) (i : S16x2x2x2x2.Idx) : coef0 v i = v (ix1 0) := by
  unfold coef0
  refine (broadcastInDim_apply _ bcast_S_S16x2x2x2x2 _ i ix0 (fun a => a.elim0)).trans ?_
  refine (shapeCast_apply _ shapeCasts_S1_S_ ix0 (ix1 0) ?_).trans ?_
  · rw [Shape.rowMajor_val_one, rowMajor_scalar]; rfl
  · exact extractStridedSlice_apply ![0] v slices_S4_S1_0 (ix1 0) (ix1 0) (fun a => match a with | ⟨0, _⟩ => rfl)

theorem coef1_apply (v : S4.Idx → EReal) (i : S16x2x2x2x2.Idx) : coef1 v i = v (ix1 1) := by
  unfold coef1
  refine (broadcastInDim_apply _ bcast_S_S16x2x2x2x2 _ i ix0 (fun a => a.elim0)).trans ?_
  refine (shapeCast_apply _ shapeCasts_S1_S_ ix0 (ix1 0) ?_).trans ?_
  · rw [Shape.rowMajor_val_one, rowMajor_scalar]; rfl
  · exact extractStridedSlice_apply ![1] v slices_S4_S1_1 (ix1 0) (ix1 1) (fun a => match a with | ⟨0, _⟩ => rfl)

theorem coef2_apply (v : S4.Idx → EReal) (i : S16x2x2x2x2.Idx) : coef2 v i = v (ix1 2) := by
  unfold coef2
  refine (broadcastInDim_apply _ bcast_S_S16x2x2x2x2 _ i ix0 (fun a => a.elim0)).trans ?_
  refine (shapeCast_apply _ shapeCasts_S1_S_ ix0 (ix1 0) ?_).trans ?_
  · rw [Shape.rowMajor_val_one, rowMajor_scalar]; rfl
  · exact extractStridedSlice_apply ![2] v slices_S4_S1_2 (ix1 0) (ix1 2) (fun a => match a with | ⟨0, _⟩ => rfl)

theorem coef3_apply (v : S4.Idx → EReal) (i : S16x2x2x2x2.Idx) : coef3 v i = v (ix1 3) := by
  unfold coef3
  refine (broadcastInDim_apply _ bcast_S_S16x2x2x2x2 _ i ix0 (fun a => a.elim0)).trans ?_
  refine (shapeCast_apply _ shapeCasts_S1_S_ ix0 (ix1 0) ?_).trans ?_
  · rw [Shape.rowMajor_val_one, rowMajor_scalar]; rfl
  · exact extractStridedSlice_apply ![3] v slices_S4_S1_3 (ix1 0) (ix1 3) (fun a => match a with | ⟨0, _⟩ => rfl)

/-- The cosines and sines are those of the half angles. -/
theorem cvec_apply (W : S4.Idx → EReal) (q : Fin 4) : cvec W (ix1 q) = cw W q := rfl
theorem svec_apply (W : S4.Idx → EReal) (q : Fin 4) : svec W (ix1 q) = sw W q := rfl

/-! ## Reversing one bit -/

theorem reverse1_apply (x : S16x2x2x2x2.Idx → EReal) (j : Fin 16) (a b d e : Fin 2) :
    Host.reverse [1] x (ix5 j a b d e) = x (ix5 j a.rev b d e) := by
  unfold Host.reverse
  refine congrArg x (funext fun ax => ?_)
  match ax with
  | ⟨0, _⟩ => rfl
  | ⟨1, _⟩ => rfl
  | ⟨2, _⟩ => rfl
  | ⟨3, _⟩ => rfl
  | ⟨4, _⟩ => rfl

theorem reverse2_apply (x : S16x2x2x2x2.Idx → EReal) (j : Fin 16) (a b d e : Fin 2) :
    Host.reverse [2] x (ix5 j a b d e) = x (ix5 j a b.rev d e) := by
  unfold Host.reverse
  refine congrArg x (funext fun ax => ?_)
  match ax with
  | ⟨0, _⟩ => rfl
  | ⟨1, _⟩ => rfl
  | ⟨2, _⟩ => rfl
  | ⟨3, _⟩ => rfl
  | ⟨4, _⟩ => rfl

theorem reverse3_apply (x : S16x2x2x2x2.Idx → EReal) (j : Fin 16) (a b d e : Fin 2) :
    Host.reverse [3] x (ix5 j a b d e) = x (ix5 j a b d.rev e) := by
  unfold Host.reverse
  refine congrArg x (funext fun ax => ?_)
  match ax with
  | ⟨0, _⟩ => rfl
  | ⟨1, _⟩ => rfl
  | ⟨2, _⟩ => rfl
  | ⟨3, _⟩ => rfl
  | ⟨4, _⟩ => rfl

theorem reverse4_apply (x : S16x2x2x2x2.Idx → EReal) (j : Fin 16) (a b d e : Fin 2) :
    Host.reverse [4] x (ix5 j a b d e) = x (ix5 j a b d e.rev) := by
  unfold Host.reverse
  refine congrArg x (funext fun ax => ?_)
  match ax with
  | ⟨0, _⟩ => rfl
  | ⟨1, _⟩ => rfl
  | ⟨2, _⟩ => rfl
  | ⟨3, _⟩ => rfl
  | ⟨4, _⟩ => rfl

/-! ## One rotation, at an index -/

section Steps
variable (cv sv : S4.Idx → EReal) (pr pi : S16x2x2x2x2.Idx → EReal) (j : Fin 16) (a b d e : Fin 2)

theorem stepRe0_apply : stepRe0 cv sv pr pi (ix5 j a b d e)
    = cv (ix1 0) * pr (ix5 j a b d e) + sv (ix1 0) * pi (ix5 j a.rev b d e) := by
  show coef0 cv (ix5 j a b d e) * pr (ix5 j a b d e)
    + coef0 sv (ix5 j a b d e) * Host.reverse [1] pi (ix5 j a b d e) = _
  rw [coef0_apply, coef0_apply, reverse1_apply]
theorem stepIm0_apply : stepIm0 cv sv pr pi (ix5 j a b d e)
    = cv (ix1 0) * pi (ix5 j a b d e) - sv (ix1 0) * pr (ix5 j a.rev b d e) := by
  show coef0 cv (ix5 j a b d e) * pi (ix5 j a b d e)
    - coef0 sv (ix5 j a b d e) * Host.reverse [1] pr (ix5 j a b d e) = _
  rw [coef0_apply, coef0_apply, reverse1_apply]

theorem stepRe1_apply : stepRe1 cv sv pr pi (ix5 j a b d e)
    = cv (ix1 1) * pr (ix5 j a b d e) + sv (ix1 1) * pi (ix5 j a b.rev d e) := by
  show coef1 cv (ix5 j a b d e) * pr (ix5 j a b d e)
    + coef1 sv (ix5 j a b d e) * Host.reverse [2] pi (ix5 j a b d e) = _
  rw [coef1_apply, coef1_apply, reverse2_apply]
theorem stepIm1_apply : stepIm1 cv sv pr pi (ix5 j a b d e)
    = cv (ix1 1) * pi (ix5 j a b d e) - sv (ix1 1) * pr (ix5 j a b.rev d e) := by
  show coef1 cv (ix5 j a b d e) * pi (ix5 j a b d e)
    - coef1 sv (ix5 j a b d e) * Host.reverse [2] pr (ix5 j a b d e) = _
  rw [coef1_apply, coef1_apply, reverse2_apply]

theorem stepRe2_apply : stepRe2 cv sv pr pi (ix5 j a b d e)
    = cv (ix1 2) * pr (ix5 j a b d e) + sv (ix1 2) * pi (ix5 j a b d.rev e) := by
  show coef2 cv (ix5 j a b d e) * pr (ix5 j a b d e)
    + coef2 sv (ix5 j a b d e) * Host.reverse [3] pi (ix5 j a b d e) = _
  rw [coef2_apply, coef2_apply, reverse3_apply]
theorem stepIm2_apply : stepIm2 cv sv pr pi (ix5 j a b d e)
    = cv (ix1 2) * pi (ix5 j a b d e) - sv (ix1 2) * pr (ix5 j a b d.rev e) := by
  show coef2 cv (ix5 j a b d e) * pi (ix5 j a b d e)
    - coef2 sv (ix5 j a b d e) * Host.reverse [3] pr (ix5 j a b d e) = _
  rw [coef2_apply, coef2_apply, reverse3_apply]

theorem stepRe3_apply : stepRe3 cv sv pr pi (ix5 j a b d e)
    = cv (ix1 3) * pr (ix5 j a b d e) + sv (ix1 3) * pi (ix5 j a b d e.rev) := by
  show coef3 cv (ix5 j a b d e) * pr (ix5 j a b d e)
    + coef3 sv (ix5 j a b d e) * Host.reverse [4] pi (ix5 j a b d e) = _
  rw [coef3_apply, coef3_apply, reverse4_apply]
theorem stepIm3_apply : stepIm3 cv sv pr pi (ix5 j a b d e)
    = cv (ix1 3) * pi (ix5 j a b d e) - sv (ix1 3) * pr (ix5 j a b d e.rev) := by
  show coef3 cv (ix5 j a b d e) * pi (ix5 j a b d e)
    - coef3 sv (ix5 j a b d e) * Host.reverse [4] pr (ix5 j a b d e) = _
  rw [coef3_apply, coef3_apply, reverse4_apply]

end Steps

/-! ## The starting arrays -/

/-- Two numbers below sixteen, as 32-bit words (the first plus the zero word), are equal words exactly when they are
    equal. -/
theorem word_eq (j i : Fin 16) :
    IntOp.cmpi .eq (IntOp.addi (BitVec.ofNat 32 j.val) 0#32) (BitVec.ofNat 32 i.val)
      = if j.val = i.val then 1#1 else 0#1 := by
  revert j i; decide

/-- The identity's entry (j, i) is one on the diagonal, zero off it. -/
theorem eye2_apply (j i : Fin 16) : eye2 (ix2 j i) = if j.val = i.val then 1 else 0 := by
  show (((IntOp.cmpi .eq (IntOp.addi (BitVec.ofNat 32 j.val) 0#32) (BitVec.ofNat 32 i.val)).toNat : ℝ) : EReal) = _
  rw [word_eq]
  split <;> simp

/-- Reshaped, the column number is the amplitude number of the four bits. -/
theorem eye5_apply (j : Fin 16) (a b d e : Fin 2) :
    eye5 (ix5 j a b d e) = if j.val = (flat a b d e).val then 1 else 0 := by
  unfold eye5
  refine (shapeCast_apply eye2 shapeCasts_S16x16_S16x2x2x2x2 (ix5 j a b d e) (ix2 j (flat a b d e)) ?_).trans
    (eye2_apply j (flat a b d e))
  rw [Shape.rowMajor_val_two, Shape.rowMajor_val_five]
  show j.val * 16 + (8 * a.val + 4 * b.val + 2 * d.val + e.val)
    = (((j.val * 2 + a.val) * 2 + b.val) * 2 + d.val) * 2 + e.val
  omega

theorem zero5_apply (i : S16x2x2x2x2.Idx) : zero5 i = 0 := by
  show Ideal.ofBits .f32 0x00000000#32 = 0
  exact Ideal.ofBits_zero_f32

/-! ## The array at one state: a pair of functions of four bits -/

/-- The two arrays read at state `j`. -/
def pairAt (pr pi : S16x2x2x2x2.Idx → EReal) (j : Fin 16) : St × St :=
  (fun a b d e => pr (ix5 j a b d e), fun a b d e => pi (ix5 j a b d e))

section Pairs
variable (cv sv : S4.Idx → EReal) (pr pi : S16x2x2x2x2.Idx → EReal) (j : Fin 16)

theorem pairAt_step0 : pairAt (stepRe0 cv sv pr pi) (stepIm0 cv sv pr pi) j
    = rx0 (cv (ix1 0)) (sv (ix1 0)) (pairAt pr pi j) := by
  unfold pairAt rx0
  refine Prod.ext ?_ ?_
  · funext a b d e; exact stepRe0_apply cv sv pr pi j a b d e
  · funext a b d e; exact stepIm0_apply cv sv pr pi j a b d e
theorem pairAt_step1 : pairAt (stepRe1 cv sv pr pi) (stepIm1 cv sv pr pi) j
    = rx1 (cv (ix1 1)) (sv (ix1 1)) (pairAt pr pi j) := by
  unfold pairAt rx1
  refine Prod.ext ?_ ?_
  · funext a b d e; exact stepRe1_apply cv sv pr pi j a b d e
  · funext a b d e; exact stepIm1_apply cv sv pr pi j a b d e
theorem pairAt_step2 : pairAt (stepRe2 cv sv pr pi) (stepIm2 cv sv pr pi) j
    = rx2 (cv (ix1 2)) (sv (ix1 2)) (pairAt pr pi j) := by
  unfold pairAt rx2
  refine Prod.ext ?_ ?_
  · funext a b d e; exact stepRe2_apply cv sv pr pi j a b d e
  · funext a b d e; exact stepIm2_apply cv sv pr pi j a b d e
theorem pairAt_step3 : pairAt (stepRe3 cv sv pr pi) (stepIm3 cv sv pr pi) j
    = rx3 (cv (ix1 3)) (sv (ix1 3)) (pairAt pr pi j) := by
  unfold pairAt rx3
  refine Prod.ext ?_ ?_
  · funext a b d e; exact stepRe3_apply cv sv pr pi j a b d e
  · funext a b d e; exact stepIm3_apply cv sv pr pi j a b d e

end Pairs

/-- The starting pair at state `j` is basis state `j`. -/
theorem pairAt_base (j : Fin 16) : pairAt eye5 zero5 j = basisState j.val := by
  unfold pairAt basisState
  refine Prod.ext ?_ ?_
  · funext a b d e; exact eye5_apply j a b d e
  · funext a b d e; exact zero5_apply (ix5 j a b d e)

/-- After the four stages the pair at state `j` is the four rotations of basis state `j`. -/
theorem pairAt_final (W : S4.Idx → EReal) (j : Fin 16) : pairAt (re4 W) (im4 W) j = rotBasis W j.val := by
  unfold rotBasis circ re4 im4 re3 im3 re2 im2 re1 im1
  rw [pairAt_step3, pairAt_step2, pairAt_step1, pairAt_step0, pairAt_base]
  rfl

/-! ## The reshape back to 16 × 16: column `i` is read at the four bits of `i` -/

theorem matRe_apply (W : S4.Idx → EReal) (j i : Fin 16) : matRe W (ix2 j i) = mRe W j.val i.val := by
  unfold matRe
  refine (shapeCast_apply (re4 W) shapeCasts_S16x2x2x2x2_S16x16 (ix2 j i)
    (ix5 j (bitOf i.val 3) (bitOf i.val 2) (bitOf i.val 1) (bitOf i.val 0)) ?_).trans ?_
  · rw [Shape.rowMajor_val_two, Shape.rowMajor_val_five]
    show (((j.val * 2 + i.val / 2 ^ 3 % 2) * 2 + i.val / 2 ^ 2 % 2) * 2 + i.val / 2 ^ 1 % 2) * 2 + i.val / 2 ^ 0 % 2
      = j.val * 16 + i.val
    have := i.isLt
    omega
  · show (pairAt (re4 W) (im4 W) j).1 (bitOf i.val 3) (bitOf i.val 2) (bitOf i.val 1) (bitOf i.val 0) = _
    rw [pairAt_final]; rfl

theorem matIm_apply (W : S4.Idx → EReal) (j i : Fin 16) : matIm W (ix2 j i) = mIm W j.val i.val := by
  unfold matIm
  refine (shapeCast_apply (im4 W) shapeCasts_S16x2x2x2x2_S16x16 (ix2 j i)
    (ix5 j (bitOf i.val 3) (bitOf i.val 2) (bitOf i.val 1) (bitOf i.val 0)) ?_).trans ?_
  · rw [Shape.rowMajor_val_two, Shape.rowMajor_val_five]
    show (((j.val * 2 + i.val / 2 ^ 3 % 2) * 2 + i.val / 2 ^ 2 % 2) * 2 + i.val / 2 ^ 1 % 2) * 2 + i.val / 2 ^ 0 % 2
      = j.val * 16 + i.val
    have := i.isLt
    omega
  · show (pairAt (re4 W) (im4 W) j).2 (bitOf i.val 3) (bitOf i.val 2) (bitOf i.val 1) (bitOf i.val 0) = _
    rw [pairAt_final]; rfl

/-! ## The two buffers, entry by entry -/

open Idealize.ShloMosaic.TcCoe in
/-- Entry (j, i) of the real-part matrix's buffer. -/
theorem V_re (m : (ℓ : Loc nD τ sig) → Buf (Elt Ideal) ℓ) (c : Dev nD) (j i : Fin 16) :
    (V m c main_call0_v92 : S16x16.Idx → EReal) (ix2 j i)
      = mRe (m ((c : Thread nD τ).loc main_arg1)) j.val i.val := by
  rw [V_v92_eq, matRe_apply]

open Idealize.ShloMosaic.TcCoe in
/-- Entry (j, i) of the imaginary-part matrix's buffer. -/
theorem V_im (m : (ℓ : Loc nD τ sig) → Buf (Elt Ideal) ℓ) (c : Dev nD) (j i : Fin 16) :
    (V m c main_call0_v93 : S16x16.Idx → EReal) (ix2 j i)
      = mIm (m ((c : Thread nD τ).loc main_arg1)) j.val i.val := by
  rw [V_v93_eq, matIm_apply]

end Cert.KernelIdeal.Prefix

end
-- ==== Proof.KernelArrayBlocks.lean ====
/-
  Each input window's block at a grid point, read at an element, is the window's array read at the element of the
  array the block's rectangle puts there.  The packed-row array is cut into 64 blocks of 2048 rows, block `t` holding
  rows `2048 t … 2048 t + 2047`; the four matrices are one whole block each, the same at every point.
-/
import proofs.«170417_j39341900431498_2_alg».proof.Proof.Gen.KernelIdeal.Frame
import Idealize.ShloMosaic.Lib.Pipeline.Value
import Idealize.ShloMosaic.Lib.ValueIdx

noncomputable section

namespace Cert.KernelIdeal.Arr

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- A grid point is below 64. -/
theorem point_lt (t : Fin cfg0.N) : t.val < 64 := lt_of_lt_of_eq t.isLt N_0

/-- The printed index maps, decided over the grid: the packed-row windows (0 and 5) are at block (t, 0), the four
    matrix windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` is rows `2048 t … 2048 t + 2047` of the packed-row array. -/
theorem iblk0_apply (c : Dev nD) (t : Fin cfg0.N) (p : Fin 2048) (k : Fin 512) :
    (iblk m c 0 t : Vec Ideal S2048x512 .f32) (ix2 p k)
      = (V m c main_call0_v108 : S131072x512.Idx → EReal)
          (ix2 (⟨2048 * t.val + p.val, by have := point_lt t; have := p.isLt; omega⟩ : Fin 131072) k) := by
  obtain ⟨e0, e1, -⟩ := idx_facts t
  unfold iblk
  rw [View.read_apply]
  show V m c main_call0_v108 _ = V m c main_call0_v108 _
  congr 1
  funext a
  apply Fin.ext
  match a with
  | ⟨0, _⟩ => show win0_0.index t 0 * 2048 + 1 * p.val = 2048 * t.val + p.val; rw [e0]; omega
  | ⟨1, _⟩ => show win0_0.index t 1 * 512 + 1 * k.val = k.val; rw [e1]; omega

/-- Window 1's block at every point is its whole array. -/
theorem iblk1_apply (c : Dev nD) (t : Fin cfg0.N) (k l : Fin 512) :
    (iblk m c 1 t : Vec Ideal S512x512 .bf16) (ix2 k l) = (V m c main_call0_v102 : S512x512.Idx → EReal) (ix2 k l) := by
  obtain ⟨-, -, e0, e1, -⟩ := idx_facts t
  unfold iblk
  rw [View.read_apply]
  show V m c main_call0_v102 _ = V m c main_call0_v102 _
  congr 1
  funext a
  apply Fin.ext
  match a with
  | ⟨0, _⟩ => show win0_1.index t 0 * 512 + 1 * k.val = k.val; rw [e0]; omega
  | ⟨1, _⟩ => show win0_1.index t 1 * 512 + 1 * l.val = l.val; rw [e1]; omega

/-- Window 2's block at every point is its whole array. -/
theorem iblk2_apply (c : Dev nD) (t : Fin cfg0.N) (k l : Fin 512) :
    (iblk m c 2 t : Vec Ideal S512x512 .bf16) (ix2 k l) = (V m c main_call0_v104 : S512x512.Idx → EReal) (ix2 k l) := by
  obtain ⟨-, -, -, -, e0, e1, -⟩ := idx_facts t
  unfold iblk
  rw [View.read_apply]
  show V m c main_call0_v104 _ = V m c main_call0_v104 _
  congr 1
  funext a
  apply Fin.ext
  match a with
  | ⟨0, _⟩ => show win0_2.index t 0 * 512 + 1 * k.val = k.val; rw [e0]; omega
  | ⟨1, _⟩ => show win0_2.index t 1 * 512 + 1 * l.val = l.val; rw [e1]; omega

/-- Window 3's block at every point is its whole array. -/
theorem iblk3_apply (c : Dev nD) (t : Fin cfg0.N) (k l : Fin 512) :
    (iblk m c 3 t : Vec Ideal S512x512 .bf16) (ix2 k l) = (V m c main_call0_v106 : S512x512.Idx → EReal) (ix2 k l) := by
  obtain ⟨-, -, -, -, -, -, e0, e1, -⟩ := idx_facts t
  unfold iblk
  rw [View.read_apply]
  show V m c main_call0_v106 _ = V m c main_call0_v106 _
  congr 1
  funext a
  apply Fin.ext
  match a with
  | ⟨0, _⟩ => show win0_3.index t 0 * 512 + 1 * k.val = k.val; rw [e0]; omega
  | ⟨1, _⟩ => show win0_3.index t 1 * 512 + 1 * l.val = l.val; rw [e1]; omega

/-- Window 4's block at every point is its whole array. -/
theorem iblk4_apply (c : Dev nD) (t : Fin cfg0.N) (k : Fin 512) (l : Fin 128) :
    (iblk m c 4 t : Vec Ideal S512x128 .f32) (ix2 k l) = (V m c main_call0_v107 : S512x128.Idx → EReal) (ix2 k l) := by
  obtain ⟨-, -, -, -, -, -, -, -, e0, e1, -⟩ := idx_facts t
  unfold iblk
  rw [View.read_apply]
  show V m c main_call0_v107 _ = V m c main_call0_v107 _
  congr 1
  funext a
  apply Fin.ext
  match a with
  | ⟨0, _⟩ => show win0_4.index t 0 * 512 + 1 * k.val = k.val; rw [e0]; omega
  | ⟨1, _⟩ => show win0_4.index t 1 * 128 + 1 * l.val = l.val; rw [e1]; omega

end Cert.KernelIdeal.Arr

end
-- ==== Proof.KernelOperands.lean ====
/-
  The kernel body's five operands at a grid point, entry by entry: each window's block read at an element is the
  window's array there, and the array is the packed argument or a block-diagonal lift of a 16-row table.
-/
import proofs.«170417_j39341900431498_2_alg».proof.Proof.HostKron
import proofs.«170417_j39341900431498_2_alg».proof.Proof.HostCircuit
import proofs.«170417_j39341900431498_2_alg».proof.Proof.KernelArrayBlocks
import proofs.«170417_j39341900431498_2_alg».proof.Proof.PackedRow

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Prefix Cert.KernelIdeal.Arr Cert.QL Cert.QL.Packed

variable (m : (ℓ : Loc nD τ sig) → Buf (Elt Ideal) ℓ)

/-- The ones operand: the identity of the 32 rows, each entry repeated over a 16 × 16 block. -/
theorem opJ (c : Dev nD) (t : Fin cfg0.N) (k l : Fin 512) :
    (iblk m c 3 t : Vec Ideal S512x512 .bf16) (ix2 k l) = eyeE (k.val / 16) (l.val / 16) :=
  (iblk3_apply m c t k l).trans (V_v106 m c k l)

/-- The real-part operand: the real-part rotation matrix in each diagonal block. -/
theorem opRe (c : Dev nD) (t : Fin cfg0.N) (k l : Fin 512) :
    (iblk m c 1 t : Vec Ideal S512x512 .bf16) (ix2 k l)
      = eyeE (k.val / 16) (l.val / 16) * mRe (m ((c : Thread nD τ).loc main_arg1)) (k.val % 16) (l.val % 16) :=
  (iblk1_apply m c t k l).trans ((V_v102 m c k l).trans
    (congrArg ((if k.val / 16 = l.val / 16 then (1 : EReal) else 0) * ·) (V_re m c _ _)))

/-- The imaginary-part operand: the imaginary-part rotation matrix in each diagonal block. -/
theorem opIm (c : Dev nD) (t : Fin cfg0.N) (k l : Fin 512) :
    (iblk m c 2 t : Vec Ideal S512x512 .bf16) (ix2 k l)
      = eyeE (k.val / 16) (l.val / 16) * mIm (m ((c : Thread nD τ).loc main_arg1)) (k.val % 16) (l.val % 16) :=
  (iblk2_apply m c t k l).trans ((V_v104 m c k l).trans
    (congrArg ((if k.val / 16 = l.val / 16 then (1 : EReal) else 0) * ·) (V_im m c _ _)))

/-- The sign operand: the table of signs in each diagonal 16 × 4 block. -/
theorem opS (c : Dev nD) (t : Fin cfg0.N) (k : Fin 512) (l : Fin 128) :
    (iblk m c 4 t : Vec Ideal S512x128 .f32) (ix2 k l)
      = eyeE (k.val / 16) (l.val / 4) * sgn (k.val % 16) (l.val % 4) :=
  (iblk4_apply m c t k l).trans (V_v107 m c k l)

/-- The data operand at point `t`: row `p` of the block is packed row `2048 t + p` of the argument. -/
theorem opX (c : Dev nD) (t : Fin cfg0.N) (p : Fin 2048) (k : Fin 512) :
    (iblk m c 0 t : Vec Ideal S2048x512 .f32) (ix2 p k)
      = packedRow (m ((c : Thread nD τ).loc main_arg0))
          (⟨2048 * t.val + p.val, by have := point_lt t; have := p.isLt; omega⟩ : Fin 131072) k :=
  (iblk0_apply m c t p k).trans (V_x m c _ k)

end Cert.KernelIdeal.Result

end
-- ==== Proof.KernelEntry.lean ====
/-
  The kernel's result, entry by entry.

  Grid point `t` stages packed rows `2048 t … 2048 t + 2047` of the reshaped input together with the four operand
  matrices: `identity ⊗ M_re`, `identity ⊗ M_im` (the rotations run on the basis states), `identity ⊗ ones` and
  `identity ⊗ signs`.  What the body stores at row `p`, result lane `4a + q`, is therefore the packed-row expression of
  packed row `g = 2048 t + p`, which collapses to the per-row formula `kerOut` of array row `32 g + a`, wire `q`.  The
  blocks tile the packed result and the last reshape unpacks it: the result array holds `kerOut` at every entry.
-/
import proofs.«170417_j39341900431498_2_alg».proof.Proof.Payload
import proofs.«170417_j39341900431498_2_alg».proof.Proof.KernelOperands

noncomputable section

namespace Cert.KernelIdeal.Result

open Idealize.ShloMosaic Idealize.ShloMosaic.ValueIdx Idealize.ShloMosaic.TcCoe Idealize.SL.Sem
open Cert.KernelIdeal Cert.KernelIdeal.Gen Cert.KernelIdeal.Arr Cert.QL Cert.QL.Packed

variable (m : (ℓ : Loc nD τ sig) → Buf (Elt Ideal) ℓ) (ρ : Dev nD → PrngReg)

/-- The two argument arrays as launched. -/
abbrev argX (c : Dev nD) : SX.Idx → EReal := m ((c : Thread nD τ).loc main_arg0)
abbrev argW (c : Dev nD) : SW.Idx → EReal := m ((c : Thread nD τ).loc main_arg1)

/-- The result array: `kerOut` of the launched arguments at every entry. -/
def G (c : Dev nD) : S4194304x4.Idx → EReal := fun i => kerOut (argX m c) (argW m c) (i 0) (i 1)

/-- Packed row `2048 t + p`: row `p` of the block grid point `t` stages. -/
def prow (t : Fin cfg0.N) (p : Fin 2048) : Fin 131072 := ⟨2048 * t.val + p.val, by have := point_lt t; have := p.isLt; omega⟩

/-- WHAT THE BODY STORES at row `p`, result lane `4a + q`, at grid point `t`: `kerOut` of array row `32 (2048 t + p) + a`. -/
theorem entry (c : Dev nD) (t : Fin cfg0.N) (p : Fin 2048) (a : Fin 32) (q : Fin 4) :
    k0_pay1 (F := Ideal) (iblk m c 0 t) (iblk m c 3 t) (iblk m c 1 t) (iblk m c 2 t) (iblk m c 4 t) (ix2 p (lane4 a q))
      = kerOut (argX m c) (argW m c) (rowOf (prow t p) a) q := by
  rw [Cert.KernelIdeal.Payload.pay_apply (iblk m c 0 t) (iblk m c 3 t) (iblk m c 1 t) (iblk m c 2 t) (iblk m c 4 t)
        (mRe (argW m c)) (mIm (argW m c)) sgn (opJ m c t) (opRe m c t) (opIm m c t) (opS m c t) p (lane4 a q)]
  have hx : (fun k => (iblk m c 0 t : FVec Ideal S2048x512 .f32) (ix2 p k)) = packedRow (argX m c) (prow t p) :=
    funext fun k => opX m c t p k
  rw [hx]
  exact outP_eq_kerOut (argX m c) (argW m c) (prow t p) a q

end Cert.KernelIdeal.Result

end
-- ==== Proof.KernelArrayFinal.lean ====
/-
  The kernel's packed result array after the run, entry by entry.

  At every grid point the body stores ONE payload through the whole block, so what point `t` writes back is that payload
  of the point's input blocks.  The packed array [131072, 128] holds, at row `g` and lane `l`, the entry of the result
  [4194304, 4] at row `32 g + l / 4` and column `l % 4`.  The 64 blocks of 2048 rows tile the packed array (row `g` is in
  block `g / 2048`), so the array ends holding that function everywhere.
-/
import proofs.«170417_j39341900431498_2_alg».proof.Proof.KernelArrayBlocks

noncomputable section

namespace Cert.KernelIdeal.Arr

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The body's one store through the whole block leaves its payload of the whole loaded blocks. -/
theorem out0_5_eq (x0 : Vec Ideal S2048x512 .f32) (x1 : Vec Ideal S512x512 .bf16) (x2 : Vec Ideal S512x512 .bf16)
    (x3 : Vec Ideal S512x512 .bf16) (x4 : Vec Ideal S512x128 .f32) :
    out0_5 x0 x1 x2 x3 x4 = k0_pay1 x0 x3 x1 x2 x4 := by
  unfold out0_5
  rw [View.canon_unit_zero zero_offsets]
  simp only [View.ld_unit_zero (S := S2048x512) zero_offsets, View.ld_unit_zero (S := S512x512) zero_offsets,
    View.ld_unit_zero (S := S512x128) zero_offsets]

/-- Where the packed array's entry (g, l) sits in the result: row `32 g + l / 4`, column `l % 4`. -/
def unpackIdx (i : S131072x128.Idx) : S4194304x4.Idx :=
  ix2 (⟨32 * (i 0).val + (i 1).val / 4, by have := idx2_lt0 i; have := idx2_lt1 i; omega⟩ : Fin 4194304)
    (⟨(i 1).val % 4, Nat.mod_lt _ (by decide)⟩ : Fin 4)

/-- The packed array holding the result `G`. -/
def packed (G : S4194304x4.Idx → EReal) : S131072x128.Idx → EReal := fun i => G (unpackIdx i)

/-- An index of the packed array is in point `t`'s block iff each coordinate is in the block's range on its axis. -/
theorem mem_blk5 (t : Fin cfg0.N) (i : S131072x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_call0_v109).slice (win0_5.rect t)).set ↔ _
  rw [View.set_slice_whole, Rect.mem_set_unit]
  exact Iff.rfl

/-- Every index of the packed array is in some point's block: row `g` in block `g / 2048`. -/
theorem cover5 (i : S131072x128.Idx) :
    ∃ t : Fin cfg0.N, (cfg0.win 5).flush t = true ∧ i ∈ ((cfg0.win 5).blk t).view.set := by
  have hi0 : (i 0).val < 131072 := idx2_lt0 i
  have hi1 : (i 1).val < 128 := idx2_lt1 i
  have ht : (i 0).val / 2048 < cfg0.N := lt_of_lt_of_eq (by omega : (i 0).val / 2048 < 64) N_0.symm
  refine ⟨⟨(i 0).val / 2048, ht⟩, flush0_5 _, ?_⟩
  obtain ⟨-, -, -, -, -, -, -, -, -, -, e0, e1⟩ := idx_facts ⟨(i 0).val / 2048, ht⟩
  rw [mem_blk5]
  intro a
  match a with
  | ⟨0, _⟩ =>
    show win0_5.index ⟨(i 0).val / 2048, ht⟩ (0 : Fin 2) * 2048 ≤ (i 0).val
      ∧ (i 0).val < win0_5.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_5.index ⟨(i 0).val / 2048, ht⟩ (1 : Fin 2) * 128 ≤ (i 1).val
      ∧ (i 1).val < win0_5.index ⟨(i 0).val / 2048, ht⟩ (1 : Fin 2) * 128 + 128
    rw [e1]
    omega

/-- What point `t` writes back is block `t` of the packed array holding `G`, when `G` is, entry by entry, the payload
    of the point's input blocks (`hG`: packed row `2048 t + p`, lane `4 a + q`). -/
theorem flushed5_eq (G : Dev nD → S4194304x4.Idx → EReal)
    (hG : ∀ (c : Dev nD) (t : Fin cfg0.N) (p : Fin 2048) (a : Fin 32) (q : Fin 4),
      k0_pay1 (F := Ideal) (iblk m c 0 t) (iblk m c 3 t) (iblk m c 1 t) (iblk m c 2 t) (iblk m c 4 t)
          (ix2 p (⟨4 * a.val + q.val, by omega⟩ : Fin 128))
        = G c (ix2 (⟨32 * (2048 * t.val + p.val) + a.val, by have := point_lt t; omega⟩ : Fin 4194304) q))
    (c : Dev nD) (t : Fin cfg0.N) :
    (dats m 0 c).flushed 5 t = ((cfg0.win 5).blk t).view.read (Elt Ideal) (packed (G c)) := by
  show (cfg0.win 5).cut (grid0.coords t) ((dats m 0 c).after 5 t) = _
  rw [after0_5, out0_5_eq]
  obtain ⟨-, -, -, -, -, -, -, -, -, -, e0, e1⟩ := idx_facts t
  funext j
  obtain ⟨p, l, rfl⟩ : ∃ (p : Fin 2048) (l : Fin 128), j = ix2 p l := ⟨j 0, j 1, eq_ix2 j⟩
  have hl : l.val < 128 := l.isLt
  have key := hG c t p ⟨l.val / 4, by omega⟩ ⟨l.val % 4, Nat.mod_lt _ (by decide)⟩
  have hlane : (⟨4 * (l.val / 4) + l.val % 4, by omega⟩ : Fin 128) = l := Fin.ext (by show 4 * (l.val / 4) + l.val % 4 = l.val; omega)
  rw [hlane] at key
  refine key.trans ?_
  rw [View.read_apply]
  show G c _ = G c (unpackIdx _)
  congr 1
  funext a
  apply Fin.ext
  match a with
  | ⟨0, _⟩ =>
    show 32 * (2048 * t.val + p.val) + l.val / 4
      = 32 * (win0_5.index t (0 : Fin 2) * 2048 + 1 * p.val) + (win0_5.index t (1 : Fin 2) * 128 + 1 * l.val) / 4
    rw [e0, e1]; omega
  | ⟨1, _⟩ =>
    show l.val % 4 = (win0_5.index t (1 : Fin 2) * 128 + 1 * l.val) % 4
    rw [e1]; omega

/-- So the packed array ends holding `G`, entry by entry. -/
theorem final5 (G : Dev nD → S4194304x4.Idx → EReal)
    (hG : ∀ (c : Dev nD) (t : Fin cfg0.N) (p : Fin 2048) (a : Fin 32) (q : Fin 4),
      k0_pay1 (F := Ideal) (iblk m c 0 t) (iblk m c 3 t) (iblk m c 1 t) (iblk m c 2 t) (iblk m c 4 t)
          (ix2 p (⟨4 * a.val + q.val, by omega⟩ : Fin 128))
        = G c (ix2 (⟨32 * (2048 * t.val + p.val) + a.val, by have := point_lt t; omega⟩ : Fin 4194304) q))
    (c : Dev nD) : (dats m 0 c).arrAt 5 cfg0.N = packed (G c) :=
  (dats m 0 c).arrAt_eq_of_cover 5 (packed (G c)) (fun t _ => flushed5_eq m G hG c t) cover5

end Cert.KernelIdeal.Arr

end
-- ==== Proof.KernelTail.lean ====
/-
  The host program's last step: the region's output array, 131072 rows of 128, is reshaped to 4194304 rows of 4.
  Row `b`, column `q` of the result is row `b / 32`, column `4 · (b mod 32) + q` of the array, the two having the same
  row-major position `4 b + q = 128 (b / 32) + 4 (b mod 32) + q`.
-/
import proofs.«170417_j39341900431498_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Tail

open Idealize.ShloMosaic Idealize.ShloMosaic.ValueIdx Idealize.ShloMosaic.TcCoe Cert.KernelIdeal Cert.KernelIdeal.Gen
open Idealize.ShloMosaic.StableHlo

variable (m : (ℓ : Loc nD τ sig) → Buf (Elt Ideal) ℓ)

/-- What the last step leaves in the result buffer: the reshape of the output array's final contents. -/
theorem tail_value (c : Dev nD) (Gp : S131072x128.Idx → EReal) (hfin : (dats m 0 c).arrAt 5 cfg0.N = Gp) :
    (Pipeline.afterTail₀ cfgs (dats m) 0 (V0 m) [hostOps1] c main_v0 : S4194304x4.Idx → EReal)
      = shapeCast S4194304x4 Gp shapeCasts_S131072x128_S4194304x4 := by
  unfold Pipeline.afterTail₀
  show StableHlo.after hostOps1 _ (Proc.devRef .tc main_v0) = _
  after_results
  have h := (Pipeline.withArrays_arr spec0 launch0.win.arr_inj c (V0 m c) (fun w => (dats m 0 c).arrAt w cfg0.N) 5).trans hfin
  exact congrArg (fun G : S131072x128.Idx → EReal => shapeCast S4194304x4 G shapeCasts_S131072x128_S4194304x4) h

/-- The reshape read at row `b`, column `q`. -/
theorem unpack_apply (Gp : S131072x128.Idx → EReal) (b : Fin 4194304) (q : Fin 4) :
    shapeCast S4194304x4 Gp shapeCasts_S131072x128_S4194304x4 (ix2 b q)
      = Gp (ix2 (⟨b.val / 32, by have := b.isLt; omega⟩ : Fin 131072) (⟨4 * (b.val % 32) + q.val, by have := q.isLt; omega⟩ : Fin 128)) := by
  refine shapeCast_apply Gp shapeCasts_S131072x128_S4194304x4 (ix2 b q) _ ?_
  rw [Shape.rowMajor_val_two, Shape.rowMajor_val_two]
  show b.val / 32 * 128 + (4 * (b.val % 32) + q.val) = b.val * 4 + q.val
  omega

end Cert.KernelIdeal.Tail

end
-- ==== Proof.KernelArray.lean ====
/-
  The kernel's run with its result array named entry by entry.

  After the region the packed array [131072, 128] holds the result `G` packed 32 rows to a row (row `g`, lane `l` is the
  result's row `32 g + l / 4`, column `l % 4`); the host's last step reshapes it to [4194304, 4], which reads row `b`,
  column `q` at packed row `b / 32`, lane `4 (b % 32) + q` — the entry `G` has there.  The two arguments end as launched.
-/
import proofs.«170417_j39341900431498_2_alg».proof.Proof.KernelArrayFinal
import proofs.«170417_j39341900431498_2_alg».proof.Proof.KernelTail

noncomputable section

namespace Cert.KernelIdeal.Arr

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- Unpacking the packed array gives back the result: the reshape of `packed G` is `G`. -/
theorem unpack_packed (G : S4194304x4.Idx → EReal) :
    shapeCast S4194304x4 (packed G) shapeCasts_S131072x128_S4194304x4 = G := by
  funext j
  obtain ⟨b, q, rfl⟩ : ∃ (b : Fin 4194304) (q : Fin 4), j = ix2 b q := ⟨j 0, j 1, eq_ix2 j⟩
  have hb : b.val < 4194304 := b.isLt
  have hq : q.val < 4 := q.isLt
  refine (Tail.unpack_apply (packed G) b q).trans ?_
  show G (unpackIdx _) = G (ix2 b q)
  congr 1
  funext a
  apply Fin.ext
  match a with
  | ⟨0, _⟩ => show 32 * (b.val / 32) + (4 * (b.val % 32) + q.val) / 4 = b.val; omega
  | ⟨1, _⟩ => show (4 * (b.val % 32) + q.val) % 4 = q.val; omega

/-- The run, read: the result array at `G`, the arguments unchanged, when `G` is entry by entry the payload of each
    point's input blocks (packed row `2048 t + p`, lane `4 a + q` is the result's row `32 (2048 t + p) + a`, column `q`). -/
theorem run_value (G : Dev nD → S4194304x4.Idx → EReal)
    (hG : ∀ (c : Dev nD) (t : Fin cfg0.N) (p : Fin 2048) (a : Fin 32) (q : Fin 4),
      k0_pay1 (F := Ideal) (iblk m c 0 t) (iblk m c 3 t) (iblk m c 1 t) (iblk m c 2 t) (iblk m c 4 t)
          (ix2 p (⟨4 * a.val + q.val, by omega⟩ : Fin 128))
        = G c (ix2 (⟨32 * (2048 * t.val + p.val) + a.val, by have := point_lt t; omega⟩ : Fin 4194304) q)) :
    θ_run defs (onTc (τ := τ) (main (F := Ideal))) ⟨m, fun _ => 0, ρ⟩ fun r => ∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(((h c).2 main_v0 (Pipeline.mem_restRefs_of main_v0 (by decide) (by decide))).trans
        (Tail.tail_value m c (packed (G c)) (final5 m G hG c))).trans (unpack_packed (G c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arr

end
-- ==== Proof.KernelValue.lean ====
/-
  The kernel's run, with its result named: every weakly fair execution ends with the result array holding the
  reciprocal-root form `kerOut` of the launched arguments at every entry, and with the two arguments unchanged.

  The generated run leaves the packed result as what the grid points store, block by block; each stored entry is
  `kerOut` of the array row and wire it unpacks to (`entry`); the last reshape unpacks the blocks.
-/
import proofs.«170417_j39341900431498_2_alg».proof.Proof.KernelEntry
import proofs.«170417_j39341900431498_2_alg».proof.Proof.KernelArray

noncomputable section

namespace Cert.KernelIdeal.Result

open Idealize.ShloMosaic Idealize.ShloMosaic.ValueIdx Idealize.ShloMosaic.TcCoe Idealize.SL.Sem
open Cert.KernelIdeal Cert.KernelIdeal.Gen Cert.KernelIdeal.Arr Cert.QL Cert.QL.Packed

variable (m : (ℓ : Loc nD τ sig) → Buf (Elt Ideal) ℓ) (ρ : Dev nD → PrngReg)

/-- THE KERNEL'S RUN: the result array ends at `G` (`kerOut` at every entry), the arguments as launched. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Arr.run_value m ρ (G m) (fun c t p a q => by
    have hl : ∀ h : 4 * a.val + q.val < 128, (⟨4 * a.val + q.val, h⟩ : Fin 128) = lane4 a q :=
      fun h => Fin.ext (by show 4 * a.val + q.val = a.val * 4 + q.val; omega)
    rw [hl, entry m c t p a q]
    rfl)

end Cert.KernelIdeal.Result

end
-- ==== Proof.lean ====
/-
  A batch of 4,194,304 four-qubit states, one per row of sixteen real amplitudes: each row is normalised to unit length,
  the rotations RX(θ_0) … RX(θ_3) act on wires 0 … 3, and the result is the expectation of Z on each wire.

  The reference divides the row by its Euclidean norm, runs the four rotations on the row itself (each mixes the real and
  imaginary parts of amplitudes that differ in one bit) and takes, for each wire, the difference of the two marginal
  probabilities.  The kernel packs thirty-two rows side by side, multiplies by the reciprocal square root of each row's
  sum of squares (obtained as a product with `identity ⊗ ones`), applies two 16 × 16 matrices — the four rotations run
  once on the sixteen basis states — lifted block-diagonally by the Kronecker product with the 32 × 32 identity, squares
  and adds, and contracts with the lifted table of signs (+1 where the wire's bit is 0, −1 where it is 1).

  On the extended reals the two agree wherever the reference's quotient means something.  The precondition says every
  entry of both arguments is a real number and no row of the first is the zero row (on a zero row the reference forms
  0 / 0).  Then: the block-diagonal contractions keep only a row's own sixteen lanes (zero factors elsewhere);
  `x / sqrt s = x · rsqrt s` for a positive real `s`; the rotations are linear in the state, so running them on the row is
  the row times the matrices of their values on the basis states; and the contraction with the signs is the difference of
  the marginals.  The last three are identities of real numbers, carried to the extended reals.

  The three frames: the kernel's two programs by their generated frame certificates, the reference's by its run.  The
  idealised kernel is the kernel's own text read on the extended reals: nothing was rewritten, so there is nothing to
  preserve.
-/
import proofs.«170417_j39341900431498_2_alg».proof.Defs
import proofs.«170417_j39341900431498_2_alg».proof.Proof.Gen.Kernel
import proofs.«170417_j39341900431498_2_alg».proof.Proof.Gen.Kernel.Frame
import proofs.«170417_j39341900431498_2_alg».proof.Proof.Gen.KernelIdeal
import proofs.«170417_j39341900431498_2_alg».proof.Proof.Gen.KernelIdeal.Frame
import proofs.«170417_j39341900431498_2_alg».proof.Proof.Gen.ReferenceIdeal
import proofs.«170417_j39341900431498_2_alg».proof.Proof.Gen.Pre_finite_inputs
import proofs.«170417_j39341900431498_2_alg».proof.Proof.RefJoin
import proofs.«170417_j39341900431498_2_alg».proof.Proof.RefValue
import proofs.«170417_j39341900431498_2_alg».proof.Proof.Algebra
import proofs.«170417_j39341900431498_2_alg».proof.Proof.PreDecode
import proofs.«170417_j39341900431498_2_alg».proof.Proof.KernelValue
import Idealize.ShloMosaic.Adequacy
import Idealize.ShloMosaic.Init

noncomputable section

namespace Cert.Proof

open Idealize.ShloMosaic Idealize.ShloMosaic.ValueIdx Idealize.SL.Sem Cert.QL

/-- The word-level kernel runs and keeps its arguments: its generated frame certificate. -/
theorem frame_kernel : Cert.frame_Kernel := fun m ρ _ => Cert.Kernel.Gen.frame m ρ

/-- The idealised kernel likewise. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- Both programs end with the same array: the kernel's run leaves the reciprocal-root form at every entry, the
    reference's the quotient form, and under the precondition the two forms are equal. -/
theorem algebraic : Cert.algebraic_KernelIdeal_ReferenceIdeal := by
  intro m ρ m' ρ' hpre hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.res_eq_stage, (hagree c).1, (hagree c).2]
  funext i
  obtain ⟨b, q, rfl⟩ : ∃ (b : Fin 4194304) (q : Fin 4), i = ix2 b q := ⟨i 0, i 1, eq_ix2 i⟩
  rw [Cert.ReferenceIdeal.RefValue.ref_apply]
  obtain ⟨hX, hW, hpos⟩ := Cert.QL.PreDecode.of_pre _ _ (hpre c)
  exact (kerOut_eq_refOut _ _ hX hW b (hpos b) q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
